-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S_ : Shape := ⟨0, ![]⟩
abbrev S65536 : Shape := ⟨1, ![65536]⟩
abbrev S65536x53 : Shape := ⟨2, ![65536, 53]⟩
abbrev S53 : Shape := ⟨1, ![53]⟩
abbrev S2 : Shape := ⟨1, ![2]⟩
abbrev S53x7 : Shape := ⟨2, ![53, 7]⟩
abbrev S325 : Shape := ⟨1, ![325]⟩
abbrev S325x53 : Shape := ⟨2, ![325, 53]⟩

class Facts : Prop where
  reducesTo_S_S_d : S_.ReducesTo [] S_
  h_S_ : 0 < S_.numel
  bcast_S_S65536 : S_.BroadcastsInDim S65536 (![] : Fin 0 → Fin S65536.rank)
  reducesTo_S65536_S_d0 : S65536.ReducesTo [0] S_
  bcast_S_S65536x53 : S_.BroadcastsInDim S65536x53 (![] : Fin 0 → Fin S65536x53.rank)
  reducesTo_S65536x53_S_d0_1 : S65536x53.ReducesTo [0, 1] S_
  bcast_S_S53 : S_.BroadcastsInDim S53 (![] : Fin 0 → Fin S53.rank)
  reducesTo_S53_S_d0 : S53.ReducesTo [0] S_
  bcast_S_S2 : S_.BroadcastsInDim S2 (![] : Fin 0 → Fin S2.rank)
  reducesTo_S2_S_d0 : S2.ReducesTo [0] S_
  bcast_S_S53x7 : S_.BroadcastsInDim S53x7 (![] : Fin 0 → Fin S53x7.rank)
  reducesTo_S53x7_S_d0_1 : S53x7.ReducesTo [0, 1] S_
  bcast_S_S325 : S_.BroadcastsInDim S325 (![] : Fin 0 → Fin S325.rank)
  reducesTo_S325_S_d0 : S325.ReducesTo [0] S_
  bcast_S_S325x53 : S_.BroadcastsInDim S325x53 (![] : Fin 0 → Fin S325x53.rank)
  reducesTo_S325x53_S_d0_1 : S325x53.ReducesTo [0, 1] S_

variable [Facts]

def fn_part4 {F : FTy → Type} [FloatOps F] (main_arg15 : FVec F S325x53 .f32) (main_v65 : IVec S_ 1) (main_v66 : FVec F S325x53 .f32) (main_cst_26 : FVec F S_ .f32) : IVec S_ 1 :=
  let main_v67 : FVec F S325x53 .f32 := broadcastInDim S325x53 ![] bcast_S_S325x53 main_cst_26
  let main_v68 : IVec S325x53 1 := cmpf .olt main_v66 main_v67
  let main_c_27 : IVec S_ 1 := constantI S_ 1 1#1
  let main_v69 : IVec S_ 1 := (fun x v => Host.reduce IntOp.andi x v reducesTo_S325x53_S_d0_1 h_S_) main_v68 main_c_27
  let main_v70 : IVec S_ 1 := andi main_v65 main_v69
  let main_v71 : FVec F S325x53 .f32 := Host.absf main_arg15
  let main_cst_28 : FVec F S_ .f32 := constant S_ .f32 0x7F800000#32
  let main_v72 : FVec F S325x53 .f32 := broadcastInDim S325x53 ![] bcast_S_S325x53 main_cst_28
  let main_v73 : IVec S325x53 1 := cmpf .olt main_v71 main_v72
  let main_c_29 : IVec S_ 1 := constantI S_ 1 1#1
  let main_v74 : IVec S_ 1 := (fun x v => Host.reduce IntOp.andi x v reducesTo_S325x53_S_d0_1 h_S_) main_v73 main_c_29
  let main_v75 : IVec S_ 1 := andi main_v70 main_v74
  main_v75

def fn_part3 {F : FTy → Type} [FloatOps F] (main_arg11 : FVec F S325 .f32) (main_arg12 : FVec F S325 .f32) (main_arg13 : FVec F S325 .f32) (main_arg14 : FVec F S325x53 .f32) (main_arg15 : FVec F S325x53 .f32) (main_v45 : IVec S_ 1) (main_v49 : IVec S_ 1) : IVec S_ 1 :=
  let main_v50 : IVec S_ 1 := andi main_v45 main_v49
  let main_v51 : FVec F S325 .f32 := Host.absf main_arg11
  let main_cst_20 : FVec F S_ .f32 := constant S_ .f32 0x7F800000#32
  let main_v52 : FVec F S325 .f32 := broadcastInDim S325 ![] bcast_S_S325 main_cst_20
  let main_v53 : IVec S325 1 := cmpf .olt main_v51 main_v52
  let main_c_21 : IVec S_ 1 := constantI S_ 1 1#1
  let main_v54 : IVec S_ 1 := (fun x v => Host.reduce IntOp.andi x v reducesTo_S325_S_d0 h_S_) main_v53 main_c_21
  let main_v55 : IVec S_ 1 := andi main_v50 main_v54
  let main_v56 : FVec F S325 .f32 := Host.absf main_arg12
  let main_cst_22 : FVec F S_ .f32 := constant S_ .f32 0x7F800000#32
  let main_v57 : FVec F S325 .f32 := broadcastInDim S325 ![] bcast_S_S325 main_cst_22
  let main_v58 : IVec S325 1 := cmpf .olt main_v56 main_v57
  let main_c_23 : IVec S_ 1 := constantI S_ 1 1#1
  let main_v59 : IVec S_ 1 := (fun x v => Host.reduce IntOp.andi x v reducesTo_S325_S_d0 h_S_) main_v58 main_c_23
  let main_v60 : IVec S_ 1 := andi main_v55 main_v59
  let main_v61 : FVec F S325 .f32 := Host.absf main_arg13
  let main_cst_24 : FVec F S_ .f32 := constant S_ .f32 0x7F800000#32
  let main_v62 : FVec F S325 .f32 := broadcastInDim S325 ![] bcast_S_S325 main_cst_24
  let main_v63 : IVec S325 1 := cmpf .olt main_v61 main_v62
  let main_c_25 : IVec S_ 1 := constantI S_ 1 1#1
  let main_v64 : IVec S_ 1 := (fun x v => Host.reduce IntOp.andi x v reducesTo_S325_S_d0 h_S_) main_v63 main_c_25
  let main_v65 : IVec S_ 1 := andi main_v60 main_v64
  let main_v66 : FVec F S325x53 .f32 := Host.absf main_arg14
  let main_cst_26 : FVec F S_ .f32 := constant S_ .f32 0x7F800000#32
  fn_part4 (F := F) main_arg15 main_v65 main_v66 main_cst_26

def fn_part2 {F : FTy → Type} [FloatOps F] (main_arg8 : FVec F S2 .f32) (main_arg9 : FVec F S53x7 .f32) (main_arg10 : FVec F S53 .f32) (main_arg11 : FVec F S325 .f32) (main_arg12 : FVec F S325 .f32) (main_arg13 : FVec F S325 .f32) (main_arg14 : FVec F S325x53 .f32) (main_arg15 : FVec F S325x53 .f32) (main_v30 : IVec S_ 1) (main_v31 : FVec F S2 .f32) (main_v32 : FVec F S2 .f32) : IVec S_ 1 :=
  let main_v33 : IVec S2 1 := cmpf .olt main_v31 main_v32
  let main_c_13 : IVec S_ 1 := constantI S_ 1 1#1
  let main_v34 : IVec S_ 1 := (fun x v => Host.reduce IntOp.andi x v reducesTo_S2_S_d0 h_S_) main_v33 main_c_13
  let main_v35 : IVec S_ 1 := andi main_v30 main_v34
  let main_v36 : FVec F S2 .f32 := Host.absf main_arg8
  let main_cst_14 : FVec F S_ .f32 := constant S_ .f32 0x7F800000#32
  let main_v37 : FVec F S2 .f32 := broadcastInDim S2 ![] bcast_S_S2 main_cst_14
  let main_v38 : IVec S2 1 := cmpf .olt main_v36 main_v37
  let main_c_15 : IVec S_ 1 := constantI S_ 1 1#1
  let main_v39 : IVec S_ 1 := (fun x v => Host.reduce IntOp.andi x v reducesTo_S2_S_d0 h_S_) main_v38 main_c_15
  let main_v40 : IVec S_ 1 := andi main_v35 main_v39
  let main_v41 : FVec F S53x7 .f32 := Host.absf main_arg9
  let main_cst_16 : FVec F S_ .f32 := constant S_ .f32 0x7F800000#32
  let main_v42 : FVec F S53x7 .f32 := broadcastInDim S53x7 ![] bcast_S_S53x7 main_cst_16
  let main_v43 : IVec S53x7 1 := cmpf .olt main_v41 main_v42
  let main_c_17 : IVec S_ 1 := constantI S_ 1 1#1
  let main_v44 : IVec S_ 1 := (fun x v => Host.reduce IntOp.andi x v reducesTo_S53x7_S_d0_1 h_S_) main_v43 main_c_17
  let main_v45 : IVec S_ 1 := andi main_v40 main_v44
  let main_v46 : FVec F S53 .f32 := Host.absf main_arg10
  let main_cst_18 : FVec F S_ .f32 := constant S_ .f32 0x7F800000#32
  let main_v47 : FVec F S53 .f32 := broadcastInDim S53 ![] bcast_S_S53 main_cst_18
  let main_v48 : IVec S53 1 := cmpf .olt main_v46 main_v47
  let main_c_19 : IVec S_ 1 := constantI S_ 1 1#1
  let main_v49 : IVec S_ 1 := (fun x v => Host.reduce IntOp.andi x v reducesTo_S53_S_d0 h_S_) main_v48 main_c_19
  fn_part3 (F := F) main_arg11 main_arg12 main_arg13 main_arg14 main_arg15 main_v45 main_v49

def fn_part1 {F : FTy → Type} [FloatOps F] (main_arg4 : FVec F S_ .f32) (main_arg5 : FVec F S_ .f32) (main_arg6 : FVec F S53 .f32) (main_arg7 : FVec F S2 .f32) (main_arg8 : FVec F S2 .f32) (main_arg9 : FVec F S53x7 .f32) (main_arg10 : FVec F S53 .f32) (main_arg11 : FVec F S325 .f32) (main_arg12 : FVec F S325 .f32) (main_arg13 : FVec F S325 .f32) (main_arg14 : FVec F S325x53 .f32) (main_arg15 : FVec F S325x53 .f32) (main_v12 : IVec S_ 1) (main_v15 : IVec S65536 1) (main_c_5 : IVec S_ 1) : IVec S_ 1 :=
  let main_v16 : IVec S_ 1 := (fun x v => Host.reduce IntOp.andi x v reducesTo_S65536_S_d0 h_S_) main_v15 main_c_5
  let main_v17 : IVec S_ 1 := andi main_v12 main_v16
  let main_v18 : FVec F S_ .f32 := Host.absf main_arg4
  let main_cst_6 : FVec F S_ .f32 := constant S_ .f32 0x7F800000#32
  let main_v19 : IVec S_ 1 := cmpf .olt main_v18 main_cst_6
  let main_c_7 : IVec S_ 1 := constantI S_ 1 1#1
  let main_v20 : IVec S_ 1 := (fun x v => Host.reduce IntOp.andi x v reducesTo_S_S_d h_S_) main_v19 main_c_7
  let main_v21 : IVec S_ 1 := andi main_v17 main_v20
  let main_v22 : FVec F S_ .f32 := Host.absf main_arg5
  let main_cst_8 : FVec F S_ .f32 := constant S_ .f32 0x7F800000#32
  let main_v23 : IVec S_ 1 := cmpf .olt main_v22 main_cst_8
  let main_c_9 : IVec S_ 1 := constantI S_ 1 1#1
  let main_v24 : IVec S_ 1 := (fun x v => Host.reduce IntOp.andi x v reducesTo_S_S_d h_S_) main_v23 main_c_9
  let main_v25 : IVec S_ 1 := andi main_v21 main_v24
  let main_v26 : FVec F S53 .f32 := Host.absf main_arg6
  let main_cst_10 : FVec F S_ .f32 := constant S_ .f32 0x7F800000#32
  let main_v27 : FVec F S53 .f32 := broadcastInDim S53 ![] bcast_S_S53 main_cst_10
  let main_v28 : IVec S53 1 := cmpf .olt main_v26 main_v27
  let main_c_11 : IVec S_ 1 := constantI S_ 1 1#1
  let main_v29 : IVec S_ 1 := (fun x v => Host.reduce IntOp.andi x v reducesTo_S53_S_d0 h_S_) main_v28 main_c_11
  let main_v30 : IVec S_ 1 := andi main_v25 main_v29
  let main_v31 : FVec F S2 .f32 := Host.absf main_arg7
  let main_cst_12 : FVec F S_ .f32 := constant S_ .f32 0x7F800000#32
  let main_v32 : FVec F S2 .f32 := broadcastInDim S2 ![] bcast_S_S2 main_cst_12
  fn_part2 (F := F) main_arg8 main_arg9 main_arg10 main_arg11 main_arg12 main_arg13 main_arg14 main_arg15 main_v30 main_v31 main_v32

def fn {F : FTy → Type} [FloatOps F] (main_arg0 : FVec F S_ .f32) (main_arg1 : FVec F S65536 .f32) (main_arg2 : FVec F S65536x53 .f32) (main_arg3 : FVec F S65536 .f32) (main_arg4 : FVec F S_ .f32) (main_arg5 : FVec F S_ .f32) (main_arg6 : FVec F S53 .f32) (main_arg7 : FVec F S2 .f32) (main_arg8 : FVec F S2 .f32) (main_arg9 : FVec F S53x7 .f32) (main_arg10 : FVec F S53 .f32) (main_arg11 : FVec F S325 .f32) (main_arg12 : FVec F S325 .f32) (main_arg13 : FVec F S325 .f32) (main_arg14 : FVec F S325x53 .f32) (main_arg15 : FVec F S325x53 .f32) : IVec S_ 1 :=
  let main_v0 : FVec F S_ .f32 := Host.absf main_arg0
  let main_cst : FVec F S_ .f32 := constant S_ .f32 0x7F800000#32
  let main_v1 : IVec S_ 1 := cmpf .olt main_v0 main_cst
  let main_c : IVec S_ 1 := constantI S_ 1 1#1
  let main_v2 : IVec S_ 1 := (fun x v => Host.reduce IntOp.andi x v reducesTo_S_S_d h_S_) main_v1 main_c
  let main_v3 : FVec F S65536 .f32 := Host.absf main_arg1
  let main_cst_0 : FVec F S_ .f32 := constant S_ .f32 0x7F800000#32
  let main_v4 : FVec F S65536 .f32 := broadcastInDim S65536 ![] bcast_S_S65536 main_cst_0
  let main_v5 : IVec S65536 1 := cmpf .olt main_v3 main_v4
  let main_c_1 : IVec S_ 1 := constantI S_ 1 1#1
  let main_v6 : IVec S_ 1 := (fun x v => Host.reduce IntOp.andi x v reducesTo_S65536_S_d0 h_S_) main_v5 main_c_1
  let main_v7 : IVec S_ 1 := andi main_v2 main_v6
  let main_v8 : FVec F S65536x53 .f32 := Host.absf main_arg2
  let main_cst_2 : FVec F S_ .f32 := constant S_ .f32 0x7F800000#32
  let main_v9 : FVec F S65536x53 .f32 := broadcastInDim S65536x53 ![] bcast_S_S65536x53 main_cst_2
  let main_v10 : IVec S65536x53 1 := cmpf .olt main_v8 main_v9
  let main_c_3 : IVec S_ 1 := constantI S_ 1 1#1
  let main_v11 : IVec S_ 1 := (fun x v => Host.reduce IntOp.andi x v reducesTo_S65536x53_S_d0_1 h_S_) main_v10 main_c_3
  let main_v12 : IVec S_ 1 := andi main_v7 main_v11
  let main_v13 : FVec F S65536 .f32 := Host.absf main_arg3
  let main_cst_4 : FVec F S_ .f32 := constant S_ .f32 0x7F800000#32
  let main_v14 : FVec F S65536 .f32 := broadcastInDim S65536 ![] bcast_S_S65536 main_cst_4
  let main_v15 : IVec S65536 1 := cmpf .olt main_v13 main_v14
  let main_c_5 : IVec S_ 1 := constantI S_ 1 1#1
  fn_part1 (F := F) main_arg4 main_arg5 main_arg6 main_arg7 main_arg8 main_arg9 main_arg10 main_arg11 main_arg12 main_arg13 main_arg14 main_arg15 main_v12 main_v15 main_c_5
-- ==== Kernel.lean ====
abbrev S_ : Shape := ⟨0, ![]⟩
abbrev S65536 : Shape := ⟨1, ![65536]⟩
abbrev S65536x53 : Shape := ⟨2, ![65536, 53]⟩
abbrev S53 : Shape := ⟨1, ![53]⟩
abbrev S2 : Shape := ⟨1, ![2]⟩
abbrev S53x7 : Shape := ⟨2, ![53, 7]⟩
abbrev S325 : Shape := ⟨1, ![325]⟩
abbrev S325x53 : Shape := ⟨2, ![325, 53]⟩
abbrev S1 : Shape := ⟨1, ![1]⟩
abbrev S53x1 : Shape := ⟨2, ![53, 1]⟩
abbrev S7x53 : Shape := ⟨2, ![7, 53]⟩
abbrev S1x53 : Shape := ⟨2, ![1, 53]⟩
abbrev S2x53 : Shape := ⟨2, ![2, 53]⟩
abbrev S1x325 : Shape := ⟨2, ![1, 325]⟩
abbrev S4x325 : Shape := ⟨2, ![4, 325]⟩
abbrev S4 : Shape := ⟨1, ![4]⟩
abbrev S1x4 : Shape := ⟨2, ![1, 4]⟩
abbrev S65536x55 : Shape := ⟨2, ![65536, 55]⟩
abbrev S1024 : Shape := ⟨1, ![1024]⟩
abbrev S1024x53 : Shape := ⟨2, ![1024, 53]⟩
abbrev S1024x55 : Shape := ⟨2, ![1024, 55]⟩
abbrev S1024x1 : Shape := ⟨2, ![1024, 1]⟩
abbrev S1x1 : Shape := ⟨2, ![1, 1]⟩
abbrev S1024x325 : Shape := ⟨2, ![1024, 325]⟩

abbrev nBuf : Space → Nat
  | .hbm => 98
  | .vmem => 15
  | .smem => 0
  | _ => 0

abbrev bufTy : (tb : Table) → Fin (tcTables nBuf tb) → BufTy
  | .hbm, ⟨0, _⟩ => ⟨S_, .f32⟩
  | .hbm, ⟨1, _⟩ => ⟨S65536, .f32⟩
  | .hbm, ⟨2, _⟩ => ⟨S65536x53, .f32⟩
  | .hbm, ⟨3, _⟩ => ⟨S65536, .f32⟩
  | .hbm, ⟨4, _⟩ => ⟨S_, .f32⟩
  | .hbm, ⟨5, _⟩ => ⟨S_, .f32⟩
  | .hbm, ⟨6, _⟩ => ⟨S53, .f32⟩
  | .hbm, ⟨7, _⟩ => ⟨S2, .f32⟩
  | .hbm, ⟨8, _⟩ => ⟨S2, .f32⟩
  | .hbm, ⟨9, _⟩ => ⟨S53x7, .f32⟩
  | .hbm, ⟨10, _⟩ => ⟨S53, .f32⟩
  | .hbm, ⟨11, _⟩ => ⟨S325, .f32⟩
  | .hbm, ⟨12, _⟩ => ⟨S325, .f32⟩
  | .hbm, ⟨13, _⟩ => ⟨S325, .f32⟩
  | .hbm, ⟨14, _⟩ => ⟨S325x53, .f32⟩
  | .hbm, ⟨15, _⟩ => ⟨S325x53, .f32⟩
  | .hbm, ⟨16, _⟩ => ⟨S1, .f32⟩
  | .hbm, ⟨17, _⟩ => ⟨S_, .f32⟩
  | .hbm, ⟨18, _⟩ => ⟨S1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S53x1, .f32⟩
  | .hbm, ⟨29, _⟩ => ⟨S53, .f32⟩
  | .hbm, ⟨30, _⟩ => ⟨S53x1, .f32⟩
  | .hbm, ⟨31, _⟩ => ⟨S53, .f32⟩
  | .hbm, ⟨32, _⟩ => ⟨S53x1, .f32⟩
  | .hbm, ⟨33, _⟩ => ⟨S53, .f32⟩
  | .hbm, ⟨34, _⟩ => ⟨S53x1, .f32⟩
  | .hbm, ⟨35, _⟩ => ⟨S53, .f32⟩
  | .hbm, ⟨36, _⟩ => ⟨S53x1, .f32⟩
  | .hbm, ⟨37, _⟩ => ⟨S53, .f32⟩
  | .hbm, ⟨38, _⟩ => ⟨S53x1, .f32⟩
  | .hbm, ⟨39, _⟩ => ⟨S53, .f32⟩
  | .hbm, ⟨40, _⟩ => ⟨S53x1, .f32⟩
  | .hbm, ⟨41, _⟩ => ⟨S53, .f32⟩
  | .hbm, ⟨42, _⟩ => ⟨S_, .f32⟩
  | .hbm, ⟨43, _⟩ => ⟨S53, .f32⟩
  | .hbm, ⟨44, _⟩ => ⟨S53, .f32⟩
  | .hbm, ⟨45, _⟩ => ⟨S_, .f32⟩
  | .hbm, ⟨46, _⟩ => ⟨S53, .f32⟩
  | .hbm, ⟨47, _⟩ => ⟨S53, .f32⟩
  | .hbm, ⟨48, _⟩ => ⟨S_, .f32⟩
  | .hbm, ⟨49, _⟩ => ⟨S53, .f32⟩
  | .hbm, ⟨50, _⟩ => ⟨S53, .f32⟩
  | .hbm, ⟨51, _⟩ => ⟨S53, .f32⟩
  | .hbm, ⟨52, _⟩ => ⟨S53, .f32⟩
  | .hbm, ⟨53, _⟩ => ⟨S_, .f32⟩
  | .hbm, ⟨54, _⟩ => ⟨S53, .f32⟩
  | .hbm, ⟨55, _⟩ => ⟨S53, .f32⟩
  | .hbm, ⟨56, _⟩ => ⟨S53, .f32⟩
  | .hbm, ⟨57, _⟩ => ⟨S53, .f32⟩
  | .hbm, ⟨58, _⟩ => ⟨S53, .f32⟩
  | .hbm, ⟨59, _⟩ => ⟨S53, .f32⟩
  | .hbm, ⟨60, _⟩ => ⟨S53, .f32⟩
  | .hbm, ⟨61, _⟩ => ⟨S53, .f32⟩
  | .hbm, ⟨62, _⟩ => ⟨S53, .f32⟩
  | .hbm, ⟨63, _⟩ => ⟨S53, .f32⟩
  | .hbm, ⟨64, _⟩ => ⟨S53, .f32⟩
  | .hbm, ⟨65, _⟩ => ⟨S53, .f32⟩
  | .hbm, ⟨66, _⟩ => ⟨S53, .f32⟩
  | .hbm, ⟨67, _⟩ => ⟨S53, .f32⟩
  | .hbm, ⟨68, _⟩ => ⟨S53, .f32⟩
  | .hbm, ⟨69, _⟩ => ⟨S53, .f32⟩
  | .hbm, ⟨70, _⟩ => ⟨S_, .f32⟩
  | .hbm, ⟨71, _⟩ => ⟨S53, .f32⟩
  | .hbm, ⟨72, _⟩ => ⟨S53, .f32⟩
  | .hbm, ⟨73, _⟩ => ⟨S53, .f32⟩
  | .hbm, ⟨74, _⟩ => ⟨S53, .f32⟩
  | .hbm, ⟨75, _⟩ => ⟨S53, .f32⟩
  | .hbm, ⟨76, _⟩ => ⟨S_, .f32⟩
  | .hbm, ⟨77, _⟩ => ⟨S_, .f32⟩
  | .hbm, ⟨78, _⟩ => ⟨S325, .f32⟩
  | .hbm, ⟨79, _⟩ => ⟨S325x53, .f32⟩
  | .hbm, ⟨80, _⟩ => ⟨S_, .f32⟩
  | .hbm, ⟨81, _⟩ => ⟨S325, .f32⟩
  | .hbm, ⟨82, _⟩ => ⟨S7x53, .f32⟩
  | .hbm, ⟨83, _⟩ => ⟨S1x53, .f32⟩
  | .hbm, ⟨84, _⟩ => ⟨S1x53, .f32⟩
  | .hbm, ⟨85, _⟩ => ⟨S2x53, .f32⟩
  | .hbm, ⟨86, _⟩ => ⟨S1x325, .f32⟩
  | .hbm, ⟨87, _⟩ => ⟨S1x325, .f32⟩
  | .hbm, ⟨88, _⟩ => ⟨S1x325, .f32⟩
  | .hbm, ⟨89, _⟩ => ⟨S1x325, .f32⟩
  | .hbm, ⟨90, _⟩ => ⟨S4x325, .f32⟩
  | .hbm, ⟨91, _⟩ => ⟨S1, .f32⟩
  | .hbm, ⟨92, _⟩ => ⟨S1, .f32⟩
  | .hbm, ⟨93, _⟩ => ⟨S1, .f32⟩
  | .hbm, ⟨94, _⟩ => ⟨S1, .f32⟩
  | .hbm, ⟨95, _⟩ => ⟨S4, .f32⟩
  | .hbm, ⟨96, _⟩ => ⟨S1x4, .f32⟩
  | .hbm, ⟨97, _⟩ => ⟨S65536x55, .f32⟩
  | .local _ .vmem, ⟨0, _⟩ => ⟨S1024, .f32⟩
  | .local _ .vmem, ⟨1, _⟩ => ⟨S1024, .f32⟩
  | .local _ .vmem, ⟨2, _⟩ => ⟨S1024x53, .f32⟩
  | .local _ .vmem, ⟨3, _⟩ => ⟨S1024x53, .f32⟩
  | .local _ .vmem, ⟨4, _⟩ => ⟨S1024, .f32⟩
  | .local _ .vmem, ⟨5, _⟩ => ⟨S1024, .f32⟩
  | .local _ .vmem, ⟨6, _⟩ => ⟨S7x53, .f32⟩
  | .local _ .vmem, ⟨7, _⟩ => ⟨S2x53, .f32⟩
  | .local _ .vmem, ⟨8, _⟩ => ⟨S4x325, .f32⟩
  | .local _ .vmem, ⟨9, _⟩ => ⟨S325x53, .f32⟩
  | .local _ .vmem, ⟨10, _⟩ => ⟨S325x53, .f32⟩
  | .local _ .vmem, ⟨11, _⟩ => ⟨S325x53, .f32⟩
  | .local _ .vmem, ⟨12, _⟩ => ⟨S1x4, .f32⟩
  | .local _ .vmem, ⟨13, _⟩ => ⟨S1024x55, .f32⟩
  | .local _ .vmem, ⟨14, _⟩ => ⟨S1024x55, .f32⟩
  | _, _ => ⟨S_, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_cst_0 : Ref sig .tc := ⟨.hbm, 45, rfl⟩
abbrev main_v28 : Ref sig .tc := ⟨.hbm, 46, rfl⟩
abbrev main_v29 : Ref sig .tc := ⟨.hbm, 47, rfl⟩
abbrev main_cst_1 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_2 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_3 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_4 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_5 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x53 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S7x53 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x53 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x325 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S325x53 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S325x53 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S325x53 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x55 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  slices_S2_S1_0 : S2.Slices ![0] S1
  shapeCasts_S1_S_ : S1.ShapeCasts S_
  slices_S2_S1_1 : S2.Slices ![1] S1
  slices_S53x7_S53x1_0_0 : S53x7.Slices ![0, 0] S53x1
  shapeCasts_S53x1_S53 : S53x1.ShapeCasts S53
  slices_S53x7_S53x1_0_1 : S53x7.Slices ![0, 1] S53x1
  slices_S53x7_S53x1_0_2 : S53x7.Slices ![0, 2] S53x1
  slices_S53x7_S53x1_0_3 : S53x7.Slices ![0, 3] S53x1
  slices_S53x7_S53x1_0_4 : S53x7.Slices ![0, 4] S53x1
  slices_S53x7_S53x1_0_5 : S53x7.Slices ![0, 5] S53x1
  slices_S53x7_S53x1_0_6 : S53x7.Slices ![0, 6] S53x1
  bcast_S_S53 : S_.BroadcastsInDim S53 (![] : Fin 0 → Fin S53.rank)
  reducesTo_S53_S_d0 : S53.ReducesTo [0] S_
  h_S_ : 0 < S_.numel
  reducesTo_S325x53_S325_d1 : S325x53.ReducesTo [1] S325
  transposes_S53x7_S7x53_1_0 : S53x7.Transposes [1, 0] S7x53
  bcast_S53_S1x53_1 : S53.BroadcastsInDim S1x53 (![1] : Fin 1 → Fin S1x53.rank)
  concatenates_S1x53_S1x53_S2x53_d0 : Shape.Concatenates [S1x53, S1x53] S2x53 0
  bcast_S325_S1x325_1 : S325.BroadcastsInDim S1x325 (![1] : Fin 1 → Fin S1x325.rank)
  concatenates_S1x325_S1x325_S1x325_S1x325_S4x325_d0 : Shape.Concatenates [S1x325, S1x325, S1x325, S1x325] S4x325 0
  bcast_S_S1 : S_.BroadcastsInDim S1 (![] : Fin 0 → Fin S1.rank)
  concatenates_S1_S1_S1_S1_S4_d0 : Shape.Concatenates [S1, S1, S1, S1] S4 0
  shapeCasts_S4_S1x4 : S4.ShapeCasts S1x4
  inb_S1024_S1024_0 : ∀ a, (![0] : Fin 1 → Nat) a + S1024.size a ≤ S1024.size a
  h_S1024 : 0 < S1024.numel
  shapeCasts_S1024_S1024x1 : S1024.ShapeCasts S1024x1
  inb_S1024x53_S1024x53_0_0 : ∀ a, (![0, 0] : Fin 2 → Nat) a + S1024x53.size a ≤ S1024x53.size a
  h_S1024x53 : 0 < S1024x53.numel
  inb_S7x53_S1x53_0_0 : ∀ a, (![0, 0] : Fin 2 → Nat) a + S1x53.size a ≤ S7x53.size a
  h_S1x53 : 0 < S1x53.numel
  shapeCasts_S1x53_S1x53 : S1x53.ShapeCasts S1x53
  inb_S7x53_S1x53_1_0 : ∀ a, (![1, 0] : Fin 2 → Nat) a + S1x53.size a ≤ S7x53.size a
  inb_S7x53_S1x53_2_0 : ∀ a, (![2, 0] : Fin 2 → Nat) a + S1x53.size a ≤ S7x53.size a
  inb_S7x53_S1x53_3_0 : ∀ a, (![3, 0] : Fin 2 → Nat) a + S1x53.size a ≤ S7x53.size a
  inb_S7x53_S1x53_4_0 : ∀ a, (![4, 0] : Fin 2 → Nat) a + S1x53.size a ≤ S7x53.size a
  inb_S7x53_S1x53_5_0 : ∀ a, (![5, 0] : Fin 2 → Nat) a + S1x53.size a ≤ S7x53.size a
  inb_S7x53_S1x53_6_0 : ∀ a, (![6, 0] : Fin 2 → Nat) a + S1x53.size a ≤ S7x53.size a
  inb_S2x53_S1x53_0_0 : ∀ a, (![0, 0] : Fin 2 → Nat) a + S1x53.size a ≤ S2x53.size a
  inb_S2x53_S1x53_1_0 : ∀ a, (![1, 0] : Fin 2 → Nat) a + S1x53.size a ≤ S2x53.size a
  inb_S4x325_S1x325_0_0 : ∀ a, (![0, 0] : Fin 2 → Nat) a + S1x325.size a ≤ S4x325.size a
  h_S1x325 : 0 < S1x325.numel
  shapeCasts_S1x325_S1x325 : S1x325.ShapeCasts S1x325
  inb_S4x325_S1x325_1_0 : ∀ a, (![1, 0] : Fin 2 → Nat) a + S1x325.size a ≤ S4x325.size a
  inb_S4x325_S1x325_2_0 : ∀ a, (![2, 0] : Fin 2 → Nat) a + S1x325.size a ≤ S4x325.size a
  inb_S4x325_S1x325_3_0 : ∀ a, (![3, 0] : Fin 2 → Nat) a + S1x325.size a ≤ S4x325.size a
  inb_S325x53_S325x53_0_0 : ∀ a, (![0, 0] : Fin 2 → Nat) a + S325x53.size a ≤ S325x53.size a
  h_S325x53 : 0 < S325x53.numel
  shapeCasts_S325x53_S325x53 : S325x53.ShapeCasts S325x53
  inb_S1x4_S1x4_0_0 : ∀ a, (![0, 0] : Fin 2 → Nat) a + S1x4.size a ≤ S1x4.size a
  h_S1x4 : 0 < S1x4.numel
  shapeCasts_S1x4_S1x4 : S1x4.ShapeCasts S1x4
  slices_S1x4_o0_0_S1x1 : S1x4.Slices ![0, 0] S1x1
  slices_S1x4_o0_1_S1x1 : S1x4.Slices ![0, 1] S1x1
  slices_S1x4_o0_2_S1x1 : S1x4.Slices ![0, 2] S1x1
  slices_S1x4_o0_3_S1x1 : S1x4.Slices ![0, 3] S1x1
  broadcasts_S1024x1_S1024x53 : S1024x1.Broadcasts S1024x53
  broadcasts_S1x53_S1024x53 : S1x53.Broadcasts S1024x53
  reduces_S1024x53_S1024 : S1024x53.Reduces [1] S1024
  broadcasts_S1x1_S1024x1 : S1x1.Broadcasts S1024x1
  broadcasts_S1x325_S1024x325 : S1x325.Broadcasts S1024x325
  broadcasts_S1024x1_S1024x325 : S1024x1.Broadcasts S1024x325
  broadcasts_S1x1_S1024x53 : S1x1.Broadcasts S1024x53
  shapeCasts_S1x1_S1x1 : S1x1.ShapeCasts S1x1
  inb_S1024x55_S1024x1_0_0 : ∀ a, (![0, 0] : Fin 2 → Nat) a + S1024x1.size a ≤ S1024x55.size a
  h_S1024x1 : 0 < S1024x1.numel
  inb_S1024x55_S1024x53_0_1 : ∀ a, (![0, 1] : Fin 2 → Nat) a + S1024x53.size a ≤ S1024x55.size a
  inb_S1024x55_S1024x1_0_54 : ∀ a, (![0, 54] : Fin 2 → Nat) a + S1024x1.size a ≤ S1024x55.size a
  dot_S1024x53_S325x53_S1024x325_1_1_0_0_n_n_wf : DotDims.WF S1024x53 S325x53 S1024x325 [1] [1] [0] [0] [] []
  dot_S1024x325_S325x53_S1024x53_1_0_0_1_n_n_wf : DotDims.WF S1024x325 S325x53 S1024x53 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S65536.size a
  hwx0_0 : ∀ i : grid0.Coords, EltTy.bits .f32 = 32 ∨ (Rect.block (s := S65536) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x53.size a ≤ S65536x53.size a
  hwx0_1 : ∀ i : grid0.Coords, EltTy.bits .f32 = 32 ∨ (Rect.block (s := S65536x53) S1024x53.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S65536.size a
  hwx0_2 : ∀ i : grid0.Coords, EltTy.bits .f32 = 32 ∨ (Rect.block (s := S65536) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x53.size a ≤ S7x53.size a
  hwx0_3 : ∀ i : grid0.Coords, EltTy.bits .f32 = 32 ∨ (Rect.block (s := S7x53) S7x53.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x53.size a ≤ S2x53.size a
  hwx0_4 : ∀ i : grid0.Coords, EltTy.bits .f32 = 32 ∨ (Rect.block (s := S2x53) S2x53.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x325.size a ≤ S4x325.size a
  hwx0_5 : ∀ i : grid0.Coords, EltTy.bits .f32 = 32 ∨ (Rect.block (s := S4x325) S4x325.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S325x53.size a ≤ S325x53.size a
  hwx0_6 : ∀ i : grid0.Coords, EltTy.bits .f32 = 32 ∨ (Rect.block (s := S325x53) S325x53.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S325x53.size a ≤ S325x53.size a
  hwx0_7 : ∀ i : grid0.Coords, EltTy.bits .f32 = 32 ∨ (Rect.block (s := S325x53) S325x53.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S325x53.size a ≤ S325x53.size a
  hwx0_8 : ∀ i : grid0.Coords, EltTy.bits .f32 = 32 ∨ (Rect.block (s := S325x53) S325x53.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x4.size a ≤ S1x4.size a
  hwx0_9 : ∀ i : grid0.Coords, EltTy.bits .f32 = 32 ∨ (Rect.block (s := S1x4) S1x4.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1024x55.size a ≤ S65536x55.size a
  hwx0_10 : ∀ i : grid0.Coords, EltTy.bits .f32 = 32 ∨ (Rect.block (s := S65536x55) S1024x55.size (cc0_transform_10 i) (hinb0_10 i)).WholeWords (EltTy.packing .f32)

variable [Facts₀]

def dot_S1024x53_S325x53_S1024x325_1_1_0_0_n_n : DotDims S1024x53 S325x53 S1024x325 where
  lhsContracting := [1]
  rhsContracting := [1]
  lhsNonContracting := [0]
  rhsNonContracting := [0]
  lhsBatch := []
  rhsBatch := []
  wf := dot_S1024x53_S325x53_S1024x325_1_1_0_0_n_n_wf
def dot_S1024x325_S325x53_S1024x53_1_0_0_1_n_n : DotDims S1024x325 S325x53 S1024x53 where
  lhsContracting := [1]
  rhsContracting := [0]
  lhsNonContracting := [0]
  rhsNonContracting := [1]
  lhsBatch := []
  rhsBatch := []
  wf := dot_S1024x325_S325x53_S1024x53_1_0_0_1_n_n_wf

abbrev win0_0 : Pipeline.Window sig grid0 :=
  Pipeline.Window.ofSpec (Memref.whole main_arg1) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x53.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v59) S7x53.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v62) S2x53.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v67) S4x325.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S325x53.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg15) S325x53.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v57) S325x53.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v73) S1x4.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v74) S1024x55.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S_ : Shape := ⟨0, ![]⟩
abbrev S65536 : Shape := ⟨1, ![65536]⟩
abbrev S65536x53 : Shape := ⟨2, ![65536, 53]⟩
abbrev S53 : Shape := ⟨1, ![53]⟩
abbrev S2 : Shape := ⟨1, ![2]⟩
abbrev S53x7 : Shape := ⟨2, ![53, 7]⟩
abbrev S325 : Shape := ⟨1, ![325]⟩
abbrev S325x53 : Shape := ⟨2, ![325, 53]⟩
abbrev S1 : Shape := ⟨1, ![1]⟩
abbrev S65536x1 : Shape := ⟨2, ![65536, 1]⟩
abbrev S53x1 : Shape := ⟨2, ![53, 1]⟩
abbrev S1x53 : Shape := ⟨2, ![1, 53]⟩
abbrev S1x325 : Shape := ⟨2, ![1, 325]⟩
abbrev S65536x325 : Shape := ⟨2, ![65536, 325]⟩
abbrev S65536x55 : Shape := ⟨2, ![65536, 55]⟩

abbrev nBuf : Space → Nat
  | .hbm => 369
  | .vmem => 0
  | .smem => 0
  | _ => 0

abbrev hbmTy0_0 (i : Nat) : BufTy := match i % 128 with
  | 0 => ⟨S_, .f32⟩
  | 1 => ⟨S65536, .f32⟩
  | 2 => ⟨S65536x53, .f32⟩
  | 3 => ⟨S65536, .f32⟩
  | 4 => ⟨S_, .f32⟩
  | 5 => ⟨S_, .f32⟩
  | 6 => ⟨S53, .f32⟩
  | 7 => ⟨S2, .f32⟩
  | 8 => ⟨S2, .f32⟩
  | 9 => ⟨S53x7, .f32⟩
  | 10 => ⟨S53, .f32⟩
  | 11 => ⟨S325, .f32⟩
  | 12 => ⟨S325, .f32⟩
  | 13 => ⟨S325, .f32⟩
  | 14 => ⟨S325x53, .f32⟩
  | 15 => ⟨S325x53, .f32⟩
  | 16 => ⟨S1, .f32⟩
  | 17 => ⟨S_, .f32⟩
  | 18 => ⟨S1, .f32⟩
  | 19 => ⟨S_, .f32⟩
  | 20 => ⟨S_, .f32⟩
  | 21 => ⟨S_, .f32⟩
  | 22 => ⟨S1, .f32⟩
  | 23 => ⟨S_, .f32⟩
  | 24 => ⟨S1, .f32⟩
  | 25 => ⟨S_, .f32⟩
  | 26 => ⟨S_, .f32⟩
  | 27 => ⟨S_, .f32⟩
  | 28 => ⟨S65536x1, .f32⟩
  | 29 => ⟨S53x1, .f32⟩
  | 30 => ⟨S53, .f32⟩
  | 31 => ⟨S53x1, .f32⟩
  | 32 => ⟨S53, .f32⟩
  | 33 => ⟨S53x1, .f32⟩
  | 34 => ⟨S53, .f32⟩
  | 35 => ⟨S53x1, .f32⟩
  | 36 => ⟨S53, .f32⟩
  | 37 => ⟨S53x1, .f32⟩
  | 38 => ⟨S53, .f32⟩
  | 39 => ⟨S53x1, .f32⟩
  | 40 => ⟨S53, .f32⟩
  | 41 => ⟨S53x1, .f32⟩
  | 42 => ⟨S53, .f32⟩
  | 43 => ⟨S1x53, .f32⟩
  | 44 => ⟨S65536x53, .f32⟩
  | 45 => ⟨S65536x53, .f32⟩
  | 46 => ⟨S65536x53, .f32⟩
  | 47 => ⟨S1x53, .f32⟩
  | 48 => ⟨S65536x53, .f32⟩
  | 49 => ⟨S65536x53, .f32⟩
  | 50 => ⟨S65536x53, .f32⟩
  | 51 => ⟨S65536x53, .f32⟩
  | 52 => ⟨S1x53, .f32⟩
  | 53 => ⟨S65536x53, .f32⟩
  | 54 => ⟨S65536x53, .f32⟩
  | 55 => ⟨S65536x53, .f32⟩
  | 56 => ⟨S65536x53, .f32⟩
  | 57 => ⟨S1x53, .f32⟩
  | 58 => ⟨S65536x53, .f32⟩
  | 59 => ⟨S65536x53, .f32⟩
  | 60 => ⟨S65536x53, .f32⟩
  | 61 => ⟨S65536x53, .f32⟩
  | 62 => ⟨S1x53, .f32⟩
  | 63 => ⟨S65536x53, .f32⟩
  | 64 => ⟨S65536x53, .f32⟩
  | 65 => ⟨S_, .f32⟩
  | 66 => ⟨S53, .f32⟩
  | 67 => ⟨S53, .f32⟩
  | 68 => ⟨S_, .f32⟩
  | 69 => ⟨S53, .f32⟩
  | 70 => ⟨S53, .f32⟩
  | 71 => ⟨S_, .f32⟩
  | 72 => ⟨S53, .f32⟩
  | 73 => ⟨S53, .f32⟩
  | 74 => ⟨S1x53, .f32⟩
  | 75 => ⟨S65536x53, .f32⟩
  | 76 => ⟨S65536x53, .f32⟩
  | 77 => ⟨S65536x53, .f32⟩
  | 78 => ⟨S_, .f32⟩
  | 79 => ⟨S65536x53, .f32⟩
  | 80 => ⟨S65536x53, .f32⟩
  | 81 => ⟨S1x53, .f32⟩
  | 82 => ⟨S65536x53, .f32⟩
  | 83 => ⟨S65536x53, .f32⟩
  | 84 => ⟨S65536x53, .f32⟩
  | 85 => ⟨S65536x53, .f32⟩
  | 86 => ⟨S1x53, .f32⟩
  | 87 => ⟨S65536x53, .f32⟩
  | 88 => ⟨S65536x53, .f32⟩
  | 89 => ⟨S65536x53, .f32⟩
  | 90 => ⟨S65536x53, .f32⟩
  | 91 => ⟨S1x53, .f32⟩
  | 92 => ⟨S65536x53, .f32⟩
  | 93 => ⟨S65536x53, .f32⟩
  | 94 => ⟨S65536x53, .f32⟩
  | 95 => ⟨S65536x53, .f32⟩
  | 96 => ⟨S1x53, .f32⟩
  | 97 => ⟨S65536x53, .f32⟩
  | 98 => ⟨S65536x53, .f32⟩
  | 99 => ⟨S1x53, .f32⟩
  | 100 => ⟨S65536x53, .f32⟩
  | 101 => ⟨S65536x53, .f32⟩
  | 102 => ⟨S65536x53, .f32⟩
  | 103 => ⟨S65536x53, .f32⟩
  | 104 => ⟨S65536x1, .f32⟩
  | 105 => ⟨S1x53, .f32⟩
  | 106 => ⟨S65536x53, .f32⟩
  | 107 => ⟨S65536x53, .f32⟩
  | 108 => ⟨S65536x53, .f32⟩
  | 109 => ⟨S_, .f32⟩
  | 110 => ⟨S53, .f32⟩
  | 111 => ⟨S53, .f32⟩
  | 112 => ⟨S_, .f32⟩
  | 113 => ⟨S53, .f32⟩
  | 114 => ⟨S53, .f32⟩
  | 115 => ⟨S1x53, .f32⟩
  | 116 => ⟨S65536x53, .f32⟩
  | 117 => ⟨S65536x53, .f32⟩
  | 118 => ⟨S65536x53, .f32⟩
  | 119 => ⟨S_, .f32⟩
  | 120 => ⟨S65536x53, .f32⟩
  | 121 => ⟨S65536x53, .f32⟩
  | 122 => ⟨S1x53, .f32⟩
  | 123 => ⟨S65536x53, .f32⟩
  | 124 => ⟨S65536x53, .f32⟩
  | 125 => ⟨S65536x53, .f32⟩
  | 126 => ⟨S65536x53, .f32⟩
  | 127 => ⟨S1x53, .f32⟩
  | _ => ⟨S_, .f32⟩

abbrev hbmTy0_1 (i : Nat) : BufTy := match i % 128 with
  | 0 => ⟨S65536x53, .f32⟩
  | 1 => ⟨S65536x53, .f32⟩
  | 2 => ⟨S65536x53, .f32⟩
  | 3 => ⟨S65536x53, .f32⟩
  | 4 => ⟨S1x53, .f32⟩
  | 5 => ⟨S65536x53, .f32⟩
  | 6 => ⟨S65536x53, .f32⟩
  | 7 => ⟨S65536x53, .f32⟩
  | 8 => ⟨S65536x53, .f32⟩
  | 9 => ⟨S65536x53, .f32⟩
  | 10 => ⟨S1x53, .f32⟩
  | 11 => ⟨S65536x53, .f32⟩
  | 12 => ⟨S65536x53, .f32⟩
  | 13 => ⟨S_, .f32⟩
  | 14 => ⟨S65536x53, .f32⟩
  | 15 => ⟨S65536x53, .f32⟩
  | 16 => ⟨S65536x1, .f32⟩
  | 17 => ⟨S_, .f32⟩
  | 18 => ⟨S65536x1, .f32⟩
  | 19 => ⟨S65536x1, .f32⟩
  | 20 => ⟨S65536x53, .f32⟩
  | 21 => ⟨S65536x53, .f32⟩
  | 22 => ⟨S1x53, .f32⟩
  | 23 => ⟨S65536x53, .f32⟩
  | 24 => ⟨S65536x53, .f32⟩
  | 25 => ⟨S_, .f32⟩
  | 26 => ⟨S65536, .f32⟩
  | 27 => ⟨S_, .f32⟩
  | 28 => ⟨S65536, .f32⟩
  | 29 => ⟨S65536, .f32⟩
  | 30 => ⟨S65536, .f32⟩
  | 31 => ⟨S65536, .f32⟩
  | 32 => ⟨S65536, .f32⟩
  | 33 => ⟨S65536x53, .f32⟩
  | 34 => ⟨S1x53, .f32⟩
  | 35 => ⟨S65536x53, .f32⟩
  | 36 => ⟨S65536x53, .f32⟩
  | 37 => ⟨S_, .f32⟩
  | 38 => ⟨S65536, .f32⟩
  | 39 => ⟨S65536x53, .f32⟩
  | 40 => ⟨S1x53, .f32⟩
  | 41 => ⟨S65536x53, .f32⟩
  | 42 => ⟨S65536x53, .f32⟩
  | 43 => ⟨S_, .f32⟩
  | 44 => ⟨S65536, .f32⟩
  | 45 => ⟨S1, .f32⟩
  | 46 => ⟨S53x1, .f32⟩
  | 47 => ⟨S53, .f32⟩
  | 48 => ⟨S53x1, .f32⟩
  | 49 => ⟨S53, .f32⟩
  | 50 => ⟨S53x1, .f32⟩
  | 51 => ⟨S53, .f32⟩
  | 52 => ⟨S53x1, .f32⟩
  | 53 => ⟨S53, .f32⟩
  | 54 => ⟨S53x1, .f32⟩
  | 55 => ⟨S53, .f32⟩
  | 56 => ⟨S53x1, .f32⟩
  | 57 => ⟨S53, .f32⟩
  | 58 => ⟨S53x1, .f32⟩
  | 59 => ⟨S53, .f32⟩
  | 60 => ⟨S53, .f32⟩
  | 61 => ⟨S53, .f32⟩
  | 62 => ⟨S53, .f32⟩
  | 63 => ⟨S53, .f32⟩
  | 64 => ⟨S53, .f32⟩
  | 65 => ⟨S53, .f32⟩
  | 66 => ⟨S53, .f32⟩
  | 67 => ⟨S53, .f32⟩
  | 68 => ⟨S53, .f32⟩
  | 69 => ⟨S53, .f32⟩
  | 70 => ⟨S53, .f32⟩
  | 71 => ⟨S53, .f32⟩
  | 72 => ⟨S_, .f32⟩
  | 73 => ⟨S53, .f32⟩
  | 74 => ⟨S53, .f32⟩
  | 75 => ⟨S_, .f32⟩
  | 76 => ⟨S53, .f32⟩
  | 77 => ⟨S53, .f32⟩
  | 78 => ⟨S_, .f32⟩
  | 79 => ⟨S53, .f32⟩
  | 80 => ⟨S53, .f32⟩
  | 81 => ⟨S53, .f32⟩
  | 82 => ⟨S53, .f32⟩
  | 83 => ⟨S_, .f32⟩
  | 84 => ⟨S53, .f32⟩
  | 85 => ⟨S53, .f32⟩
  | 86 => ⟨S53, .f32⟩
  | 87 => ⟨S53, .f32⟩
  | 88 => ⟨S53, .f32⟩
  | 89 => ⟨S53, .f32⟩
  | 90 => ⟨S53, .f32⟩
  | 91 => ⟨S53, .f32⟩
  | 92 => ⟨S53, .f32⟩
  | 93 => ⟨S53, .f32⟩
  | 94 => ⟨S53, .f32⟩
  | 95 => ⟨S53, .f32⟩
  | 96 => ⟨S53, .f32⟩
  | 97 => ⟨S53, .f32⟩
  | 98 => ⟨S53, .f32⟩
  | 99 => ⟨S1, .f32⟩
  | 100 => ⟨S53, .f32⟩
  | 101 => ⟨S53, .f32⟩
  | 102 => ⟨S_, .f32⟩
  | 103 => ⟨S53, .f32⟩
  | 104 => ⟨S53, .f32⟩
  | 105 => ⟨S_, .f32⟩
  | 106 => ⟨S53, .f32⟩
  | 107 => ⟨S53, .f32⟩
  | 108 => ⟨S53, .f32⟩
  | 109 => ⟨S53, .f32⟩
  | 110 => ⟨S_, .f32⟩
  | 111 => ⟨S53, .f32⟩
  | 112 => ⟨S53, .f32⟩
  | 113 => ⟨S53, .f32⟩
  | 114 => ⟨S53, .f32⟩
  | 115 => ⟨S53, .f32⟩
  | 116 => ⟨S53, .f32⟩
  | 117 => ⟨S53, .f32⟩
  | 118 => ⟨S53, .f32⟩
  | 119 => ⟨S53, .f32⟩
  | 120 => ⟨S53, .f32⟩
  | 121 => ⟨S53, .f32⟩
  | 122 => ⟨S53, .f32⟩
  | 123 => ⟨S53, .f32⟩
  | 124 => ⟨S53, .f32⟩
  | 125 => ⟨S_, .f32⟩
  | 126 => ⟨S53, .f32⟩
  | 127 => ⟨S53, .f32⟩
  | _ => ⟨S_, .f32⟩

abbrev hbmTy0_2 (i : Nat) : BufTy := match i % 128 with
  | 0 => ⟨S53, .f32⟩
  | 1 => ⟨S53, .f32⟩
  | 2 => ⟨S53, .f32⟩
  | 3 => ⟨S_, .f32⟩
  | 4 => ⟨S_, .f32⟩
  | 5 => ⟨S325x53, .f32⟩
  | 6 => ⟨S325, .f32⟩
  | 7 => ⟨S65536, .f32⟩
  | 8 => ⟨S65536x1, .f32⟩
  | 9 => ⟨S1x325, .f32⟩
  | 10 => ⟨S65536x325, .f32⟩
  | 11 => ⟨S65536x325, .f32⟩
  | 12 => ⟨S65536x325, .f32⟩
  | 13 => ⟨S1x325, .f32⟩
  | 14 => ⟨S65536x325, .f32⟩
  | 15 => ⟨S65536x325, .f32⟩
  | 16 => ⟨S65536x1, .f32⟩
  | 17 => ⟨S_, .f32⟩
  | 18 => ⟨S65536x1, .f32⟩
  | 19 => ⟨S65536x1, .f32⟩
  | 20 => ⟨S1x325, .f32⟩
  | 21 => ⟨S65536x325, .f32⟩
  | 22 => ⟨S65536x325, .f32⟩
  | 23 => ⟨S65536x325, .f32⟩
  | 24 => ⟨S65536x325, .f32⟩
  | 25 => ⟨S65536x53, .f32⟩
  | 26 => ⟨S65536x325, .f32⟩
  | 27 => ⟨S65536x325, .f32⟩
  | 28 => ⟨S_, .f32⟩
  | 29 => ⟨S325, .f32⟩
  | 30 => ⟨S_, .f32⟩
  | 31 => ⟨S65536, .f32⟩
  | 32 => ⟨S65536, .f32⟩
  | 33 => ⟨S_, .f32⟩
  | 34 => ⟨S65536, .f32⟩
  | 35 => ⟨S65536, .f32⟩
  | 36 => ⟨S65536, .f32⟩
  | 37 => ⟨S65536x1, .f32⟩
  | 38 => ⟨S1x325, .f32⟩
  | 39 => ⟨S65536x325, .f32⟩
  | 40 => ⟨S65536x325, .f32⟩
  | 41 => ⟨S65536x325, .f32⟩
  | 42 => ⟨S65536x325, .f32⟩
  | 43 => ⟨S65536x325, .f32⟩
  | 44 => ⟨S65536x1, .f32⟩
  | 45 => ⟨S65536x53, .f32⟩
  | 46 => ⟨S65536x53, .f32⟩
  | 47 => ⟨S1x53, .f32⟩
  | 48 => ⟨S65536x53, .f32⟩
  | 49 => ⟨S65536x53, .f32⟩
  | 50 => ⟨S_, .f32⟩
  | 51 => ⟨S65536x53, .f32⟩
  | 52 => ⟨S65536x53, .f32⟩
  | 53 => ⟨S65536x53, .f32⟩
  | 54 => ⟨S65536x325, .f32⟩
  | 55 => ⟨S65536x325, .f32⟩
  | 56 => ⟨S_, .f32⟩
  | 57 => ⟨S_, .f32⟩
  | 58 => ⟨S_, .f32⟩
  | 59 => ⟨S65536x325, .f32⟩
  | 60 => ⟨S65536x325, .f32⟩
  | 61 => ⟨S_, .f32⟩
  | 62 => ⟨S65536x325, .f32⟩
  | 63 => ⟨S65536x325, .f32⟩
  | 64 => ⟨S65536x325, .f32⟩
  | 65 => ⟨S65536x325, .f32⟩
  | 66 => ⟨S65536x325, .f32⟩
  | 67 => ⟨S_, .f32⟩
  | 68 => ⟨S_, .f32⟩
  | 69 => ⟨S_, .f32⟩
  | 70 => ⟨S65536x325, .f32⟩
  | 71 => ⟨S65536x325, .f32⟩
  | 72 => ⟨S_, .f32⟩
  | 73 => ⟨S65536x325, .f32⟩
  | 74 => ⟨S65536x325, .f32⟩
  | 75 => ⟨S65536x325, .f32⟩
  | 76 => ⟨S65536x325, .f32⟩
  | 77 => ⟨S65536x53, .f32⟩
  | 78 => ⟨S_, .f32⟩
  | 79 => ⟨S65536, .f32⟩
  | 80 => ⟨S65536, .f32⟩
  | 81 => ⟨S1x53, .f32⟩
  | 82 => ⟨S65536x53, .f32⟩
  | 83 => ⟨S65536x53, .f32⟩
  | 84 => ⟨S65536x1, .f32⟩
  | 85 => ⟨S65536x53, .f32⟩
  | 86 => ⟨S65536x53, .f32⟩
  | 87 => ⟨S1x53, .f32⟩
  | 88 => ⟨S65536x53, .f32⟩
  | 89 => ⟨S65536x53, .f32⟩
  | 90 => ⟨S65536x53, .f32⟩
  | 91 => ⟨S65536x53, .f32⟩
  | 92 => ⟨S65536x1, .f32⟩
  | 93 => ⟨S65536x53, .f32⟩
  | 94 => ⟨S65536x53, .f32⟩
  | 95 => ⟨S65536x53, .f32⟩
  | 96 => ⟨S65536x53, .f32⟩
  | 97 => ⟨S_, .f32⟩
  | 98 => ⟨S65536, .f32⟩
  | 99 => ⟨S65536, .f32⟩
  | 100 => ⟨S65536, .f32⟩
  | 101 => ⟨S65536, .f32⟩
  | 102 => ⟨S65536, .f32⟩
  | 103 => ⟨S65536, .f32⟩
  | 104 => ⟨S65536, .f32⟩
  | 105 => ⟨S65536, .f32⟩
  | 106 => ⟨S65536, .f32⟩
  | 107 => ⟨S65536, .f32⟩
  | 108 => ⟨S65536, .f32⟩
  | 109 => ⟨S_, .f32⟩
  | 110 => ⟨S65536x1, .f32⟩
  | 111 => ⟨S65536x1, .f32⟩
  | 112 => ⟨S65536x55, .f32⟩
  | _ => ⟨S_, .f32⟩

abbrev hbmTy (i : Nat) : BufTy := match i / 128 with
  | 0 => hbmTy0_0 i
  | 1 => hbmTy0_1 i
  | 2 => hbmTy0_2 i
  | _ => ⟨S_, .f32⟩

abbrev bufTy : (tb : Table) → Fin (tcTables nBuf tb) → BufTy
  | .hbm, ⟨i, _⟩ => hbmTy i
  | _, _ => ⟨S_, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst : Ref sig .tc := ⟨.hbm, 65, rfl⟩
abbrev main_v49 : Ref sig .tc := ⟨.hbm, 66, rfl⟩
abbrev main_v50 : Ref sig .tc := ⟨.hbm, 67, rfl⟩
abbrev main_cst_0 : Ref sig .tc := ⟨.hbm, 68, rfl⟩
abbrev main_v51 : Ref sig .tc := ⟨.hbm, 69, rfl⟩
abbrev main_v52 : Ref sig .tc := ⟨.hbm, 70, rfl⟩
abbrev main_cst_1 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_2 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_cst_3 : Ref sig .tc := ⟨.hbm, 109, rfl⟩
abbrev main_v89 : Ref sig .tc := ⟨.hbm, 110, rfl⟩
abbrev main_v90 : Ref sig .tc := ⟨.hbm, 111, rfl⟩
abbrev main_cst_4 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_cst_5 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_6 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_cst_7 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_cst_8 : Ref sig .tc := ⟨.hbm, 153, rfl⟩
abbrev main_v128 : Ref sig .tc := ⟨.hbm, 154, rfl⟩
abbrev main_cst_9 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_cst_10 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_cst_11 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_v159 : Ref sig .tc := ⟨.hbm, 188, rfl⟩
abbrev main_v160 : Ref sig .tc := ⟨.hbm, 189, rfl⟩
abbrev main_v161 : Ref sig .tc := ⟨.hbm, 190, rfl⟩
abbrev main_v162 : Ref sig .tc := ⟨.hbm, 191, rfl⟩
abbrev main_v163 : Ref sig .tc := ⟨.hbm, 192, rfl⟩
abbrev main_v164 : Ref sig .tc := ⟨.hbm, 193, rfl⟩
abbrev main_v165 : Ref sig .tc := ⟨.hbm, 194, rfl⟩
abbrev main_v166 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_cst_12 : Ref sig .tc := ⟨.hbm, 200, rfl⟩
abbrev main_v171 : Ref sig .tc := ⟨.hbm, 201, rfl⟩
abbrev main_v172 : Ref sig .tc := ⟨.hbm, 202, rfl⟩
abbrev main_cst_13 : Ref sig .tc := ⟨.hbm, 203, rfl⟩
abbrev main_v173 : Ref sig .tc := ⟨.hbm, 204, rfl⟩
abbrev main_v174 : Ref sig .tc := ⟨.hbm, 205, rfl⟩
abbrev main_cst_14 : Ref sig .tc := ⟨.hbm, 206, rfl⟩
abbrev main_v175 : Ref sig .tc := ⟨.hbm, 207, rfl⟩
abbrev main_v176 : Ref sig .tc := ⟨.hbm, 208, rfl⟩
abbrev main_v177 : Ref sig .tc := ⟨.hbm, 209, rfl⟩
abbrev main_v178 : Ref sig .tc := ⟨.hbm, 210, rfl⟩
abbrev main_cst_15 : Ref sig .tc := ⟨.hbm, 211, rfl⟩
abbrev main_v179 : Ref sig .tc := ⟨.hbm, 212, rfl⟩
abbrev main_v180 : Ref sig .tc := ⟨.hbm, 213, rfl⟩
abbrev main_v181 : Ref sig .tc := ⟨.hbm, 214, rfl⟩
abbrev main_v182 : Ref sig .tc := ⟨.hbm, 215, rfl⟩
abbrev main_v183 : Ref sig .tc := ⟨.hbm, 216, rfl⟩
abbrev main_v184 : Ref sig .tc := ⟨.hbm, 217, rfl⟩
abbrev main_v185 : Ref sig .tc := ⟨.hbm, 218, rfl⟩
abbrev main_v186 : Ref sig .tc := ⟨.hbm, 219, rfl⟩
abbrev main_v187 : Ref sig .tc := ⟨.hbm, 220, rfl⟩
abbrev main_v188 : Ref sig .tc := ⟨.hbm, 221, rfl⟩
abbrev main_v189 : Ref sig .tc := ⟨.hbm, 222, rfl⟩
abbrev main_v190 : Ref sig .tc := ⟨.hbm, 223, rfl⟩
abbrev main_v191 : Ref sig .tc := ⟨.hbm, 224, rfl⟩
abbrev main_v192 : Ref sig .tc := ⟨.hbm, 225, rfl⟩
abbrev main_v193 : Ref sig .tc := ⟨.hbm, 226, rfl⟩
abbrev main_v194 : Ref sig .tc := ⟨.hbm, 227, rfl⟩
abbrev main_v195 : Ref sig .tc := ⟨.hbm, 228, rfl⟩
abbrev main_v196 : Ref sig .tc := ⟨.hbm, 229, rfl⟩
abbrev main_cst_16 : Ref sig .tc := ⟨.hbm, 230, rfl⟩
abbrev main_v197 : Ref sig .tc := ⟨.hbm, 231, rfl⟩
abbrev main_v198 : Ref sig .tc := ⟨.hbm, 232, rfl⟩
abbrev main_cst_17 : Ref sig .tc := ⟨.hbm, 233, rfl⟩
abbrev main_v199 : Ref sig .tc := ⟨.hbm, 234, rfl⟩
abbrev main_v200 : Ref sig .tc := ⟨.hbm, 235, rfl⟩
abbrev main_v201 : Ref sig .tc := ⟨.hbm, 236, rfl⟩
abbrev main_v202 : Ref sig .tc := ⟨.hbm, 237, rfl⟩
abbrev main_cst_18 : Ref sig .tc := ⟨.hbm, 238, rfl⟩
abbrev main_v203 : Ref sig .tc := ⟨.hbm, 239, rfl⟩
abbrev main_v204 : Ref sig .tc := ⟨.hbm, 240, rfl⟩
abbrev main_v205 : Ref sig .tc := ⟨.hbm, 241, rfl⟩
abbrev main_v206 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_v212 : Ref sig .tc := ⟨.hbm, 248, rfl⟩
abbrev main_v213 : Ref sig .tc := ⟨.hbm, 249, rfl⟩
abbrev main_v214 : Ref sig .tc := ⟨.hbm, 250, rfl⟩
abbrev main_v215 : Ref sig .tc := ⟨.hbm, 251, rfl⟩
abbrev main_v216 : Ref sig .tc := ⟨.hbm, 252, rfl⟩
abbrev main_cst_19 : Ref sig .tc := ⟨.hbm, 253, rfl⟩
abbrev main_v217 : Ref sig .tc := ⟨.hbm, 254, rfl⟩
abbrev main_v218 : Ref sig .tc := ⟨.hbm, 255, rfl⟩
abbrev main_v219 : Ref sig .tc := ⟨.hbm, 256, rfl⟩
abbrev main_v220 : Ref sig .tc := ⟨.hbm, 257, rfl⟩
abbrev main_v221 : Ref sig .tc := ⟨.hbm, 258, rfl⟩
abbrev main_cst_20 : Ref sig .tc := ⟨.hbm, 259, rfl⟩
abbrev main_v222 : Ref sig .tc := ⟨.hbm, 260, rfl⟩
abbrev main_v223 : Ref sig .tc := ⟨.hbm, 261, rfl⟩
abbrev main_v224 : Ref sig .tc := ⟨.hbm, 262, rfl⟩
abbrev main_v225 : Ref sig .tc := ⟨.hbm, 263, rfl⟩
abbrev main_v226 : Ref sig .tc := ⟨.hbm, 264, rfl⟩
abbrev main_v227 : Ref sig .tc := ⟨.hbm, 265, rfl⟩
abbrev main_v228 : Ref sig .tc := ⟨.hbm, 266, rfl⟩
abbrev main_v229 : Ref sig .tc := ⟨.hbm, 267, rfl⟩
abbrev main_v230 : Ref sig .tc := ⟨.hbm, 268, rfl⟩
abbrev main_v231 : Ref sig .tc := ⟨.hbm, 269, rfl⟩
abbrev main_v232 : Ref sig .tc := ⟨.hbm, 270, rfl⟩
abbrev main_v233 : Ref sig .tc := ⟨.hbm, 271, rfl⟩
abbrev main_v234 : Ref sig .tc := ⟨.hbm, 272, rfl⟩
abbrev main_cst_21 : Ref sig .tc := ⟨.hbm, 273, rfl⟩
abbrev main_v235 : Ref sig .tc := ⟨.hbm, 274, rfl⟩
abbrev main_v236 : Ref sig .tc := ⟨.hbm, 275, rfl⟩
abbrev main_v237 : Ref sig .tc := ⟨.hbm, 276, rfl⟩
abbrev main_v238 : Ref sig .tc := ⟨.hbm, 277, rfl⟩
abbrev main_v239 : Ref sig .tc := ⟨.hbm, 278, rfl⟩
abbrev main_v240 : Ref sig .tc := ⟨.hbm, 279, rfl⟩
abbrev main_v241 : Ref sig .tc := ⟨.hbm, 280, rfl⟩
abbrev main_v242 : Ref sig .tc := ⟨.hbm, 281, rfl⟩
abbrev main_v243 : Ref sig .tc := ⟨.hbm, 282, rfl⟩
abbrev main_v244 : Ref sig .tc := ⟨.hbm, 283, rfl⟩
abbrev main_cst_22 : Ref sig .tc := ⟨.hbm, 284, rfl⟩
abbrev main_v245 : Ref sig .tc := ⟨.hbm, 285, rfl⟩
abbrev main_cst_23 : Ref sig .tc := ⟨.hbm, 286, rfl⟩
abbrev main_v246 : Ref sig .tc := ⟨.hbm, 287, rfl⟩
abbrev main_v247 : Ref sig .tc := ⟨.hbm, 288, rfl⟩
abbrev main_cst_24 : Ref sig .tc := ⟨.hbm, 289, rfl⟩
abbrev main_v248 : Ref sig .tc := ⟨.hbm, 290, rfl⟩
abbrev main_v249 : Ref sig .tc := ⟨.hbm, 291, rfl⟩
abbrev main_v250 : Ref sig .tc := ⟨.hbm, 292, rfl⟩
abbrev main_v251 : Ref sig .tc := ⟨.hbm, 293, rfl⟩
abbrev main_v252 : Ref sig .tc := ⟨.hbm, 294, rfl⟩
abbrev main_v253 : Ref sig .tc := ⟨.hbm, 295, rfl⟩
abbrev main_v254 : Ref sig .tc := ⟨.hbm, 296, rfl⟩
abbrev main_v255 : Ref sig .tc := ⟨.hbm, 297, rfl⟩
abbrev main_v256 : Ref sig .tc := ⟨.hbm, 298, rfl⟩
abbrev main_v257 : Ref sig .tc := ⟨.hbm, 299, rfl⟩
abbrev main_v258 : Ref sig .tc := ⟨.hbm, 300, rfl⟩
abbrev main_v259 : Ref sig .tc := ⟨.hbm, 301, rfl⟩
abbrev main_v260 : Ref sig .tc := ⟨.hbm, 302, rfl⟩
abbrev main_v261 : Ref sig .tc := ⟨.hbm, 303, rfl⟩
abbrev main_v262 : Ref sig .tc := ⟨.hbm, 304, rfl⟩
abbrev main_v263 : Ref sig .tc := ⟨.hbm, 305, rfl⟩
abbrev main_cst_25 : Ref sig .tc := ⟨.hbm, 306, rfl⟩
abbrev main_v264 : Ref sig .tc := ⟨.hbm, 307, rfl⟩
abbrev main_v265 : Ref sig .tc := ⟨.hbm, 308, rfl⟩
abbrev main_v266 : Ref sig .tc := ⟨.hbm, 309, rfl⟩
abbrev main_v267 : Ref sig .tc := ⟨.hbm, 310, rfl⟩
abbrev main_v268 : Ref sig .tc := ⟨.hbm, 311, rfl⟩
abbrev main_cst_26 : Ref sig .tc := ⟨.hbm, 312, rfl⟩
abbrev main_cst_27 : Ref sig .tc := ⟨.hbm, 313, rfl⟩
abbrev main_call0_v0 : Ref sig .tc := ⟨.hbm, 314, rfl⟩
abbrev main_call0_v1 : Ref sig .tc := ⟨.hbm, 315, rfl⟩
abbrev main_call0_v2 : Ref sig .tc := ⟨.hbm, 316, rfl⟩
abbrev main_call0_v3 : Ref sig .tc := ⟨.hbm, 317, rfl⟩
abbrev main_call0_v4 : Ref sig .tc := ⟨.hbm, 318, rfl⟩
abbrev main_v269 : Ref sig .tc := ⟨.hbm, 319, rfl⟩
abbrev main_v270 : Ref sig .tc := ⟨.hbm, 320, rfl⟩
abbrev main_v271 : Ref sig .tc := ⟨.hbm, 321, rfl⟩
abbrev main_v272 : Ref sig .tc := ⟨.hbm, 322, rfl⟩
abbrev main_cst_28 : Ref sig .tc := ⟨.hbm, 323, rfl⟩
abbrev main_cst_29 : Ref sig .tc := ⟨.hbm, 324, rfl⟩
abbrev main_call1_v0 : Ref sig .tc := ⟨.hbm, 325, rfl⟩
abbrev main_call1_v1 : Ref sig .tc := ⟨.hbm, 326, rfl⟩
abbrev main_call1_v2 : Ref sig .tc := ⟨.hbm, 327, rfl⟩
abbrev main_call1_v3 : Ref sig .tc := ⟨.hbm, 328, rfl⟩
abbrev main_call1_v4 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_v276 : Ref sig .tc := ⟨.hbm, 333, rfl⟩
abbrev main_cst_30 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_v280 : Ref sig .tc := ⟨.hbm, 338, rfl⟩
abbrev main_v281 : Ref sig .tc := ⟨.hbm, 339, rfl⟩
abbrev main_v282 : Ref sig .tc := ⟨.hbm, 340, rfl⟩
abbrev main_v283 : Ref sig .tc := ⟨.hbm, 341, rfl⟩
abbrev main_v284 : Ref sig .tc := ⟨.hbm, 342, rfl⟩
abbrev main_v285 : Ref sig .tc := ⟨.hbm, 343, rfl⟩
abbrev main_v286 : Ref sig .tc := ⟨.hbm, 344, rfl⟩
abbrev main_v287 : Ref sig .tc := ⟨.hbm, 345, rfl⟩
abbrev main_v288 : Ref sig .tc := ⟨.hbm, 346, rfl⟩
abbrev main_v289 : Ref sig .tc := ⟨.hbm, 347, rfl⟩
abbrev main_v290 : Ref sig .tc := ⟨.hbm, 348, rfl⟩
abbrev main_v291 : Ref sig .tc := ⟨.hbm, 349, rfl⟩
abbrev main_v292 : Ref sig .tc := ⟨.hbm, 350, rfl⟩
abbrev main_v293 : Ref sig .tc := ⟨.hbm, 351, rfl⟩
abbrev main_v294 : Ref sig .tc := ⟨.hbm, 352, rfl⟩
abbrev main_cst_31 : Ref sig .tc := ⟨.hbm, 353, rfl⟩
abbrev main_v295 : Ref sig .tc := ⟨.hbm, 354, rfl⟩
abbrev main_v296 : Ref sig .tc := ⟨.hbm, 355, rfl⟩
abbrev main_v297 : Ref sig .tc := ⟨.hbm, 356, rfl⟩
abbrev main_v298 : Ref sig .tc := ⟨.hbm, 357, rfl⟩
abbrev main_v299 : Ref sig .tc := ⟨.hbm, 358, rfl⟩
abbrev main_v300 : Ref sig .tc := ⟨.hbm, 359, rfl⟩
abbrev main_v301 : Ref sig .tc := ⟨.hbm, 360, rfl⟩
abbrev main_v302 : Ref sig .tc := ⟨.hbm, 361, rfl⟩
abbrev main_v303 : Ref sig .tc := ⟨.hbm, 362, rfl⟩
abbrev main_v304 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩

abbrev nD : Nat := 1
abbrev τ : Topo := Topo.v7x

variable {F : FTy → Type} [FloatOps F]

class Facts₀ : Prop where
  slices_S2_S1_0 : S2.Slices ![0] S1
  shapeCasts_S1_S_ : S1.ShapeCasts S_
  slices_S2_S1_1 : S2.Slices ![1] S1
  bcast_S65536_S65536x1_0 : S65536.BroadcastsInDim S65536x1 (![0] : Fin 1 → Fin S65536x1.rank)
  slices_S53x7_S53x1_0_0 : S53x7.Slices ![0, 0] S53x1
  shapeCasts_S53x1_S53 : S53x1.ShapeCasts S53
  slices_S53x7_S53x1_0_1 : S53x7.Slices ![0, 1] S53x1
  slices_S53x7_S53x1_0_2 : S53x7.Slices ![0, 2] S53x1
  slices_S53x7_S53x1_0_3 : S53x7.Slices ![0, 3] S53x1
  slices_S53x7_S53x1_0_4 : S53x7.Slices ![0, 4] S53x1
  slices_S53x7_S53x1_0_5 : S53x7.Slices ![0, 5] S53x1
  slices_S53x7_S53x1_0_6 : S53x7.Slices ![0, 6] S53x1
  bcast_S53_S1x53_1 : S53.BroadcastsInDim S1x53 (![1] : Fin 1 → Fin S1x53.rank)
  bcast_S65536x1_S65536x53_0_1 : S65536x1.BroadcastsInDim S65536x53 (![0, 1] : Fin 2 → Fin S65536x53.rank)
  bcast_S1x53_S65536x53_0_1 : S1x53.BroadcastsInDim S65536x53 (![0, 1] : Fin 2 → Fin S65536x53.rank)
  bcast_S_S53 : S_.BroadcastsInDim S53 (![] : Fin 0 → Fin S53.rank)
  bcast_S_S65536x53 : S_.BroadcastsInDim S65536x53 (![] : Fin 0 → Fin S65536x53.rank)
  bcast_S_S65536x1 : S_.BroadcastsInDim S65536x1 (![] : Fin 0 → Fin S65536x1.rank)
  reducesTo_S65536x53_S65536_d1 : S65536x53.ReducesTo [1] S65536
  h_S_ : 0 < S_.numel
  bcast_S_S65536 : S_.BroadcastsInDim S65536 (![] : Fin 0 → Fin S65536.rank)
  bcast_S_S1 : S_.BroadcastsInDim S1 (![] : Fin 0 → Fin S1.rank)
  bcast_S1_S53_0 : S1.BroadcastsInDim S53 (![0] : Fin 1 → Fin S53.rank)
  reducesTo_S53_S_d0 : S53.ReducesTo [0] S_
  bcast_S325_S1x325_1 : S325.BroadcastsInDim S1x325 (![1] : Fin 1 → Fin S1x325.rank)
  bcast_S1x325_S65536x325_0_1 : S1x325.BroadcastsInDim S65536x325 (![0, 1] : Fin 2 → Fin S65536x325.rank)
  bcast_S65536x1_S65536x325_0_1 : S65536x1.BroadcastsInDim S65536x325 (![0, 1] : Fin 2 → Fin S65536x325.rank)
  reducesTo_S325x53_S325_d1 : S325x53.ReducesTo [1] S325
  bcast_S_S65536x325 : S_.BroadcastsInDim S65536x325 (![] : Fin 0 → Fin S65536x325.rank)
  concatenates_S65536x1_S65536x53_S65536x1_S65536x55_d1 : Shape.Concatenates [S65536x1, S65536x53, S65536x1] S65536x55 1
  dot_S65536x53_S325x53_S65536x325_1_1_0_0_n_n_wf : DotDims.WF S65536x53 S325x53 S65536x325 [1] [1] [0] [0] [] []
  dot_S65536x325_S325x53_S65536x53_1_0_0_1_n_n_wf : DotDims.WF S65536x325 S325x53 S65536x53 [1] [0] [0] [1] [] []

variable [Facts₀]

def dot_S65536x53_S325x53_S65536x325_1_1_0_0_n_n : DotDims S65536x53 S325x53 S65536x325 where
  lhsContracting := [1]
  rhsContracting := [1]
  lhsNonContracting := [0]
  rhsNonContracting := [0]
  lhsBatch := []
  rhsBatch := []
  wf := dot_S65536x53_S325x53_S65536x325_1_1_0_0_n_n_wf
def dot_S65536x325_S325x53_S65536x53_1_0_0_1_n_n : DotDims S65536x325 S325x53 S65536x53 where
  lhsContracting := [1]
  rhsContracting := [0]
  lhsNonContracting := [0]
  rhsNonContracting := [1]
  lhsBatch := []
  rhsBatch := []
  wf := dot_S65536x325_S325x53_S65536x53_1_0_0_1_n_n_wf

class Facts : Prop extends Facts₀ where

variable [Facts]
-- ==== Proof.KernelFrame.lean ====
/-
  The frame of the kernel program as printed: every weakly fair execution of @main terminates without a fault and leaves the
  sixteen argument arrays as launched — stated for any float instance.

  @main is 81 host operations, none of which writes an argument, followed by one region over a grid of 64 points.  At each
  point the region's body loads its ten input blocks through literal rectangles (the batch row blocks whole, the tables row by
  row or whole), computes, and stores three vectors through three rectangles that tile the [1024, 55] output block (column 0,
  columns 1 … 53, column 54); it also loads each of those rectangles of the output block before storing into it, a load whose
  value it never uses.  So after the body the output block holds the three stored vectors laid side by side, as one function
  of the ten input blocks (`out10`), each input block is as fetched, and the frame run of the region gives the result array
  block by block and every other array unchanged.
-/
import proofs.«132633_j39668317946412_1_alg».proof.Proof.Gen.Kernel.Launch
import proofs.«132633_j39668317946412_1_alg».proof.Proof.Gen.Kernel.Skeleton
import proofs.«132633_j39668317946412_1_alg».proof.Proof.Gen.Kernel.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the 81 host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main up to the region: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! ## The argument arrays at the region's entry

Each host operation writes its own result buffer only, and no result buffer is an argument of @main: the region finds
every argument array as launched. -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof
    data whose array is `V`'s and whose body leaves the block in place: unfetched, the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post read at the argument arrays — a staged input array ends as it was at the region's entry, an array no
    window stages likewise, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 6).trans (((dats 0 c).arrAt_in 6 rfl _).trans ((hA c 6).trans (V_main_arg14 m c))),
      ((h c).1 7).trans (((dats 0 c).arrAt_in 7 rfl _).trans ((hA c 7).trans (V_main_arg15 m c)))⟩) h

/-! ## The body's accesses -/

/-- The whole of a 1024-vector (the loads of windows 0 and 2). -/
abbrev rVec : Rect S1024 := Rect.unit (s := S1024) ![0] S1024.size inb_S1024_S1024_0
/-- The whole of a 1024×53 block (the load of window 1). -/
abbrev rMat : Rect S1024x53 := Rect.unit (s := S1024x53) ![0, 0] S1024x53.size inb_S1024x53_S1024x53_0_0
/-- Row 0 of the 7×53 table (window 3). -/
abbrev rRow7_0 : Rect S7x53 := Rect.unit (s := S7x53) ![0, 0] S1x53.size inb_S7x53_S1x53_0_0
/-- Row 1 of the 7×53 table (window 3). -/
abbrev rRow7_1 : Rect S7x53 := Rect.unit (s := S7x53) ![1, 0] S1x53.size inb_S7x53_S1x53_1_0
/-- Row 2 of the 7×53 table (window 3). -/
abbrev rRow7_2 : Rect S7x53 := Rect.unit (s := S7x53) ![2, 0] S1x53.size inb_S7x53_S1x53_2_0
/-- Row 3 of the 7×53 table (window 3). -/
abbrev rRow7_3 : Rect S7x53 := Rect.unit (s := S7x53) ![3, 0] S1x53.size inb_S7x53_S1x53_3_0
/-- Row 4 of the 7×53 table (window 3). -/
abbrev rRow7_4 : Rect S7x53 := Rect.unit (s := S7x53) ![4, 0] S1x53.size inb_S7x53_S1x53_4_0
/-- Row 5 of the 7×53 table (window 3). -/
abbrev rRow7_5 : Rect S7x53 := Rect.unit (s := S7x53) ![5, 0] S1x53.size inb_S7x53_S1x53_5_0
/-- Row 6 of the 7×53 table (window 3). -/
abbrev rRow7_6 : Rect S7x53 := Rect.unit (s := S7x53) ![6, 0] S1x53.size inb_S7x53_S1x53_6_0
/-- Row 0 of the 2×53 table (window 4). -/
abbrev rRow2_0 : Rect S2x53 := Rect.unit (s := S2x53) ![0, 0] S1x53.size inb_S2x53_S1x53_0_0
/-- Row 1 of the 2×53 table (window 4). -/
abbrev rRow2_1 : Rect S2x53 := Rect.unit (s := S2x53) ![1, 0] S1x53.size inb_S2x53_S1x53_1_0
/-- Row 0 of the 4×325 table (window 5). -/
abbrev rRow4_0 : Rect S4x325 := Rect.unit (s := S4x325) ![0, 0] S1x325.size inb_S4x325_S1x325_0_0
/-- Row 1 of the 4×325 table (window 5). -/
abbrev rRow4_1 : Rect S4x325 := Rect.unit (s := S4x325) ![1, 0] S1x325.size inb_S4x325_S1x325_1_0
/-- Row 2 of the 4×325 table (window 5). -/
abbrev rRow4_2 : Rect S4x325 := Rect.unit (s := S4x325) ![2, 0] S1x325.size inb_S4x325_S1x325_2_0
/-- Row 3 of the 4×325 table (window 5). -/
abbrev rRow4_3 : Rect S4x325 := Rect.unit (s := S4x325) ![3, 0] S1x325.size inb_S4x325_S1x325_3_0
/-- The whole of a 325×53 matrix (the loads of windows 6, 7 and 8). -/
abbrev rCoef : Rect S325x53 := Rect.unit (s := S325x53) ![0, 0] S325x53.size inb_S325x53_S325x53_0_0
/-- The whole of the 1×4 row of scalars (window 9). -/
abbrev rScal : Rect S1x4 := Rect.unit (s := S1x4) ![0, 0] S1x4.size inb_S1x4_S1x4_0_0
/-- Column 0 of the 1024×55 result block (the first store). -/
abbrev rOut0 : Rect S1024x55 := Rect.unit (s := S1024x55) ![0, 0] S1024x1.size inb_S1024x55_S1024x1_0_0
/-- Columns 1 … 53 of the result block (the second store). -/
abbrev rOut1 : Rect S1024x55 := Rect.unit (s := S1024x55) ![0, 1] S1024x53.size inb_S1024x55_S1024x53_0_1
/-- Column 54 of the result block (the last store). -/
abbrev rOut54 : Rect S1024x55 := Rect.unit (s := S1024x55) ![0, 54] S1024x1.size inb_S1024x55_S1024x1_0_54

/-! ## What the body leaves in the output window's buffer -/

/-- Window 10's staging buffer after the body, from the ten input windows' blocks: its three stores as pieces, last
    first, the payloads composed as the body binds them (each value named after the operation result it is). -/
def out10 (x0 : Vec F S1024 .f32) (x1 : Vec F S1024x53 .f32) (x2 : Vec F S1024 .f32) (x3 : Vec F S7x53 .f32)
    (x4 : Vec F S2x53 .f32) (x5 : Vec F S4x325 .f32) (x6 : Vec F S325x53 .f32) (x7 : Vec F S325x53 .f32)
    (x8 : Vec F S325x53 .f32) (x9 : Vec F S1x4 .f32) : Vec F S1024x55 .f32 :=
  let v1 := k0_pay1 (View.ld x0 rVec)
  let v2 : Vec F S1024x53 .f32 := View.ld x1 rMat
  let v4 := k0_pay2 (View.ld x2 rVec)
  let v6 := k0_pay3 (View.ld x3 rRow7_0)
  let v8 := k0_pay4 (View.ld x3 rRow7_1)
  let v10 := k0_pay5 (View.ld x3 rRow7_2)
  let v12 := k0_pay6 (View.ld x3 rRow7_3)
  let v14 := k0_pay7 (View.ld x3 rRow7_4)
  let v16 := k0_pay8 (View.ld x3 rRow7_5)
  let v18 := k0_pay9 (View.ld x3 rRow7_6)
  let v20 := k0_pay10 (View.ld x4 rRow2_0)
  let v22 := k0_pay11 (View.ld x4 rRow2_1)
  let v24 := k0_pay12 (View.ld x5 rRow4_0)
  let v26 := k0_pay13 (View.ld x5 rRow4_1)
  let v28 := k0_pay14 (View.ld x5 rRow4_2)
  let v30 := k0_pay15 (View.ld x5 rRow4_3)
  let v31 : Vec F S325x53 .f32 := View.ld x6 rCoef
  let v32 : Vec F S325x53 .f32 := View.ld x7 rCoef
  let v34 := k0_pay16 (View.ld x8 rCoef)
  let v35 : Vec F S1x4 .f32 := View.ld x9 rScal
  let v37 := k0_pay18 v35
  let v38 := k0_pay19 v35
  let v39 := k0_pay20 v35
  let v40 := k0_pay21 v35
  let v41 := k0_pay22 v1
  let v58 := k0_pay23 v1 v6 v8 v10 v12 v14
  let v60 := k0_pay24 v8
  let v75 := k0_pay25 v1 v10 v12 v14
  let v76 := k0_pay26 v1
  let v87 := k0_pay27 v1 v6 v16 v60 v75 v76
  let v114 := k0_pay28 v1 v6 v8 v10 v12 v14 v18 v41
  let v116 := k0_pay29 v58
  let v120 := k0_pay30 v1 v6 v16 v60 v75 v76
  let v129 := k0_pay31 v1 v2 v20 v37
  let v134 := k0_pay32 v2 v20 v116
  let v139 := k0_pay33 v2 v20 v120
  let v164 := k0_pay35 v1 v24 v26 v28 v30 v34 v41 v87 v114
  let v173 := k0_pay37 v2 v20 v32 v129
  let v176 := k0_pay38 v1 v2 v20 v24 v26 v28 v31 v41 v129
  let v177 : FVec F S1024x325 .f32 := k0_pay39
  View.canon [⟨rOut54, k0_pay44 v38 v39⟩,
    ⟨rOut1, k0_pay42 v2 v4 v20 v22 v34 v38 v129 v164 v173 v176 v177⟩,
    ⟨rOut0, k0_pay43 v4 v34 v38 v40 v120 v129 v134 v139 v164 v173 v176 v177⟩]

/-- The three stores — columns 54, 1 … 53 and 0 — cut into single columns tile the 1024×55 block, so they cover it. -/
theorem cover10 (p0 : Vec F S1024x1 .f32) (p1 : Vec F S1024x53 .f32) (p2 : Vec F S1024x1 .f32) (y : S1024x55.Idx) :
    ∃ pc ∈ ([⟨rOut54, p0⟩, ⟨rOut1, p1⟩, ⟨rOut0, p2⟩] : List (View.Piece (Elt F) S1024x55 .f32)), y ∈ pc.1.set :=
  View.cover_of_tiledBy [⟨rOut54, p0⟩, ⟨rOut1, p1⟩, ⟨rOut0, p2⟩] ![1024, 1] (by sl_kernel_rfl) y

/-! ## The body's triple -/

set_option maxHeartbeats 8000000 in
/-- The kernel body on whole staging memrefs, the ten inputs' at read contents `xW` and the output's at anything, runs
    to the continuation holding the inputs' as they were and the output's at `out10` of the inputs': the printed
    functions are their skeletons, run through every part call. The body loads its output buffer before each store; the
    values so read are used nowhere, so the buffer's prior contents do not matter. -/
theorem sound_kernel (c : Dev nD) (E : Set ℕ) (i : grid0.Coords)
    (arg1 : Memref sig .tc .vmem S1024 .f32) (harg1 : arg1.IsWhole)
    (arg2 : Memref sig .tc .vmem S1024x53 .f32) (harg2 : arg2.IsWhole)
    (arg3 : Memref sig .tc .vmem S1024 .f32) (harg3 : arg3.IsWhole)
    (arg4 : Memref sig .tc .vmem S7x53 .f32) (harg4 : arg4.IsWhole)
    (arg5 : Memref sig .tc .vmem S2x53 .f32) (harg5 : arg5.IsWhole)
    (arg6 : Memref sig .tc .vmem S4x325 .f32) (harg6 : arg6.IsWhole)
    (arg7 : Memref sig .tc .vmem S325x53 .f32) (harg7 : arg7.IsWhole)
    (arg8 : Memref sig .tc .vmem S325x53 .f32) (harg8 : arg8.IsWhole)
    (arg9 : Memref sig .tc .vmem S325x53 .f32) (harg9 : arg9.IsWhole)
    (arg10 : Memref sig .tc .vmem S1x4 .f32) (harg10 : arg10.IsWhole)
    (arg11 : Memref sig .tc .vmem S1024x55 .f32) (harg11 : arg11.IsWhole)
    (x0 : Vec F S1024 .f32) (x1 : Vec F S1024x53 .f32) (x2 : Vec F S1024 .f32) (x3 : Vec F S7x53 .f32) (x4 : Vec F S2x53 .f32) (x5 : Vec F S4x325 .f32) (x6 : Vec F S325x53 .f32) (x7 : Vec F S325x53 .f32) (x8 : Vec F S325x53 .f32) (x9 : Vec F S1x4 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E
          (cc0__rhs_kernel i arg1 harg1 arg2 harg2 arg3 harg3 arg4 harg4 arg5 harg5 arg6 harg6 arg7 harg7 arg8 harg8 arg9 harg9 arg10 harg10 arg11 harg11) K := by
  simp only [cc0__rhs_kernel_eq_skeleton, k0_part1_eq_skeleton, k0_part2_eq_skeleton, k0_part3_eq_skeleton,
    k0_part4_eq_skeleton, k0_part5_eq_skeleton]
  unfold cc0__rhs_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _ _ _)

/-! ## The pipeline's proof data -/

/-- The proof data of the one pipeline on core `c`: the arrays as the region finds them (`V`); after the body at
    point `t` each input's buffer at its block and the output's at `out10` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run, the result array is what the library computes from the proof data for window 10. -/
theorem post10 (r : PUnit × MemSt nD τ sig (Elt F)) (h : Pipeline.FramePost cfgs (dats m) 0 (V m) r) (c : Dev nD) :
    r.2.mem ((c : Thread nD τ).loc main_v74) = (dats m 0 c).arrAt 10 cfg0.N :=
  (h c).1 10

/-- After the frame run, every argument array is as launched: an input window's array is never written back, an array
    no window stages bypasses the region, and no host operation writes either. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).1 6).trans (((dats m 0 c).arrAt_in 6 rfl _).trans ((A_eq m c 6).trans (V_main_arg14 m c))),
    ((h c).1 7).trans (((dats m 0 c).arrAt_in 7 rfl _).trans ((A_eq m c 7).trans (V_main_arg15 m c)))⟩

/-- The frame: @main terminates and all 16 argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept m r h c) (run_main m ρ)

end Cert.Kernel.Frame

end
-- ==== Proof.KernelIdealFrame.lean ====
/-
  The frame of the idealized kernel program: every weakly fair execution of @main terminates without a fault and leaves the
  sixteen argument arrays as launched — stated for any float instance.

  @main is 81 host operations, none of which writes an argument, followed by one region over a grid of 64 points.  At each
  point the region's body loads its ten input blocks through literal rectangles (the batch row blocks whole, the tables row by
  row or whole), computes, and stores three vectors through three rectangles that tile the [1024, 55] output block (column 0,
  columns 1 … 53, column 54); it also loads each of those rectangles of the output block before storing into it, a load whose
  value it never uses.  So after the body the output block holds the three stored vectors laid side by side, as one function
  of the ten input blocks (`out10`), each input block is as fetched, and the frame run of the region gives the result array
  block by block and every other array unchanged.
-/
import proofs.«132633_j39668317946412_1_alg».proof.Proof.Gen.KernelIdeal.Launch
import proofs.«132633_j39668317946412_1_alg».proof.Proof.Gen.KernelIdeal.Skeleton
import proofs.«132633_j39668317946412_1_alg».proof.Proof.Gen.KernelIdeal.Points
import Idealize.ShloMosaic.Lib.Pipeline.FrameBody
import Idealize.ShloMosaic.Lib.Ring
import Idealize.ShloMosaic.Lib.Tactic

-- membership in a rectangle of long extents recurses once per coordinate of the long axes
set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the 81 host operations `hostOps0`. -/
abbrev V (c : Dev nD) (b : Ref sig .tc) : Buf (Elt F) ((c : Thread nD τ).loc b) :=
  StableHlo.after (List.flatten [hostOps0]) (fun b => m (c, b)) b

set_option maxHeartbeats 4000000 in
/-- No host operation allocates. -/
theorem hostOps0_fresh : (hostOps0 : List (HloOp τ sig (Elt F))).Forall fun op => op.fresh = ∅ := by
  simp only [List.Forall]; repeat' constructor

/-- @main up to the region: the stretch of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-! ## The argument arrays at the region's entry

Each host operation writes its own result buffer only, and no result buffer is an argument of @main: the region finds
every argument array as launched. -/

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg10`: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg11`: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg12`: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg13`: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg14`: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg15`: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof
    data whose array is `V`'s and whose body leaves the block in place: unfetched, the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof
    data whose array is `V`'s and whose body leaves the block in place: unfetched, the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof
    data whose array is `V`'s and whose body leaves the block in place: unfetched, the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not, for any proof
    data whose array is `V`'s and whose body leaves the block in place: unfetched, the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not, for any proof
    data whose array is `V`'s and whose body leaves the block in place: unfetched, the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not, for any proof
    data whose array is `V`'s and whose body leaves the block in place: unfetched, the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not, for any proof
    data whose array is `V`'s and whose body leaves the block in place: unfetched, the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not, for any proof
    data whose array is `V`'s and whose body leaves the block in place: unfetched, the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not, for any proof
    data whose array is `V`'s and whose body leaves the block in place: unfetched, the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame from a frame run: for any proof data whose arrays are the region-entry contents, a run to the library's
    frame post read at the argument arrays — a staged input array ends as it was at the region's entry, an array no
    window stages likewise, each then as launched — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun _ h c => ⟨((h c).2 main_arg0 (Pipeline.mem_restRefs_of main_arg0 (by decide) (by decide))).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).1 6).trans (((dats 0 c).arrAt_in 6 rfl _).trans ((hA c 6).trans (V_main_arg14 m c))),
      ((h c).1 7).trans (((dats 0 c).arrAt_in 7 rfl _).trans ((hA c 7).trans (V_main_arg15 m c)))⟩) h

/-! ## The body's accesses -/

/-- The whole of a 1024-vector (the loads of windows 0 and 2). -/
abbrev rVec : Rect S1024 := Rect.unit (s := S1024) ![0] S1024.size inb_S1024_S1024_0
/-- The whole of a 1024×53 block (the load of window 1). -/
abbrev rMat : Rect S1024x53 := Rect.unit (s := S1024x53) ![0, 0] S1024x53.size inb_S1024x53_S1024x53_0_0
/-- Row 0 of the 7×53 table (window 3). -/
abbrev rRow7_0 : Rect S7x53 := Rect.unit (s := S7x53) ![0, 0] S1x53.size inb_S7x53_S1x53_0_0
/-- Row 1 of the 7×53 table (window 3). -/
abbrev rRow7_1 : Rect S7x53 := Rect.unit (s := S7x53) ![1, 0] S1x53.size inb_S7x53_S1x53_1_0
/-- Row 2 of the 7×53 table (window 3). -/
abbrev rRow7_2 : Rect S7x53 := Rect.unit (s := S7x53) ![2, 0] S1x53.size inb_S7x53_S1x53_2_0
/-- Row 3 of the 7×53 table (window 3). -/
abbrev rRow7_3 : Rect S7x53 := Rect.unit (s := S7x53) ![3, 0] S1x53.size inb_S7x53_S1x53_3_0
/-- Row 4 of the 7×53 table (window 3). -/
abbrev rRow7_4 : Rect S7x53 := Rect.unit (s := S7x53) ![4, 0] S1x53.size inb_S7x53_S1x53_4_0
/-- Row 5 of the 7×53 table (window 3). -/
abbrev rRow7_5 : Rect S7x53 := Rect.unit (s := S7x53) ![5, 0] S1x53.size inb_S7x53_S1x53_5_0
/-- Row 6 of the 7×53 table (window 3). -/
abbrev rRow7_6 : Rect S7x53 := Rect.unit (s := S7x53) ![6, 0] S1x53.size inb_S7x53_S1x53_6_0
/-- Row 0 of the 2×53 table (window 4). -/
abbrev rRow2_0 : Rect S2x53 := Rect.unit (s := S2x53) ![0, 0] S1x53.size inb_S2x53_S1x53_0_0
/-- Row 1 of the 2×53 table (window 4). -/
abbrev rRow2_1 : Rect S2x53 := Rect.unit (s := S2x53) ![1, 0] S1x53.size inb_S2x53_S1x53_1_0
/-- Row 0 of the 4×325 table (window 5). -/
abbrev rRow4_0 : Rect S4x325 := Rect.unit (s := S4x325) ![0, 0] S1x325.size inb_S4x325_S1x325_0_0
/-- Row 1 of the 4×325 table (window 5). -/
abbrev rRow4_1 : Rect S4x325 := Rect.unit (s := S4x325) ![1, 0] S1x325.size inb_S4x325_S1x325_1_0
/-- Row 2 of the 4×325 table (window 5). -/
abbrev rRow4_2 : Rect S4x325 := Rect.unit (s := S4x325) ![2, 0] S1x325.size inb_S4x325_S1x325_2_0
/-- Row 3 of the 4×325 table (window 5). -/
abbrev rRow4_3 : Rect S4x325 := Rect.unit (s := S4x325) ![3, 0] S1x325.size inb_S4x325_S1x325_3_0
/-- The whole of a 325×53 matrix (the loads of windows 6, 7 and 8). -/
abbrev rCoef : Rect S325x53 := Rect.unit (s := S325x53) ![0, 0] S325x53.size inb_S325x53_S325x53_0_0
/-- The whole of the 1×4 row of scalars (window 9). -/
abbrev rScal : Rect S1x4 := Rect.unit (s := S1x4) ![0, 0] S1x4.size inb_S1x4_S1x4_0_0
/-- Column 0 of the 1024×55 result block (the first store). -/
abbrev rOut0 : Rect S1024x55 := Rect.unit (s := S1024x55) ![0, 0] S1024x1.size inb_S1024x55_S1024x1_0_0
/-- Columns 1 … 53 of the result block (the second store). -/
abbrev rOut1 : Rect S1024x55 := Rect.unit (s := S1024x55) ![0, 1] S1024x53.size inb_S1024x55_S1024x53_0_1
/-- Column 54 of the result block (the last store). -/
abbrev rOut54 : Rect S1024x55 := Rect.unit (s := S1024x55) ![0, 54] S1024x1.size inb_S1024x55_S1024x1_0_54

/-! ## What the body leaves in the output window's buffer -/

/-- Window 10's staging buffer after the body, from the ten input windows' blocks: its three stores as pieces, last
    first, the payloads composed as the body binds them (each value named after the operation result it is). -/
def out10 (x0 : Vec F S1024 .f32) (x1 : Vec F S1024x53 .f32) (x2 : Vec F S1024 .f32) (x3 : Vec F S7x53 .f32)
    (x4 : Vec F S2x53 .f32) (x5 : Vec F S4x325 .f32) (x6 : Vec F S325x53 .f32) (x7 : Vec F S325x53 .f32)
    (x8 : Vec F S325x53 .f32) (x9 : Vec F S1x4 .f32) : Vec F S1024x55 .f32 :=
  let v1 := k0_pay1 (View.ld x0 rVec)
  let v2 : Vec F S1024x53 .f32 := View.ld x1 rMat
  let v4 := k0_pay2 (View.ld x2 rVec)
  let v6 := k0_pay3 (View.ld x3 rRow7_0)
  let v8 := k0_pay4 (View.ld x3 rRow7_1)
  let v10 := k0_pay5 (View.ld x3 rRow7_2)
  let v12 := k0_pay6 (View.ld x3 rRow7_3)
  let v14 := k0_pay7 (View.ld x3 rRow7_4)
  let v16 := k0_pay8 (View.ld x3 rRow7_5)
  let v18 := k0_pay9 (View.ld x3 rRow7_6)
  let v20 := k0_pay10 (View.ld x4 rRow2_0)
  let v22 := k0_pay11 (View.ld x4 rRow2_1)
  let v24 := k0_pay12 (View.ld x5 rRow4_0)
  let v26 := k0_pay13 (View.ld x5 rRow4_1)
  let v28 := k0_pay14 (View.ld x5 rRow4_2)
  let v30 := k0_pay15 (View.ld x5 rRow4_3)
  let v31 : Vec F S325x53 .f32 := View.ld x6 rCoef
  let v32 : Vec F S325x53 .f32 := View.ld x7 rCoef
  let v34 := k0_pay16 (View.ld x8 rCoef)
  let v35 : Vec F S1x4 .f32 := View.ld x9 rScal
  let v37 := k0_pay18 v35
  let v38 := k0_pay19 v35
  let v39 := k0_pay20 v35
  let v40 := k0_pay21 v35
  let v41 := k0_pay22 v1
  let v58 := k0_pay23 v1 v6 v8 v10 v12 v14
  let v60 := k0_pay24 v8
  let v75 := k0_pay25 v1 v10 v12 v14
  let v76 := k0_pay26 v1
  let v87 := k0_pay27 v1 v6 v16 v60 v75 v76
  let v114 := k0_pay28 v1 v6 v8 v10 v12 v14 v18 v41
  let v116 := k0_pay29 v58
  let v120 := k0_pay30 v1 v6 v16 v60 v75 v76
  let v129 := k0_pay31 v1 v2 v20 v37
  let v134 := k0_pay32 v2 v20 v116
  let v139 := k0_pay33 v2 v20 v120
  let v164 := k0_pay35 v1 v24 v26 v28 v30 v34 v41 v87 v114
  let v173 := k0_pay37 v2 v20 v32 v129
  let v176 := k0_pay38 v1 v2 v20 v24 v26 v28 v31 v41 v129
  let v177 : FVec F S1024x325 .f32 := k0_pay39
  View.canon [⟨rOut54, k0_pay44 v38 v39⟩,
    ⟨rOut1, k0_pay42 v2 v4 v20 v22 v34 v38 v129 v164 v173 v176 v177⟩,
    ⟨rOut0, k0_pay43 v4 v34 v38 v40 v120 v129 v134 v139 v164 v173 v176 v177⟩]

/-- The three stores — columns 54, 1 … 53 and 0 — cut into single columns tile the 1024×55 block, so they cover it. -/
theorem cover10 (p0 : Vec F S1024x1 .f32) (p1 : Vec F S1024x53 .f32) (p2 : Vec F S1024x1 .f32) (y : S1024x55.Idx) :
    ∃ pc ∈ ([⟨rOut54, p0⟩, ⟨rOut1, p1⟩, ⟨rOut0, p2⟩] : List (View.Piece (Elt F) S1024x55 .f32)), y ∈ pc.1.set :=
  View.cover_of_tiledBy [⟨rOut54, p0⟩, ⟨rOut1, p1⟩, ⟨rOut0, p2⟩] ![1024, 1] (by sl_kernel_rfl) y

/-! ## The body's triple -/

set_option maxHeartbeats 8000000 in
/-- The kernel body on whole staging memrefs, the ten inputs' at read contents `xW` and the output's at anything, runs
    to the continuation holding the inputs' as they were and the output's at `out10` of the inputs': the printed
    functions are their skeletons, run through every part call. The body loads its output buffer before each store; the
    values so read are used nowhere, so the buffer's prior contents do not matter. -/
theorem sound_kernel (c : Dev nD) (E : Set ℕ) (i : grid0.Coords)
    (arg1 : Memref sig .tc .vmem S1024 .f32) (harg1 : arg1.IsWhole)
    (arg2 : Memref sig .tc .vmem S1024x53 .f32) (harg2 : arg2.IsWhole)
    (arg3 : Memref sig .tc .vmem S1024 .f32) (harg3 : arg3.IsWhole)
    (arg4 : Memref sig .tc .vmem S7x53 .f32) (harg4 : arg4.IsWhole)
    (arg5 : Memref sig .tc .vmem S2x53 .f32) (harg5 : arg5.IsWhole)
    (arg6 : Memref sig .tc .vmem S4x325 .f32) (harg6 : arg6.IsWhole)
    (arg7 : Memref sig .tc .vmem S325x53 .f32) (harg7 : arg7.IsWhole)
    (arg8 : Memref sig .tc .vmem S325x53 .f32) (harg8 : arg8.IsWhole)
    (arg9 : Memref sig .tc .vmem S325x53 .f32) (harg9 : arg9.IsWhole)
    (arg10 : Memref sig .tc .vmem S1x4 .f32) (harg10 : arg10.IsWhole)
    (arg11 : Memref sig .tc .vmem S1024x55 .f32) (harg11 : arg11.IsWhole)
    (x0 : Vec F S1024 .f32) (x1 : Vec F S1024x53 .f32) (x2 : Vec F S1024 .f32) (x3 : Vec F S7x53 .f32) (x4 : Vec F S2x53 .f32) (x5 : Vec F S4x325 .f32) (x6 : Vec F S325x53 .f32) (x7 : Vec F S325x53 .f32) (x8 : Vec F S325x53 .f32) (x9 : Vec F S1x4 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ (∃ d, owns (c : Thread nD τ) arg11 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare (out10 x0 x1 x2 x3 x4 x5 x6 x7 x8 x9)) -∗ K ⟨⟩))
      ⊢ wp frame (wpE (defs₀ (F := F)) Variants.none c none) E
          (cc0__rhs_kernel i arg1 harg1 arg2 harg2 arg3 harg3 arg4 harg4 arg5 harg5 arg6 harg6 arg7 harg7 arg8 harg8 arg9 harg9 arg10 harg10 arg11 harg11) K := by
  simp only [cc0__rhs_kernel_eq_skeleton, k0_part1_eq_skeleton, k0_part2_eq_skeleton, k0_part3_eq_skeleton,
    k0_part4_eq_skeleton, k0_part5_eq_skeleton]
  unfold cc0__rhs_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, Hk⟩
  subst hf0; subst hf1; subst hf2; subst hf3; subst hf4; subst hf5; subst hf6; subst hf7; subst hf8; subst hf9
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  iexists _; isplitr
  swap; · iexact H10
  ipureintro
  exact View.read_writes_eq_canon _ _ _ (cover10 _ _ _)

/-! ## The pipeline's proof data -/

/-- The proof data of the one pipeline on core `c`: the arrays as the region finds them (`V`); after the body at
    point `t` each input's buffer at its block and the output's at `out10` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => out10 (iblk m c 0 t) (iblk m c 1 t) (iblk m c 2 t) (iblk m c 3 t) (iblk m c 4 t) (iblk m c 5 t) (iblk m c 6 t) (iblk m c 7 t) (iblk m c 8 t) (iblk m c 9 t)
  Φ _ := Pipeline.ΦA spec0 c
  q _ := fullShare
  owed _ := 0

/-- The proof data's arrays are the region-entry contents (projected, `V` never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t
    = out10 (iblk m c 0 t) (iblk m c 1 t) (iblk m c 2 t) (iblk m c 3 t) (iblk m c 4 t) (iblk m c 5 t) (iblk m c 6 t) (iblk m c 7 t) (iblk m c 8 t) (iblk m c 9 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t))

set_option maxHeartbeats 4000000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  iapply (sound_kernel c Set.univ (grid0.coords t) _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  iintro ⟨H0, H1, H2, H3, H4, H5, H6, H7, H8, H9, H10⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- After the frame run, the result array is what the library computes from the proof data for window 10. -/
theorem post10 (r : PUnit × MemSt nD τ sig (Elt F)) (h : Pipeline.FramePost cfgs (dats m) 0 (V m) r) (c : Dev nD) :
    r.2.mem ((c : Thread nD τ).loc main_v74) = (dats m 0 c).arrAt 10 cfg0.N :=
  (h c).1 10

/-- After the frame run, every argument array is as launched: an input window's array is never written back, an array
    no window stages bypasses the region, and no host operation writes either. -/
theorem kept (r : PUnit × MemSt nD τ sig (Elt F)) (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  ⟨((h c).2 main_arg0 (Pipeline.mem_restRefs_of main_arg0 (by decide) (by decide))).trans (V_main_arg0 m c),
    ((h c).1 0).trans (((dats m 0 c).arrAt_in 0 rfl _).trans ((A_eq m c 0).trans (V_main_arg1 m c))),
    ((h c).1 1).trans (((dats m 0 c).arrAt_in 1 rfl _).trans ((A_eq m c 1).trans (V_main_arg2 m c))),
    ((h c).1 2).trans (((dats m 0 c).arrAt_in 2 rfl _).trans ((A_eq m c 2).trans (V_main_arg3 m c))),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).1 6).trans (((dats m 0 c).arrAt_in 6 rfl _).trans ((A_eq m c 6).trans (V_main_arg14 m c))),
    ((h c).1 7).trans (((dats m 0 c).arrAt_in 7 rfl _).trans ((A_eq m c 7).trans (V_main_arg15 m c)))⟩

/-- The frame: @main terminates and all 16 argument arrays end as launched, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => kept m r h c) (run_main m ρ)

end Cert.KernelIdeal.Frame

end
-- ==== Proof.RhsSpec.lean ====
/-
  The reactor right-hand side as ONE function of the argument arrays, entry by entry, on the extended reals.

  For a batch row `b` with temperature `T b`, mass fractions `Y b ·` and mass `m b`, and the species / reaction tables
  (NASA-7 coefficients, molar masses, Arrhenius parameters, stoichiometric coefficients), the result row has 55 entries:
  entry 0 is dT/dt, entries 1 … 53 are dY_s/dt, entry 54 is dm/dt.  Every quantity below is written with the operations in
  the order in which both programs apply them (no law of arithmetic is used between the two programs beyond the
  commutativity of a finite sum), so that each program's result, read at an index, is this function.
-/
import Idealize.ShloMosaic.PureOps.Ideal
import Idealize.ShloMosaic.Lib.ValueIdx

noncomputable section

namespace Cert.RhsSpec

open Idealize.ShloMosaic

/-- The float literals of both programs, as the extended reals their words denote. -/
abbrev lit (w : BitVec 32) : EReal := Ideal.ofBits .f32 w
/-- The gas constant, the standard pressure, the floor under a concentration or a mass, the clip bounds, 2 … 5. -/
abbrev Rg : EReal := lit 0x4105080A#32
abbrev P0 : EReal := lit 0x47C5E680#32
abbrev tiny : EReal := lit 0x0DA24260#32
abbrev cLo : EReal := lit 0xC2700000#32
abbrev cHi : EReal := lit 0x42700000#32
abbrev c2 : EReal := lit 0x40000000#32
abbrev c3 : EReal := lit 0x40400000#32
abbrev c4 : EReal := lit 0x40800000#32
abbrev c5 : EReal := lit 0x40A00000#32

/-- The arguments, by coordinates. -/
structure In where
  t : EReal
  P : EReal
  Tin : EReal
  T : Fin 65536 → EReal
  m : Fin 65536 → EReal
  Y : Fin 65536 → Fin 53 → EReal
  Yin : Fin 53 → EReal
  mw : Fin 53 → EReal
  mi0 : EReal
  mi1 : EReal
  mo0 : EReal
  mo1 : EReal
  nasa : Fin 53 → Fin 7 → EReal
  A : Fin 325 → EReal
  b : Fin 325 → EReal
  Ea : Fin 325 → EReal
  nuf : Fin 325 → Fin 53 → EReal
  nur : Fin 325 → Fin 53 → EReal

variable (I : In)

/-- Inlet and outlet mass flow at time `t`: affine in `t`. -/
def mdotIn : EReal := I.mi0 + I.mi1 * I.t
def mdotOut : EReal := I.mo0 + I.mo1 * I.t

/-- NASA-7 polynomials of species `s` at temperature `Tb`: c_p/R, h/(RT), s/R, in Horner form. -/
def cpR (Tb : EReal) (s : Fin 53) : EReal :=
  I.nasa s 0 + Tb * (I.nasa s 1 + Tb * (I.nasa s 2 + Tb * (I.nasa s 3 + Tb * I.nasa s 4)))
def hRT (Tb : EReal) (s : Fin 53) : EReal :=
  I.nasa s 0 + Tb * (Ideal.div (I.nasa s 1) c2 + Tb * (Ideal.div (I.nasa s 2) c3
    + Tb * (Ideal.div (I.nasa s 3) c4 + Ideal.div (Tb * I.nasa s 4) c5))) + Ideal.div (I.nasa s 5) Tb
def sR (Tb : EReal) (s : Fin 53) : EReal :=
  I.nasa s 0 * Ideal.log Tb + Tb * (I.nasa s 1 + Tb * (Ideal.div (I.nasa s 2) c2
    + Tb * (Ideal.div (I.nasa s 3) c3 + Ideal.div (Tb * I.nasa s 4) c4))) + I.nasa s 6

/-- The inlet's specific enthalpy: the mass-fraction-weighted sum of the species' molar enthalpies over their molar masses. -/
def hIn : EReal := ∑ s : Fin 53, Ideal.div (((I.Yin s * hRT I I.Tin s) * Rg) * I.Tin) (I.mw s)

/-- Net stoichiometric coefficient of species `s` in reaction `r`, and its sum over the species. -/
def dnu (r : Fin 325) (s : Fin 53) : EReal := I.nur r s - I.nuf r s
def dnuSum (r : Fin 325) : EReal := ∑ s : Fin 53, dnu I r s

/-- Molar heat capacity and molar enthalpy of species `s`. -/
def cpMol (Tb : EReal) (s : Fin 53) : EReal := cpR I Tb s * Rg
def hMol (Tb : EReal) (s : Fin 53) : EReal := hRT I Tb s * (Rg * Tb)

/-- Row `b`: reciprocal mean molar mass, ideal-gas density, specific heat capacity and specific enthalpy of the mixture. -/
def invW (b : Fin 65536) : EReal := ∑ s : Fin 53, Ideal.div (I.Y b s) (I.mw s)
def rho (b : Fin 65536) : EReal := Ideal.div I.P ((Rg * I.T b) * invW I b)
def cpMass (b : Fin 65536) : EReal := ∑ s : Fin 53, Ideal.div (I.Y b s * cpMol I (I.T b) s) (I.mw s)
def hMass (b : Fin 65536) : EReal := ∑ s : Fin 53, Ideal.div (I.Y b s * hMol I (I.T b) s) (I.mw s)

/-- Gibbs energy over RT; logarithms of the forward rate constant, the equilibrium constant and the reverse rate constant. -/
def gRT (Tb : EReal) (s : Fin 53) : EReal := hRT I Tb s - sR I Tb s
def lnkf (Tb : EReal) (r : Fin 325) : EReal :=
  (Ideal.log (I.A r) + I.b r * Ideal.log Tb) - Ideal.div (I.Ea r) (Rg * Tb)
def lnKc (Tb : EReal) (r : Fin 325) : EReal :=
  -(∑ s : Fin 53, gRT I Tb s * dnu I r s) + dnuSum I r * Ideal.log (Ideal.div P0 (Rg * Tb))
def lnkr (Tb : EReal) (r : Fin 325) : EReal := lnkf I Tb r - lnKc I Tb r

/-- Logarithm of the floored molar concentration of species `s` in row `b`. -/
def logC (b : Fin 65536) (s : Fin 53) : EReal :=
  Ideal.log (max (Ideal.div (rho I b * I.Y b s) (I.mw s)) tiny)

/-- Clipping to [-60, 60]. -/
def clip (x : EReal) : EReal := min cHi (max cLo x)

/-- Forward and reverse rates of progress of reaction `r` in row `b`, and the net molar production rate of species `s`. -/
def qf (b : Fin 65536) (r : Fin 325) : EReal :=
  Ideal.exp (clip (lnkf I (I.T b) r + ∑ s : Fin 53, logC I b s * I.nuf r s))
def qr (b : Fin 65536) (r : Fin 325) : EReal :=
  Ideal.exp (clip (lnkr I (I.T b) r + ∑ s : Fin 53, logC I b s * I.nur r s))
def wdot (b : Fin 65536) (s : Fin 53) : EReal := ∑ r : Fin 325, (qf I b r - qr I b r) * dnu I r s

/-- The floored mass. -/
def mSafe (b : Fin 65536) : EReal := max (I.m b) tiny

/-- The three kinds of entries of the result row. -/
def dY (b : Fin 65536) (s : Fin 53) : EReal :=
  Ideal.div (wdot I b s * I.mw s) (rho I b) + Ideal.div (mdotIn I * (I.Yin s - I.Y b s)) (mSafe I b)
def dT (b : Fin 65536) : EReal :=
  Ideal.div (-(∑ s : Fin 53, hMol I (I.T b) s * wdot I b s)) (rho I b * cpMass I b)
    + Ideal.div (mdotIn I * (hIn I - hMass I b)) (mSafe I b * cpMass I b)
def dm : EReal := mdotIn I - mdotOut I

/-- The arguments by coordinates, from the sixteen argument arrays. -/
def ofArrays (x0 : (⟨0, ![]⟩ : Shape).Idx → EReal) (x1 : (⟨1, ![65536]⟩ : Shape).Idx → EReal)
    (x2 : (⟨2, ![65536, 53]⟩ : Shape).Idx → EReal) (x3 : (⟨1, ![65536]⟩ : Shape).Idx → EReal)
    (x4 x5 : (⟨0, ![]⟩ : Shape).Idx → EReal) (x6 : (⟨1, ![53]⟩ : Shape).Idx → EReal)
    (x7 x8 : (⟨1, ![2]⟩ : Shape).Idx → EReal) (x9 : (⟨2, ![53, 7]⟩ : Shape).Idx → EReal)
    (x10 : (⟨1, ![53]⟩ : Shape).Idx → EReal) (x11 x12 x13 : (⟨1, ![325]⟩ : Shape).Idx → EReal)
    (x14 x15 : (⟨2, ![325, 53]⟩ : Shape).Idx → EReal) : In where
  t := x0 ValueIdx.ix0
  P := x4 ValueIdx.ix0
  Tin := x5 ValueIdx.ix0
  T := fun b => x1 (ValueIdx.ix1 b)
  m := fun b => x3 (ValueIdx.ix1 b)
  Y := fun b s => x2 (ValueIdx.ix2 b s)
  Yin := fun s => x6 (ValueIdx.ix1 s)
  mw := fun s => x10 (ValueIdx.ix1 s)
  mi0 := x7 (ValueIdx.ix1 0)
  mi1 := x7 (ValueIdx.ix1 1)
  mo0 := x8 (ValueIdx.ix1 0)
  mo1 := x8 (ValueIdx.ix1 1)
  nasa := fun s i => x9 (ValueIdx.ix2 s i)
  A := fun r => x11 (ValueIdx.ix1 r)
  b := fun r => x12 (ValueIdx.ix1 r)
  Ea := fun r => x13 (ValueIdx.ix1 r)
  nuf := fun r s => x14 (ValueIdx.ix2 r s)
  nur := fun r s => x15 (ValueIdx.ix2 r s)

/-- The result array, entry by entry: column 0 is dT/dt, columns 1 … 53 are dY/dt, column 54 is dm/dt. -/
def out (b : Fin 65536) (j : Fin 55) : EReal :=
  if h0 : j.val = 0 then dT I b
  else if h54 : j.val = 54 then dm I
  else dY I b ⟨j.val - 1, by have := j.isLt; omega⟩

/-- The same as an array of shape [65536, 55]. -/
def outArr : (⟨2, ![65536, 55]⟩ : Shape).Idx → EReal := fun i => out I (i 0) (i 1)

end Cert.RhsSpec

end
-- ==== Proof.LibColRow.lean ====
/-
  Column and row broadcasts of small rank, and a vector viewed as a column, read at an index.

  • A column `[R, 1]` spread over `C` columns reads, at `(p, q)`, the column's entry `(p, 0)`.
  • A row `[1, C]` repeated over `R` rows reads, at `(p, q)`, the row's entry `(0, q)`.
  • A vector `[R]` viewed as a column `[R, 1]` reads, at `(p, 0)`, the vector's entry `p`; a vector `[C]` viewed as a
    row `[1, C]` reads, at `(0, q)`, the vector's entry `q`.
  General in the extents and the element type.
-/
import Idealize.ShloMosaic.Lib.ValueIdx
import Idealize.ShloMosaic.Lib.Pipeline.Value

noncomputable section

namespace Cert.LibColRow

open Idealize.ShloMosaic Idealize.ShloMosaic.ValueIdx

variable {α : Type}

/-- A column `[R, 1]` broadcast to `[R, C]`, at `(p, q)`: the column at `(p, 0)`. -/
theorem bcastTo_col_apply {R C : Nat} (h : (⟨2, ![R, 1]⟩ : Shape).Broadcasts ⟨2, ![R, C]⟩)
    (x : (⟨2, ![R, 1]⟩ : Shape).Idx → α) (p : Fin R) (q : Fin C) :
    broadcastTo ⟨2, ![R, C]⟩ x h (ix2 p q) = x (ix2 p (0 : Fin 1)) := by
  refine broadcastTo_apply x h (ix2 p q) (ix2 p (0 : Fin 1)) fun a => ?_
  match a with
  | ⟨0, _⟩ =>
    show p.val = if R = 1 then 0 else p.val
    split
    · next h1 => have := p.isLt; omega
    · rfl
  | ⟨1, _⟩ =>
    show 0 = if (1 : Nat) = 1 then 0 else q.val
    rw [if_pos rfl]

/-- A row `[1, C]` broadcast to `[R, C]`, at `(p, q)`: the row at `(0, q)`. -/
theorem bcastTo_row_apply {R C : Nat} (h : (⟨2, ![1, C]⟩ : Shape).Broadcasts ⟨2, ![R, C]⟩)
    (x : (⟨2, ![1, C]⟩ : Shape).Idx → α) (p : Fin R) (q : Fin C) :
    broadcastTo ⟨2, ![R, C]⟩ x h (ix2 p q) = x (ix2 (0 : Fin 1) q) := by
  refine broadcastTo_apply x h (ix2 p q) (ix2 (0 : Fin 1) q) fun a => ?_
  match a with
  | ⟨0, _⟩ =>
    show 0 = if (1 : Nat) = 1 then 0 else p.val
    rw [if_pos rfl]
  | ⟨1, _⟩ =>
    show q.val = if C = 1 then 0 else q.val
    split
    · next h1 => have := q.isLt; omega
    · rfl

/-- A vector `[R]` viewed as a column `[R, 1]`, at `(p, z)`: the vector at `p`. -/
theorem shapeCast_col_apply {R : Nat} (h : (⟨1, ![R]⟩ : Shape).ShapeCasts ⟨2, ![R, 1]⟩)
    (x : (⟨1, ![R]⟩ : Shape).Idx → α) (p : Fin R) (z : Fin 1) :
    shapeCast ⟨2, ![R, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- A vector `[C]` viewed as a row `[1, C]`, at `(z, q)`: the vector at `q`. -/
theorem shapeCast_row_apply {C : Nat} (h : (⟨1, ![C]⟩ : Shape).ShapeCasts ⟨2, ![1, C]⟩)
    (x : (⟨1, ![C]⟩ : Shape).Idx → α) (z : Fin 1) (q : Fin C) :
    shapeCast ⟨2, ![1, C]⟩ x h (ix2 z q) = x (ix1 q) := by
  refine shapeCast_apply x h (ix2 z q) (ix1 q) ?_
  rw [Shape.rowMajor_val_one, Shape.rowMajor_val_two]
  show q.val = z.val * C + q.val
  have := z.isLt
  have hz : z.val = 0 := by omega
  rw [hz, Nat.zero_mul, Nat.zero_add]

end Cert.LibColRow

end
-- ==== Proof.KOps.lean ====
/-
  The kernel body's non-pointwise operations at an explicit index, on the extended reals:
  a lane sum over the 53 species, the two matrix products (contraction over the species against a table stored
  reaction-by-species, and contraction over the reactions), a 1×1 value spread over a block, and a column of the 1×4 row
  of scalars.
-/
import proofs.«132633_j39668317946412_1_alg».proof.Proof.Gen.KernelIdeal
import Idealize.ShloMosaic.PureOps.Ideal.Laws
import Idealize.ShloMosaic.Lib.ValueIdx
import Idealize.ShloMosaic.Lib.Pipeline.Value

noncomputable section

namespace Cert.KernelIdeal.KOps

open Cert.KernelIdeal Cert.KernelIdeal.Facts₀ Idealize.ShloMosaic Idealize.ShloMosaic.ValueIdx

/-- The sum over the species axis of a [1024, 53] block, at row `p`. -/
theorem laneSum_apply (src : FVec Ideal S1024x53 .f32) (hφ : FKind.Formats (.f32 : FTy))
    (hacc : (0x00000000#32 : BitVec 32) = 0x00000000#32) (p : Fin 1024) :
    multiReduction .add [1] S1024 src 0x00000000#32 reduces_S1024x53_S1024 hφ hacc (ix1 p)
      = ∑ k : Fin 53, src (ix2 p k) := by
  refine (Ideal.multiReduction_add_single src 0x00000000#32 reduces_S1024x53_S1024 hφ hacc (ix1 p)).trans ?_
  refine Finset.sum_congr rfl fun k _ => congrArg src ?_
  funext a
  match a with
  | ⟨0, _⟩ => rfl
  | ⟨1, _⟩ => rfl

/-- The dimension numbers of the two products: species against species, and reactions against reactions. -/
abbrev DT := dot_S1024x53_S325x53_S1024x325_1_1_0_0_n_n
abbrev DN := dot_S1024x325_S325x53_S1024x53_1_0_0_1_n_n

theorem lhsT_0 (i : S1024x325.Idx) (q : DT.contr.Idx) : (DT.lhsIdx i q 0).val = (i 0).val := by
  unfold DotDims.lhsIdx
  rw [dif_neg (show ¬(0 : Fin S1024x53.rank) ∈ DT.lhsBatch by decide),
    dif_pos (show (0 : Fin S1024x53.rank) ∈ DT.lhsNonContracting by decide)]
  rfl
theorem lhsT_1 (i : S1024x325.Idx) (q : DT.contr.Idx) : (DT.lhsIdx i q 1).val = (q ⟨0, by decide⟩).val :=
  DT.lhsIdx_val_of_single rfl i q
theorem rhsT_0 (i : S1024x325.Idx) (q : DT.contr.Idx) : (DT.rhsIdx i q 0).val = (i 1).val := by
  unfold DotDims.rhsIdx
  rw [dif_neg (show ¬(0 : Fin S325x53.rank) ∈ DT.rhsBatch by decide),
    dif_pos (show (0 : Fin S325x53.rank) ∈ DT.rhsNonContracting by decide)]
  rfl
theorem rhsT_1 (i : S1024x325.Idx) (q : DT.contr.Idx) : (DT.rhsIdx i q 1).val = (q ⟨0, by decide⟩).val :=
  DT.rhsIdx_val_of_single rfl i q

/-- A product contracting the species axis of both operands (the right one stored reaction-by-species), at (p, r). -/
theorem matmulT_apply (l : FVec Ideal S1024x53 .f32) (r : FVec Ideal S325x53 .f32) (prec : Option ContractPrecision)
    (p : Fin 1024) (q : Fin 325) :
    matmul dot_S1024x53_S325x53_S1024x325_1_1_0_0_n_n prec l r (constant S1024x325 .f32 0x00000000#32) (ix2 p q)
      = ∑ k : Fin 53, l (ix2 p k) * r (ix2 q k) := by
  refine (Ideal.matmul_constant_zero_apply DT prec l r (ix2 p q)).trans ?_
  rw [← Equiv.sum_comp (contrEquiv1 DT 53 rfl rfl).symm]
  refine Finset.sum_congr rfl fun k _ => ?_
  have hk := contrEquiv1_symm_val DT 53 rfl rfl k
  have el : DT.lhsIdx (ix2 p q) ((contrEquiv1 DT 53 rfl rfl).symm k) = ix2 p k := funext fun a => Fin.ext (by
    match a with
    | ⟨0, _⟩ => exact lhsT_0 _ _
    | ⟨1, _⟩ => exact (lhsT_1 _ _).trans hk)
  have er : DT.rhsIdx (ix2 p q) ((contrEquiv1 DT 53 rfl rfl).symm k) = ix2 q k := funext fun a => Fin.ext (by
    match a with
    | ⟨0, _⟩ => exact rhsT_0 _ _
    | ⟨1, _⟩ => exact (rhsT_1 _ _).trans hk)
  rw [el, er]

theorem lhsN_0 (i : S1024x53.Idx) (q : DN.contr.Idx) : (DN.lhsIdx i q 0).val = (i 0).val := by
  unfold DotDims.lhsIdx
  rw [dif_neg (show ¬(0 : Fin S1024x325.rank) ∈ DN.lhsBatch by decide),
    dif_pos (show (0 : Fin S1024x325.rank) ∈ DN.lhsNonContracting by decide)]
  rfl
theorem lhsN_1 (i : S1024x53.Idx) (q : DN.contr.Idx) : (DN.lhsIdx i q 1).val = (q ⟨0, by decide⟩).val :=
  DN.lhsIdx_val_of_single rfl i q
theorem rhsN_0 (i : S1024x53.Idx) (q : DN.contr.Idx) : (DN.rhsIdx i q 0).val = (q ⟨0, by decide⟩).val :=
  DN.rhsIdx_val_of_single rfl i q
theorem rhsN_1 (i : S1024x53.Idx) (q : DN.contr.Idx) : (DN.rhsIdx i q 1).val = (i 1).val := by
  unfold DotDims.rhsIdx
  rw [dif_neg (show ¬(1 : Fin S325x53.rank) ∈ DN.rhsBatch by decide),
    dif_pos (show (1 : Fin S325x53.rank) ∈ DN.rhsNonContracting by decide)]
  rfl

/-- A product contracting the reaction axis (left operand's columns, right operand's rows), at (p, s). -/
theorem matmulN_apply (l : FVec Ideal S1024x325 .f32) (r : FVec Ideal S325x53 .f32) (prec : Option ContractPrecision)
    (p : Fin 1024) (s : Fin 53) :
    matmul dot_S1024x325_S325x53_S1024x53_1_0_0_1_n_n prec l r (constant S1024x53 .f32 0x00000000#32) (ix2 p s)
      = ∑ k : Fin 325, l (ix2 p k) * r (ix2 k s) := by
  refine (Ideal.matmul_constant_zero_apply DN prec l r (ix2 p s)).trans ?_
  rw [← Equiv.sum_comp (contrEquiv1 DN 325 rfl rfl).symm]
  refine Finset.sum_congr rfl fun k _ => ?_
  have hk := contrEquiv1_symm_val DN 325 rfl rfl k
  have el : DN.lhsIdx (ix2 p s) ((contrEquiv1 DN 325 rfl rfl).symm k) = ix2 p k := funext fun a => Fin.ext (by
    match a with
    | ⟨0, _⟩ => exact lhsN_0 _ _
    | ⟨1, _⟩ => exact (lhsN_1 _ _).trans hk)
  have er : DN.rhsIdx (ix2 p s) ((contrEquiv1 DN 325 rfl rfl).symm k) = ix2 k s := funext fun a => Fin.ext (by
    match a with
    | ⟨0, _⟩ => exact (rhsN_0 _ _).trans hk
    | ⟨1, _⟩ => exact rhsN_1 _ _)
  rw [el, er]

/-- A 1×1 value spread over an [R, C] block. -/
theorem bcastTo_one_apply {α : Type} {R C : Nat} (h : (⟨2, ![1, 1]⟩ : Shape).Broadcasts ⟨2, ![R, C]⟩)
    (x : (⟨2, ![1, 1]⟩ : Shape).Idx → α) (p : Fin R) (q : Fin C) :
    broadcastTo ⟨2, ![R, C]⟩ x h (ix2 p q) = x (ix2 (0 : Fin 1) (0 : Fin 1)) := by
  refine broadcastTo_apply x h (ix2 p q) (ix2 (0 : Fin 1) (0 : Fin 1)) fun a => ?_
  match a with
  | ⟨0, _⟩ =>
    show 0 = if (1 : Nat) = 1 then 0 else p.val
    rw [if_pos rfl]
  | ⟨1, _⟩ =>
    show 0 = if (1 : Nat) = 1 then 0 else q.val
    rw [if_pos rfl]

end Cert.KernelIdeal.KOps

end
-- ==== Proof.KBody.lean ====
/-
  The kernel body's arithmetic, entry by entry.

  At a grid point the body holds a block of 1024 batch rows: the temperatures, the mass fractions and the masses of those
  rows, and the whole species / reaction tables.  Given what each loaded vector holds, entry by entry, in terms of the
  arguments' coordinates, each intermediate vector of the body is the corresponding quantity of the specification at the
  block's rows, and the three stored vectors are the three kinds of entries of the result rows.
-/
import proofs.«132633_j39668317946412_1_alg».proof.Proof.Gen.KernelIdeal.Skeleton
import proofs.«132633_j39668317946412_1_alg».proof.Proof.RhsSpec
import proofs.«132633_j39668317946412_1_alg».proof.Proof.LibColRow
import proofs.«132633_j39668317946412_1_alg».proof.Proof.KOps

noncomputable section

namespace Cert.KernelIdeal.KBody

open Cert.KernelIdeal Cert.KernelIdeal.Gen Cert.KernelIdeal.KOps Cert.LibColRow Cert.RhsSpec
open Idealize.ShloMosaic Idealize.ShloMosaic.ValueIdx

theorem log_apply {s : Shape} (a : FVec Ideal s .f32) (i : s.Idx) : log a i = Ideal.log (a i) := rfl
theorem exp_apply {s : Shape} (a : FVec Ideal s .f32) (i : s.Idx) : exp a i = Ideal.exp (a i) := rfl
theorem ofBits_apply (w : BitVec 32) : (Scalar.ofBits (F := Ideal) .f32 w) = Ideal.ofBits .f32 w := rfl

section Block

variable {I : In} {row : Fin 1024 → Fin 65536}
  {v0 : Vec Ideal S1024 .f32} {v2 : Vec Ideal S1024x53 .f32} {v3 : Vec Ideal S1024 .f32}
  {v5 v7 v9 v11 v13 v15 v17 v19 v21 : Vec Ideal S1x53 .f32} {v23 v25 v27 v29 : Vec Ideal S1x325 .f32}
  {v31 v32 v33 : Vec Ideal S325x53 .f32} {v35 : Vec Ideal S1x4 .f32}

/-- What the loaded vectors hold: the block's rows of T, Y, m; the seven rows of NASA coefficients; molar masses and inlet
    mass fractions; log A, b, Ea and the net-coefficient sums; the coefficient tables; the four scalars. -/
structure Holds (I : In) (row : Fin 1024 → Fin 65536)
    (v0 : Vec Ideal S1024 .f32) (v2 : Vec Ideal S1024x53 .f32) (v3 : Vec Ideal S1024 .f32)
    (v5 v7 v9 v11 v13 v15 v17 v19 v21 : Vec Ideal S1x53 .f32) (v23 v25 v27 v29 : Vec Ideal S1x325 .f32)
    (v31 v32 v33 : Vec Ideal S325x53 .f32) (v35 : Vec Ideal S1x4 .f32) : Prop where
  h0 : ∀ p : Fin 1024, v0 (ix1 p) = I.T (row p)
  h2 : ∀ (p : Fin 1024) (s : Fin 53), v2 (ix2 p s) = I.Y (row p) s
  h3 : ∀ p : Fin 1024, v3 (ix1 p) = I.m (row p)
  h5 : ∀ s : Fin 53, v5 (ix2 (0 : Fin 1) s) = I.nasa s 0
  h7 : ∀ s : Fin 53, v7 (ix2 (0 : Fin 1) s) = I.nasa s 1
  h9 : ∀ s : Fin 53, v9 (ix2 (0 : Fin 1) s) = I.nasa s 2
  h11 : ∀ s : Fin 53, v11 (ix2 (0 : Fin 1) s) = I.nasa s 3
  h13 : ∀ s : Fin 53, v13 (ix2 (0 : Fin 1) s) = I.nasa s 4
  h15 : ∀ s : Fin 53, v15 (ix2 (0 : Fin 1) s) = I.nasa s 5
  h17 : ∀ s : Fin 53, v17 (ix2 (0 : Fin 1) s) = I.nasa s 6
  h19 : ∀ s : Fin 53, v19 (ix2 (0 : Fin 1) s) = I.mw s
  h21 : ∀ s : Fin 53, v21 (ix2 (0 : Fin 1) s) = I.Yin s
  h23 : ∀ r : Fin 325, v23 (ix2 (0 : Fin 1) r) = Ideal.log (I.A r)
  h25 : ∀ r : Fin 325, v25 (ix2 (0 : Fin 1) r) = I.b r
  h27 : ∀ r : Fin 325, v27 (ix2 (0 : Fin 1) r) = I.Ea r
  h29 : ∀ r : Fin 325, v29 (ix2 (0 : Fin 1) r) = dnuSum I r
  h31 : ∀ (r : Fin 325) (s : Fin 53), v31 (ix2 r s) = I.nuf r s
  h32 : ∀ (r : Fin 325) (s : Fin 53), v32 (ix2 r s) = I.nur r s
  h33 : ∀ (r : Fin 325) (s : Fin 53), v33 (ix2 r s) = dnu I r s
  hP : v35 (ix2 (0 : Fin 1) (0 : Fin 4)) = I.P
  hI : v35 (ix2 (0 : Fin 1) (1 : Fin 4)) = mdotIn I
  hO : v35 (ix2 (0 : Fin 1) (2 : Fin 4)) = mdotOut I
  hH : v35 (ix2 (0 : Fin 1) (3 : Fin 4)) = hIn I

variable (H : Holds I row v0 v2 v3 v5 v7 v9 v11 v13 v15 v17 v19 v21 v23 v25 v27 v29 v31 v32 v33 v35)
include H

local notation "V1" => k0_pay1 (F := Ideal) v0
local notation "V4" => k0_pay2 (F := Ideal) v3
local notation "V6" => k0_pay3 (F := Ideal) v5
local notation "V8" => k0_pay4 (F := Ideal) v7
local notation "V10" => k0_pay5 (F := Ideal) v9
local notation "V12" => k0_pay6 (F := Ideal) v11
local notation "V14" => k0_pay7 (F := Ideal) v13
local notation "V16" => k0_pay8 (F := Ideal) v15
local notation "V18" => k0_pay9 (F := Ideal) v17
local notation "V20" => k0_pay10 (F := Ideal) v19
local notation "V22" => k0_pay11 (F := Ideal) v21
local notation "V24" => k0_pay12 (F := Ideal) v23
local notation "V26" => k0_pay13 (F := Ideal) v25
local notation "V28" => k0_pay14 (F := Ideal) v27
local notation "V30" => k0_pay15 (F := Ideal) v29
local notation "V34" => k0_pay16 (F := Ideal) v33
local notation "V37" => k0_pay18 (F := Ideal) v35
local notation "V38" => k0_pay19 (F := Ideal) v35
local notation "V39" => k0_pay20 (F := Ideal) v35
local notation "V40" => k0_pay21 (F := Ideal) v35

theorem t_col (p : Fin 1024) : V1 (ix2 p (0 : Fin 1)) = I.T (row p) := by
  unfold k0_pay1
  exact (shapeCast_col_apply _ v0 p 0).trans (H.h0 p)

theorem m_col (p : Fin 1024) : V4 (ix2 p (0 : Fin 1)) = I.m (row p) := by
  unfold k0_pay2
  exact (shapeCast_col_apply _ v3 p 0).trans (H.h3 p)

theorem a0_row (s : Fin 53) : V6 (ix2 (0 : Fin 1) s) = I.nasa s 0 := by
  unfold k0_pay3; rw [shapeCast_self]; exact H.h5 s
theorem a1_row (s : Fin 53) : V8 (ix2 (0 : Fin 1) s) = I.nasa s 1 := by
  unfold k0_pay4; rw [shapeCast_self]; exact H.h7 s
theorem a2_row (s : Fin 53) : V10 (ix2 (0 : Fin 1) s) = I.nasa s 2 := by
  unfold k0_pay5; rw [shapeCast_self]; exact H.h9 s
theorem a3_row (s : Fin 53) : V12 (ix2 (0 : Fin 1) s) = I.nasa s 3 := by
  unfold k0_pay6; rw [shapeCast_self]; exact H.h11 s
theorem a4_row (s : Fin 53) : V14 (ix2 (0 : Fin 1) s) = I.nasa s 4 := by
  unfold k0_pay7; rw [shapeCast_self]; exact H.h13 s
theorem a5_row (s : Fin 53) : V16 (ix2 (0 : Fin 1) s) = I.nasa s 5 := by
  unfold k0_pay8; rw [shapeCast_self]; exact H.h15 s
theorem a6_row (s : Fin 53) : V18 (ix2 (0 : Fin 1) s) = I.nasa s 6 := by
  unfold k0_pay9; rw [shapeCast_self]; exact H.h17 s
theorem mw_row (s : Fin 53) : V20 (ix2 (0 : Fin 1) s) = I.mw s := by
  unfold k0_pay10; rw [shapeCast_self]; exact H.h19 s
theorem yin_row (s : Fin 53) : V22 (ix2 (0 : Fin 1) s) = I.Yin s := by
  unfold k0_pay11; rw [shapeCast_self]; exact H.h21 s
theorem logA_row (r : Fin 325) : V24 (ix2 (0 : Fin 1) r) = Ideal.log (I.A r) := by
  unfold k0_pay12; rw [shapeCast_self]; exact H.h23 r
theorem b_row (r : Fin 325) : V26 (ix2 (0 : Fin 1) r) = I.b r := by
  unfold k0_pay13; rw [shapeCast_self]; exact H.h25 r
theorem ea_row (r : Fin 325) : V28 (ix2 (0 : Fin 1) r) = I.Ea r := by
  unfold k0_pay14; rw [shapeCast_self]; exact H.h27 r
theorem dsum_row (r : Fin 325) : V30 (ix2 (0 : Fin 1) r) = dnuSum I r := by
  unfold k0_pay15; rw [shapeCast_self]; exact H.h29 r
theorem dnu_tab (r : Fin 325) (s : Fin 53) : V34 (ix2 r s) = dnu I r s := by
  unfold k0_pay16; rw [shapeCast_self]; exact H.h33 r s

theorem p_cell : V37 (ix2 (0 : Fin 1) (0 : Fin 1)) = I.P := by
  unfold k0_pay18 k0_pay17
  rw [shapeCast_self]
  exact (extractStridedSlice_apply ![0, 0] v35 slices_S1x4_o0_0_S1x1 (ix2 (0 : Fin 1) (0 : Fin 1)) (ix2 (0 : Fin 1) (0 : Fin 4))
    (fun a => by match a with | ⟨0, _⟩ => rfl | ⟨1, _⟩ => rfl)).trans H.hP
theorem min_cell : V38 (ix2 (0 : Fin 1) (0 : Fin 1)) = mdotIn I := by
  unfold k0_pay19 k0_pay17
  rw [shapeCast_self]
  exact (extractStridedSlice_apply ![0, 1] v35 slices_S1x4_o0_1_S1x1 (ix2 (0 : Fin 1) (0 : Fin 1)) (ix2 (0 : Fin 1) (1 : Fin 4))
    (fun a => by match a with | ⟨0, _⟩ => rfl | ⟨1, _⟩ => rfl)).trans H.hI
theorem mout_cell : V39 (ix2 (0 : Fin 1) (0 : Fin 1)) = mdotOut I := by
  unfold k0_pay20 k0_pay17
  rw [shapeCast_self]
  exact (extractStridedSlice_apply ![0, 2] v35 slices_S1x4_o0_2_S1x1 (ix2 (0 : Fin 1) (0 : Fin 1)) (ix2 (0 : Fin 1) (2 : Fin 4))
    (fun a => by match a with | ⟨0, _⟩ => rfl | ⟨1, _⟩ => rfl)).trans H.hO
theorem hin_cell : V40 (ix2 (0 : Fin 1) (0 : Fin 1)) = hIn I := by
  unfold k0_pay21 k0_pay17
  rw [shapeCast_self]
  exact (extractStridedSlice_apply ![0, 3] v35 slices_S1x4_o0_3_S1x1 (ix2 (0 : Fin 1) (0 : Fin 1)) (ix2 (0 : Fin 1) (3 : Fin 4))
    (fun a => by match a with | ⟨0, _⟩ => rfl | ⟨1, _⟩ => rfl)).trans H.hH

local notation "V41" => k0_pay22 (F := Ideal) V1
local notation "V58" => k0_pay23 (F := Ideal) V1 V6 V8 V10 V12 V14
local notation "V60" => k0_pay24 (F := Ideal) V8
local notation "V75" => k0_pay25 (F := Ideal) V1 V10 V12 V14
local notation "V76" => k0_pay26 (F := Ideal) V1

/-- The logarithm of the row's temperature. -/
theorem logT_col (p : Fin 1024) : V41 (ix2 p (0 : Fin 1)) = Ideal.log (I.T (row p)) := by
  unfold k0_pay22
  exact (log_apply _ _).trans (congrArg Ideal.log (t_col H p))

/-- c_p/R of species `s` at the row's temperature. -/
theorem cpR_blk (p : Fin 1024) (s : Fin 53) : V58 (ix2 p s) = cpR I (I.T (row p)) s := by
  unfold k0_pay23 cpR
  simp only [addf_apply, mulf_apply, bcastTo_col_apply, bcastTo_row_apply, t_col H, a0_row H, a1_row H, a2_row H,
    a3_row H, a4_row H]

theorem a1_half (s : Fin 53) : V60 (ix2 (0 : Fin 1) s) = Ideal.div (I.nasa s 1) c2 := by
  unfold k0_pay24
  simp only [divf_apply, broadcast_apply, ofBits_apply, a1_row H]

theorem h_inner (p : Fin 1024) (s : Fin 53) : V75 (ix2 p s)
    = Ideal.div (I.nasa s 2) c3 + I.T (row p) * (Ideal.div (I.nasa s 3) c4 + Ideal.div (I.T (row p) * I.nasa s 4) c5) := by
  unfold k0_pay25
  simp only [addf_apply, mulf_apply, divf_apply, broadcast_apply, ofBits_apply, bcastTo_col_apply, bcastTo_row_apply,
    t_col H, a2_row H, a3_row H, a4_row H]

theorem t_spread (p : Fin 1024) (s : Fin 53) : V76 (ix2 p s) = I.T (row p) := by
  unfold k0_pay26
  simp only [bcastTo_col_apply, t_col H]

local notation "V87" => k0_pay27 (F := Ideal) V1 V6 V16 V60 V75 V76
local notation "V114" => k0_pay28 (F := Ideal) V1 V6 V8 V10 V12 V14 V18 V41
local notation "V116" => k0_pay29 (F := Ideal) V58
local notation "V120" => k0_pay30 (F := Ideal) V1 V6 V16 V60 V75 V76
local notation "V129" => k0_pay31 (F := Ideal) V1 v2 V20 V37
local notation "V134" => k0_pay32 (F := Ideal) v2 V20 V116
local notation "V139" => k0_pay33 (F := Ideal) v2 V20 V120

/-- h/(RT) and s/R of species `s` at the row's temperature. -/
theorem hRT_blk (p : Fin 1024) (s : Fin 53) : V87 (ix2 p s) = hRT I (I.T (row p)) s := by
  unfold k0_pay27 hRT
  simp only [addf_apply, mulf_apply, divf_apply, bcastTo_col_apply, bcastTo_row_apply, t_col H, a0_row H, a5_row H,
    a1_half H, h_inner H, t_spread H]

theorem sR_blk (p : Fin 1024) (s : Fin 53) : V114 (ix2 p s) = sR I (I.T (row p)) s := by
  unfold k0_pay28 sR
  simp only [addf_apply, mulf_apply, divf_apply, broadcast_apply, ofBits_apply, bcastTo_col_apply, bcastTo_row_apply,
    t_col H, logT_col H, a0_row H, a1_row H, a2_row H, a3_row H, a4_row H, a6_row H]

/-- Molar heat capacity and molar enthalpy. -/
theorem cpMol_blk (p : Fin 1024) (s : Fin 53) : V116 (ix2 p s) = cpMol I (I.T (row p)) s := by
  unfold k0_pay29 cpMol
  simp only [mulf_apply, broadcast_apply, ofBits_apply, cpR_blk H]

theorem hMol_blk (p : Fin 1024) (s : Fin 53) : V120 (ix2 p s) = hMol I (I.T (row p)) s := by
  unfold k0_pay30 hMol
  simp only [mulf_apply, broadcast_apply, ofBits_apply, bcastTo_col_apply, hRT_blk H, t_col H]

/-- The row's density, specific heat capacity and specific enthalpy. -/
theorem rho_blk (p : Fin 1024) : V129 (ix2 p (0 : Fin 1)) = rho I (row p) := by
  unfold k0_pay31 rho invW
  simp only [mulf_apply, divf_apply, broadcast_apply, ofBits_apply, bcastTo_row_apply, shapeCast_col_apply,
    t_col H, p_cell H]
  refine congrArg (fun z => Ideal.div I.P (Rg * I.T (row p) * z)) ?_
  refine (laneSum_apply _ _ _ p).trans ?_
  simp only [divf_apply, bcastTo_row_apply, mw_row H, H.h2]

theorem cpMass_blk (p : Fin 1024) : V134 (ix2 p (0 : Fin 1)) = cpMass I (row p) := by
  unfold k0_pay32 cpMass
  simp only [shapeCast_col_apply]
  refine (laneSum_apply _ _ _ p).trans ?_
  simp only [mulf_apply, divf_apply, bcastTo_row_apply, mw_row H, cpMol_blk H, H.h2]

theorem hMass_blk (p : Fin 1024) : V139 (ix2 p (0 : Fin 1)) = hMass I (row p) := by
  unfold k0_pay33 hMass
  simp only [shapeCast_col_apply]
  refine (laneSum_apply _ _ _ p).trans ?_
  simp only [mulf_apply, divf_apply, bcastTo_row_apply, mw_row H, hMol_blk H, H.h2]

local notation "V151" => k0_pay34 (F := Ideal) V1 V24 V26 V28 V41
local notation "V164" => k0_pay35 (F := Ideal) V1 V24 V26 V28 V30 V34 V41 V87 V114
local notation "V171" => k0_pay36 (F := Ideal) v2 V20 V129
local notation "V173" => k0_pay37 (F := Ideal) v2 V20 v32 V129
local notation "V176" => k0_pay38 (F := Ideal) V1 v2 V20 V24 V26 V28 v31 V41 V129
local notation "V177" => k0_pay39 (F := Ideal)
local notation "V187" => k0_pay40 (F := Ideal) V34 V164 V173 V176 V177
local notation "V189" => k0_pay41 (F := Ideal) V4

/-- Logarithms of the forward and of the reverse rate constant of reaction `r`. -/
theorem lnkf_blk (p : Fin 1024) (r : Fin 325) : V151 (ix2 p r) = lnkf I (I.T (row p)) r := by
  unfold k0_pay34 lnkf
  simp only [addf_apply, subf_apply, mulf_apply, divf_apply, broadcast_apply, ofBits_apply, bcastTo_col_apply,
    bcastTo_row_apply, t_col H, logT_col H, logA_row H, b_row H, ea_row H]

theorem lnkr_blk (p : Fin 1024) (r : Fin 325) : V164 (ix2 p r) = lnkr I (I.T (row p)) r := by
  unfold k0_pay35 lnkr lnKc gRT
  simp only [addf_apply, subf_apply, mulf_apply, divf_apply, log_apply, broadcast_apply, ofBits_apply, bcastTo_col_apply,
    bcastTo_row_apply, matmulT_apply, Ideal.ofBits_zero_f32, zero_sub, t_col H, dsum_row H, dnu_tab H, hRT_blk H, sR_blk H,
    lnkf_blk H]

/-- Logarithm of the floored concentration. -/
theorem logC_blk (p : Fin 1024) (s : Fin 53) : V171 (ix2 p s) = logC I (row p) s := by
  unfold k0_pay36 logC
  simp only [log_apply, maximumf_apply, divf_apply, mulf_apply, broadcast_apply, ofBits_apply, bcastTo_col_apply,
    bcastTo_row_apply, rho_blk H, mw_row H, H.h2]

theorem qr_inner_blk (p : Fin 1024) (r : Fin 325) : V173 (ix2 p r) = ∑ s : Fin 53, logC I (row p) s * I.nur r s := by
  unfold k0_pay37
  simp only [matmulT_apply, logC_blk H, H.h32]

theorem qf_arg_blk (p : Fin 1024) (r : Fin 325) :
    V176 (ix2 p r) = max cLo (lnkf I (I.T (row p)) r + ∑ s : Fin 53, logC I (row p) s * I.nuf r s) := by
  unfold k0_pay38
  simp only [maximumf_apply, addf_apply, broadcast_apply, ofBits_apply, matmulT_apply, logC_blk H, lnkf_blk H, H.h31]

theorem hi_blk (p : Fin 1024) (r : Fin 325) : V177 (ix2 p r) = cHi := by
  unfold k0_pay39
  simp only [broadcast_apply, ofBits_apply]

/-- Net molar production rate of species `s` in the row. -/
theorem wdot_blk (p : Fin 1024) (s : Fin 53) : V187 (ix2 p s) = wdot I (row p) s := by
  unfold k0_pay40 wdot qf qr clip
  simp only [matmulN_apply, subf_apply, addf_apply, exp_apply, minimumf_apply, maximumf_apply, broadcast_apply,
    ofBits_apply, lnkr_blk H, qr_inner_blk H, qf_arg_blk H, hi_blk H, dnu_tab H]

theorem mSafe_blk (p : Fin 1024) : V189 (ix2 p (0 : Fin 1)) = mSafe I (row p) := by
  unfold k0_pay41 mSafe
  simp only [maximumf_apply, broadcast_apply, ofBits_apply, m_col H]

/-- The three stored vectors: dY/dt, dT/dt, dm/dt at the block's rows. -/
theorem dY_blk (p : Fin 1024) (s : Fin 53) :
    k0_pay42 (F := Ideal) v2 V4 V20 V22 V34 V38 V129 V164 V173 V176 V177 (ix2 p s) = dY I (row p) s := by
  unfold k0_pay42 dY
  simp only [addf_apply, subf_apply, mulf_apply, divf_apply, bcastTo_col_apply, bcastTo_row_apply, bcastTo_one_apply,
    wdot_blk H, mw_row H, yin_row H, rho_blk H, mSafe_blk H, min_cell H, H.h2]

theorem dT_blk (p : Fin 1024) :
    k0_pay43 (F := Ideal) V4 V34 V38 V40 V120 V129 V134 V139 V164 V173 V176 V177 (ix2 p (0 : Fin 1)) = dT I (row p) := by
  unfold k0_pay43 dT
  simp only [addf_apply, subf_apply, mulf_apply, divf_apply, broadcast_apply, ofBits_apply, bcastTo_row_apply,
    shapeCast_col_apply, Ideal.ofBits_zero_f32, zero_sub, rho_blk H, cpMass_blk H,
    hMass_blk H, mSafe_blk H, min_cell H, hin_cell H]
  refine congrArg (fun z => Ideal.div (-z) _ + _) ?_
  refine (laneSum_apply _ _ _ p).trans ?_
  simp only [mulf_apply, wdot_blk H, hMol_blk H]

theorem dm_blk (p : Fin 1024) : k0_pay44 (F := Ideal) V38 V39 (ix2 p (0 : Fin 1)) = dm I := by
  unfold k0_pay44 dm
  rw [shapeCast_self]
  simp only [subf_apply, bcastTo_row_apply, min_cell H, mout_cell H]

end Block

end Cert.KernelIdeal.KBody

end
-- ==== Proof.KernelRows.lean ====
/-
  The rows of a block, the specification's arguments read off the launch memory, and what the body's loads hold.

  Grid point `t` of the 64 handles batch rows `1024 t … 1024 t + 1023`.  `HoldsAt m c t` says that, at point `t`, each
  vector the body loads from its ten input blocks holds the corresponding coordinates of the arguments: the block's rows of
  the three batch arrays and the whole species / reaction tables.
-/
import proofs.«132633_j39668317946412_1_alg».proof.Proof.KernelIdealFrame
import proofs.«132633_j39668317946412_1_alg».proof.Proof.KBody

noncomputable section

namespace Cert.KernelIdeal.KValue

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ)

/-- The specification's arguments, by coordinates, from the sixteen argument arrays as launched on core `c`. -/
abbrev argsOf (c : Dev nD) : Cert.RhsSpec.In :=
  Cert.RhsSpec.ofArrays (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))

/-- Row `p` of grid point `t`'s block is batch row `1024 t + p`. -/
def rowOf (t : Fin cfg0.N) (p : Fin 1024) : Fin 65536 :=
  ⟨t.val * 1024 + p.val, by have := Nat.lt_of_lt_of_eq t.isLt N_0; have := p.isLt; omega⟩

theorem rowOf_val (t : Fin cfg0.N) (p : Fin 1024) : (rowOf t p).val = t.val * 1024 + p.val := rfl

/-- At point `t` the body's loaded vectors hold the arguments' coordinates: the block's rows, and the tables. -/
abbrev HoldsAt (c : Dev nD) (t : Fin cfg0.N) : Prop :=
  KBody.Holds (argsOf m c) (rowOf t)
    (View.ld (iblk m c 0 t) rVec) (View.ld (iblk m c 1 t) rMat) (View.ld (iblk m c 2 t) rVec)
    (View.ld (iblk m c 3 t) rRow7_0) (View.ld (iblk m c 3 t) rRow7_1) (View.ld (iblk m c 3 t) rRow7_2) (View.ld (iblk m c 3 t) rRow7_3) (View.ld (iblk m c 3 t) rRow7_4) (View.ld (iblk m c 3 t) rRow7_5) (View.ld (iblk m c 3 t) rRow7_6)
    (View.ld (iblk m c 4 t) rRow2_0) (View.ld (iblk m c 4 t) rRow2_1)
    (View.ld (iblk m c 5 t) rRow4_0) (View.ld (iblk m c 5 t) rRow4_1) (View.ld (iblk m c 5 t) rRow4_2) (View.ld (iblk m c 5 t) rRow4_3)
    (View.ld (iblk m c 6 t) rCoef) (View.ld (iblk m c 7 t) rCoef) (View.ld (iblk m c 8 t) rCoef)
    (View.ld (iblk m c 9 t) rScal)

end Cert.KernelIdeal.KValue

end
-- ==== Proof.KernelValue.lean ====
/-
  The kernel's result array as one function of the argument arrays.

  The region reads three row blocks of the batch (temperatures, mass fractions, masses) and seven whole tables that the
  host operations before it compute from the arguments: the NASA coefficients transposed, the molar masses and inlet mass
  fractions as two rows, the reaction parameters (log A, b, Ea, the net-coefficient sums) as four rows, the three
  coefficient tables, and a row of four scalars (the pressure, the two mass flows, the inlet's specific enthalpy).  Read at
  an index, each is a coordinate of the specification's arguments; the body's three stores are then the three kinds of
  entries of the result rows of the block, and the 64 blocks tile the result array.
-/
import proofs.«132633_j39668317946412_1_alg».proof.Proof.KernelRows
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws
import Idealize.ShloMosaic.Lib.IdealHost

set_option maxRecDepth 16384

noncomputable section

namespace Cert.KernelIdeal.KValue

open Cert.KernelIdeal Cert.KernelIdeal.Gen Cert.KernelIdeal.Frame Cert.RhsSpec
open Idealize.ShloMosaic Idealize.ShloMosaic.TcCoe Idealize.SL.Sem Idealize.ShloMosaic.ValueIdx
open Idealize.ShloMosaic.Pipeline (Dat)

/-! ## The host prefix, operation by operation

Each buffer the 81 host operations before the region write, as a function of the argument arrays it depends on: the
operation's function applied to its operands' values.  Stated at any float instance; read below at the extended reals. -/

section Prefix
variable {F : FTy → Type} [FloatOps F]

/-- An array of a given shape. -/
abbrev Arr (F : FTy → Type) (s : Shape) : Type := (⟨s, .f32⟩ : BufTy).Contents (Elt F)
def pre_v0 (x7 : Arr F S2) : Arr F S1 :=
  ((extractStridedSlice S1 ![0] · slices_S2_S1_0) : (⟨S2, .f32⟩ : BufTy).Contents (Elt F) → (⟨S1, .f32⟩ : BufTy).Contents (Elt F)) x7
def pre_v1 (x7 : Arr F S2) : Arr F S_ :=
  shapeCast S_ (pre_v0 (F := F) x7) shapeCasts_S1_S_
def pre_v2 (x7 : Arr F S2) : Arr F S1 :=
  ((extractStridedSlice S1 ![1] · slices_S2_S1_1) : (⟨S2, .f32⟩ : BufTy).Contents (Elt F) → (⟨S1, .f32⟩ : BufTy).Contents (Elt F)) x7
def pre_v3 (x7 : Arr F S2) : Arr F S_ :=
  shapeCast S_ (pre_v2 (F := F) x7) shapeCasts_S1_S_
def pre_v4 (x0 : Arr F S_) (x7 : Arr F S2) : Arr F S_ :=
  (mulf : (⟨S_, .f32⟩ : BufTy).Contents (Elt F) → (⟨S_, .f32⟩ : BufTy).Contents (Elt F) → (⟨S_, .f32⟩ : BufTy).Contents (Elt F)) (pre_v3 (F := F) x7) x0
def pre_v5 (x0 : Arr F S_) (x7 : Arr F S2) : Arr F S_ :=
  (addf : (⟨S_, .f32⟩ : BufTy).Contents (Elt F) → (⟨S_, .f32⟩ : BufTy).Contents (Elt F) → (⟨S_, .f32⟩ : BufTy).Contents (Elt F)) (pre_v1 (F := F) x7) (pre_v4 (F := F) x0 x7)
def pre_v6 (x8 : Arr F S2) : Arr F S1 :=
  ((extractStridedSlice S1 ![0] · slices_S2_S1_0) : (⟨S2, .f32⟩ : BufTy).Contents (Elt F) → (⟨S1, .f32⟩ : BufTy).Contents (Elt F)) x8
def pre_v7 (x8 : Arr F S2) : Arr F S_ :=
  shapeCast S_ (pre_v6 (F := F) x8) shapeCasts_S1_S_
def pre_v8 (x8 : Arr F S2) : Arr F S1 :=
  ((extractStridedSlice S1 ![1] · slices_S2_S1_1) : (⟨S2, .f32⟩ : BufTy).Contents (Elt F) → (⟨S1, .f32⟩ : BufTy).Contents (Elt F)) x8
def pre_v9 (x8 : Arr F S2) : Arr F S_ :=
  shapeCast S_ (pre_v8 (F := F) x8) shapeCasts_S1_S_
def pre_v10 (x0 : Arr F S_) (x8 : Arr F S2) : Arr F S_ :=
  (mulf : (⟨S_, .f32⟩ : BufTy).Contents (Elt F) → (⟨S_, .f32⟩ : BufTy).Contents (Elt F) → (⟨S_, .f32⟩ : BufTy).Contents (Elt F)) (pre_v9 (F := F) x8) x0
def pre_v11 (x0 : Arr F S_) (x8 : Arr F S2) : Arr F S_ :=
  (addf : (⟨S_, .f32⟩ : BufTy).Contents (Elt F) → (⟨S_, .f32⟩ : BufTy).Contents (Elt F) → (⟨S_, .f32⟩ : BufTy).Contents (Elt F)) (pre_v7 (F := F) x8) (pre_v10 (F := F) x0 x8)
def pre_v12 (x9 : Arr F S53x7) : Arr F S53x1 :=
  ((extractStridedSlice S53x1 ![0, 0] · slices_S53x7_S53x1_0_0) : (⟨S53x7, .f32⟩ : BufTy).Contents (Elt F) → (⟨S53x1, .f32⟩ : BufTy).Contents (Elt F)) x9
def pre_v13 (x9 : Arr F S53x7) : Arr F S53 :=
  shapeCast S53 (pre_v12 (F := F) x9) shapeCasts_S53x1_S53
def pre_v14 (x9 : Arr F S53x7) : Arr F S53x1 :=
  ((extractStridedSlice S53x1 ![0, 1] · slices_S53x7_S53x1_0_1) : (⟨S53x7, .f32⟩ : BufTy).Contents (Elt F) → (⟨S53x1, .f32⟩ : BufTy).Contents (Elt F)) x9
def pre_v15 (x9 : Arr F S53x7) : Arr F S53 :=
  shapeCast S53 (pre_v14 (F := F) x9) shapeCasts_S53x1_S53
def pre_v16 (x9 : Arr F S53x7) : Arr F S53x1 :=
  ((extractStridedSlice S53x1 ![0, 2] · slices_S53x7_S53x1_0_2) : (⟨S53x7, .f32⟩ : BufTy).Contents (Elt F) → (⟨S53x1, .f32⟩ : BufTy).Contents (Elt F)) x9
def pre_v17 (x9 : Arr F S53x7) : Arr F S53 :=
  shapeCast S53 (pre_v16 (F := F) x9) shapeCasts_S53x1_S53
def pre_v18 (x9 : Arr F S53x7) : Arr F S53x1 :=
  ((extractStridedSlice S53x1 ![0, 3] · slices_S53x7_S53x1_0_3) : (⟨S53x7, .f32⟩ : BufTy).Contents (Elt F) → (⟨S53x1, .f32⟩ : BufTy).Contents (Elt F)) x9
def pre_v19 (x9 : Arr F S53x7) : Arr F S53 :=
  shapeCast S53 (pre_v18 (F := F) x9) shapeCasts_S53x1_S53
def pre_v20 (x9 : Arr F S53x7) : Arr F S53x1 :=
  ((extractStridedSlice S53x1 ![0, 4] · slices_S53x7_S53x1_0_4) : (⟨S53x7, .f32⟩ : BufTy).Contents (Elt F) → (⟨S53x1, .f32⟩ : BufTy).Contents (Elt F)) x9
def pre_v21 (x9 : Arr F S53x7) : Arr F S53 :=
  shapeCast S53 (pre_v20 (F := F) x9) shapeCasts_S53x1_S53
def pre_v22 (x9 : Arr F S53x7) : Arr F S53x1 :=
  ((extractStridedSlice S53x1 ![0, 5] · slices_S53x7_S53x1_0_5) : (⟨S53x7, .f32⟩ : BufTy).Contents (Elt F) → (⟨S53x1, .f32⟩ : BufTy).Contents (Elt F)) x9
def pre_v23 (x9 : Arr F S53x7) : Arr F S53 :=
  shapeCast S53 (pre_v22 (F := F) x9) shapeCasts_S53x1_S53
def pre_v24 (x9 : Arr F S53x7) : Arr F S53x1 :=
  ((extractStridedSlice S53x1 ![0, 6] · slices_S53x7_S53x1_0_6) : (⟨S53x7, .f32⟩ : BufTy).Contents (Elt F) → (⟨S53x1, .f32⟩ : BufTy).Contents (Elt F)) x9
def pre_v25 (x9 : Arr F S53x7) : Arr F S53 :=
  shapeCast S53 (pre_v24 (F := F) x9) shapeCasts_S53x1_S53
def pre_cst : Arr F S_ :=
  constant S_ .f32 0x40000000#32
def pre_v26 : Arr F S53 :=
  (broadcastInDim S53 ![] bcast_S_S53 : (⟨S_, .f32⟩ : BufTy).Contents (Elt F) → (⟨S53, .f32⟩ : BufTy).Contents (Elt F)) (pre_cst (F := F))
def pre_v27 (x9 : Arr F S53x7) : Arr F S53 :=
  (Host.divf : (⟨S53, .f32⟩ : BufTy).Contents (Elt F) → (⟨S53, .f32⟩ : BufTy).Contents (Elt F) → (⟨S53, .f32⟩ : BufTy).Contents (Elt F)) (pre_v15 (F := F) x9) (pre_v26 (F := F))
def pre_cst_0 : Arr F S_ :=
  constant S_ .f32 0x40400000#32
def pre_v28 : Arr F S53 :=
  (broadcastInDim S53 ![] bcast_S_S53 : (⟨S_, .f32⟩ : BufTy).Contents (Elt F) → (⟨S53, .f32⟩ : BufTy).Contents (Elt F)) (pre_cst_0 (F := F))
def pre_v29 (x9 : Arr F S53x7) : Arr F S53 :=
  (Host.divf : (⟨S53, .f32⟩ : BufTy).Contents (Elt F) → (⟨S53, .f32⟩ : BufTy).Contents (Elt F) → (⟨S53, .f32⟩ : BufTy).Contents (Elt F)) (pre_v17 (F := F) x9) (pre_v28 (F := F))
def pre_cst_1 : Arr F S_ :=
  constant S_ .f32 0x40800000#32
def pre_v30 : Arr F S53 :=
  (broadcastInDim S53 ![] bcast_S_S53 : (⟨S_, .f32⟩ : BufTy).Contents (Elt F) → (⟨S53, .f32⟩ : BufTy).Contents (Elt F)) (pre_cst_1 (F := F))
def pre_v31 (x9 : Arr F S53x7) : Arr F S53 :=
  (Host.divf : (⟨S53, .f32⟩ : BufTy).Contents (Elt F) → (⟨S53, .f32⟩ : BufTy).Contents (Elt F) → (⟨S53, .f32⟩ : BufTy).Contents (Elt F)) (pre_v19 (F := F) x9) (pre_v30 (F := F))
def pre_v32 (x5 : Arr F S_) : Arr F S53 :=
  (broadcastInDim S53 ![] bcast_S_S53 : (⟨S_, .f32⟩ : BufTy).Contents (Elt F) → (⟨S53, .f32⟩ : BufTy).Contents (Elt F)) x5
def pre_v33 (x5 : Arr F S_) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v32 (F := F) x5) (pre_v21 (F := F) x9)
def pre_cst_2 : Arr F S_ :=
  constant S_ .f32 0x40A00000#32
def pre_v34 : Arr F S53 :=
  (broadcastInDim S53 ![] bcast_S_S53 : (⟨S_, .f32⟩ : BufTy).Contents (Elt F) → (⟨S53, .f32⟩ : BufTy).Contents (Elt F)) (pre_cst_2 (F := F))
def pre_v35 (x5 : Arr F S_) (x9 : Arr F S53x7) : Arr F S53 :=
  (Host.divf : (⟨S53, .f32⟩ : BufTy).Contents (Elt F) → (⟨S53, .f32⟩ : BufTy).Contents (Elt F) → (⟨S53, .f32⟩ : BufTy).Contents (Elt F)) (pre_v33 (F := F) x5 x9) (pre_v34 (F := F))
def pre_v36 (x5 : Arr F S_) (x9 : Arr F S53x7) : Arr F S53 :=
  (addf : (⟨S53, .f32⟩ : BufTy).Contents (Elt F) → (⟨S53, .f32⟩ : BufTy).Contents (Elt F) → (⟨S53, .f32⟩ : BufTy).Contents (Elt F)) (pre_v31 (F := F) x9) (pre_v35 (F := F) x5 x9)
def pre_v37 (x5 : Arr F S_) : Arr F S53 :=
  (broadcastInDim S53 ![] bcast_S_S53 : (⟨S_, .f32⟩ : BufTy).Contents (Elt F) → (⟨S53, .f32⟩ : BufTy).Contents (Elt F)) x5
def pre_v38 (x5 : Arr F S_) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v37 (F := F) x5) (pre_v36 (F := F) x5 x9)
def pre_v39 (x5 : Arr F S_) (x9 : Arr F S53x7) : Arr F S53 :=
  (addf : (⟨S53, .f32⟩ : BufTy).Contents (Elt F) → (⟨S53, .f32⟩ : BufTy).Contents (Elt F) → (⟨S53, .f32⟩ : BufTy).Contents (Elt F)) (pre_v29 (F := F) x9) (pre_v38 (F := F) x5 x9)
def pre_v40 (x5 : Arr F S_) : Arr F S53 :=
  (broadcastInDim S53 ![] bcast_S_S53 : (⟨S_, .f32⟩ : BufTy).Contents (Elt F) → (⟨S53, .f32⟩ : BufTy).Contents (Elt F)) x5
def pre_v41 (x5 : Arr F S_) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v40 (F := F) x5) (pre_v39 (F := F) x5 x9)
def pre_v42 (x5 : Arr F S_) (x9 : Arr F S53x7) : Arr F S53 :=
  (addf : (⟨S53, .f32⟩ : BufTy).Contents (Elt F) → (⟨S53, .f32⟩ : BufTy).Contents (Elt F) → (⟨S53, .f32⟩ : BufTy).Contents (Elt F)) (pre_v27 (F := F) x9) (pre_v41 (F := F) x5 x9)
def pre_v43 (x5 : Arr F S_) : Arr F S53 :=
  (broadcastInDim S53 ![] bcast_S_S53 : (⟨S_, .f32⟩ : BufTy).Contents (Elt F) → (⟨S53, .f32⟩ : BufTy).Contents (Elt F)) x5
def pre_v44 (x5 : Arr F S_) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v43 (F := F) x5) (pre_v42 (F := F) x5 x9)
def pre_v45 (x5 : Arr F S_) (x9 : Arr F S53x7) : Arr F S53 :=
  (addf : (⟨S53, .f32⟩ : BufTy).Contents (Elt F) → (⟨S53, .f32⟩ : BufTy).Contents (Elt F) → (⟨S53, .f32⟩ : BufTy).Contents (Elt F)) (pre_v13 (F := F) x9) (pre_v44 (F := F) x5 x9)
def pre_v46 (x5 : Arr F S_) : Arr F S53 :=
  (broadcastInDim S53 ![] bcast_S_S53 : (⟨S_, .f32⟩ : BufTy).Contents (Elt F) → (⟨S53, .f32⟩ : BufTy).Contents (Elt F)) x5
def pre_v47 (x5 : Arr F S_) (x9 : Arr F S53x7) : Arr F S53 :=
  (Host.divf : (⟨S53, .f32⟩ : BufTy).Contents (Elt F) → (⟨S53, .f32⟩ : BufTy).Contents (Elt F) → (⟨S53, .f32⟩ : BufTy).Contents (Elt F)) (pre_v23 (F := F) x9) (pre_v46 (F := F) x5)
def pre_v48 (x5 : Arr F S_) (x9 : Arr F S53x7) : Arr F S53 :=
  (addf : (⟨S53, .f32⟩ : BufTy).Contents (Elt F) → (⟨S53, .f32⟩ : BufTy).Contents (Elt F) → (⟨S53, .f32⟩ : BufTy).Contents (Elt F)) (pre_v45 (F := F) x5 x9) (pre_v47 (F := F) x5 x9)
def pre_v49 (x5 : Arr F S_) (x6 : Arr F S53) (x9 : Arr F S53x7) : Arr F S53 :=
  (mulf : (⟨S53, .f32⟩ : BufTy).Contents (Elt F) → (⟨S53, .f32⟩ : BufTy).Contents (Elt F) → (⟨S53, .f32⟩ : BufTy).Contents (Elt F)) x6 (pre_v48 (F := F) x5 x9)
def pre_cst_3 : Arr F S_ :=
  constant S_ .f32 0x4105080A#32
def pre_v50 : Arr F S53 :=
  (broadcastInDim S53 ![] bcast_S_S53 : (⟨S_, .f32⟩ : BufTy).Contents (Elt F) → (⟨S53, .f32⟩ : BufTy).Contents (Elt F)) (pre_cst_3 (F := F))
def pre_v51 (x5 : Arr F S_) (x6 : Arr F S53) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v49 (F := F) x5 x6 x9) (pre_v50 (F := F))
def pre_v52 (x5 : Arr F S_) : Arr F S53 :=
  (broadcastInDim S53 ![] bcast_S_S53 : (⟨S_, .f32⟩ : BufTy).Contents (Elt F) → (⟨S53, .f32⟩ : BufTy).Contents (Elt F)) x5
def pre_v53 (x5 : Arr F S_) (x6 : Arr F S53) (x9 : Arr F S53x7) : Arr F S53 :=
  (mulf : (⟨S53, .f32⟩ : BufTy).Contents (Elt F) → (⟨S53, .f32⟩ : BufTy).Contents (Elt F) → (⟨S53, .f32⟩ : BufTy).Contents (Elt F)) (pre_v51 (F := F) x5 x6 x9) (pre_v52 (F := F) x5)
def pre_v54 (x5 : Arr F S_) (x6 : Arr F S53) (x9 : Arr F S53x7) (x10 : Arr F S53) : Arr F S53 :=
  (Host.divf : (⟨S53, .f32⟩ : BufTy).Contents (Elt F) → (⟨S53, .f32⟩ : BufTy).Contents (Elt F) → (⟨S53, .f32⟩ : BufTy).Contents (Elt F)) (pre_v53 (F := F) x5 x6 x9) x10
def pre_cst_4 : Arr F S_ :=
  constant S_ .f32 0x00000000#32
def pre_v55 (x5 : Arr F S_) (x6 : Arr F S53) (x9 : Arr F S53x7) (x10 : Arr F S53) : Arr F S_ :=
  ((fun x v => Host.reduceAdd x v reducesTo_S53_S_d0 h_S_) : (⟨S53, .f32⟩ : BufTy).Contents (Elt F) → (⟨S_, .f32⟩ : BufTy).Contents (Elt F) → (⟨S_, .f32⟩ : BufTy).Contents (Elt F)) (pre_v54 (F := F) x5 x6 x9 x10) (pre_cst_4 (F := F))
def pre_v56 (x11 : Arr F S325) : Arr F S325 :=
  (Host.log : (⟨S325, .f32⟩ : BufTy).Contents (Elt F) → (⟨S325, .f32⟩ : BufTy).Contents (Elt F)) x11
def pre_v57 (x14 : Arr F S325x53) (x15 : Arr F S325x53) : Arr F S325x53 :=
  (subf : (⟨S325x53, .f32⟩ : BufTy).Contents (Elt F) → (⟨S325x53, .f32⟩ : BufTy).Contents (Elt F) → (⟨S325x53, .f32⟩ : BufTy).Contents (Elt F)) x15 x14
def pre_cst_5 : Arr F S_ :=
  constant S_ .f32 0x00000000#32
def pre_v58 (x14 : Arr F S325x53) (x15 : Arr F S325x53) : Arr F S325 :=
  ((fun x v => Host.reduceAdd x v reducesTo_S325x53_S325_d1 h_S_) : (⟨S325x53, .f32⟩ : BufTy).Contents (Elt F) → (⟨S_, .f32⟩ : BufTy).Contents (Elt F) → (⟨S325, .f32⟩ : BufTy).Contents (Elt F)) (pre_v57 (F := F) x14 x15) (pre_cst_5 (F := F))
def pre_v59 (x9 : Arr F S53x7) : Arr F S7x53 :=
  ((transpose S7x53 [1, 0] · transposes_S53x7_S7x53_1_0) : (⟨S53x7, .f32⟩ : BufTy).Contents (Elt F) → (⟨S7x53, .f32⟩ : BufTy).Contents (Elt F)) x9
def pre_v60 (x10 : Arr F S53) : Arr F S1x53 :=
  (broadcastInDim S1x53 ![1] bcast_S53_S1x53_1 : (⟨S53, .f32⟩ : BufTy).Contents (Elt F) → (⟨S1x53, .f32⟩ : BufTy).Contents (Elt F)) x10
def pre_v61 (x6 : Arr F S53) : Arr F S1x53 :=
  (broadcastInDim S1x53 ![1] bcast_S53_S1x53_1 : (⟨S53, .f32⟩ : BufTy).Contents (Elt F) → (⟨S1x53, .f32⟩ : BufTy).Contents (Elt F)) x6
def pre_v62 (x6 : Arr F S53) (x10 : Arr F S53) : Arr F S2x53 :=
  ((fun a b => concatenate S2x53 0 [⟨S1x53, a⟩, ⟨S1x53, b⟩] concatenates_S1x53_S1x53_S2x53_d0) : (⟨S1x53, .f32⟩ : BufTy).Contents (Elt F) → (⟨S1x53, .f32⟩ : BufTy).Contents (Elt F) → (⟨S2x53, .f32⟩ : BufTy).Contents (Elt F)) (pre_v60 (F := F) x10) (pre_v61 (F := F) x6)
def pre_v63 (x11 : Arr F S325) : Arr F S1x325 :=
  (broadcastInDim S1x325 ![1] bcast_S325_S1x325_1 : (⟨S325, .f32⟩ : BufTy).Contents (Elt F) → (⟨S1x325, .f32⟩ : BufTy).Contents (Elt F)) (pre_v56 (F := F) x11)
def pre_v64 (x12 : Arr F S325) : Arr F S1x325 :=
  (broadcastInDim S1x325 ![1] bcast_S325_S1x325_1 : (⟨S325, .f32⟩ : BufTy).Contents (Elt F) → (⟨S1x325, .f32⟩ : BufTy).Contents (Elt F)) x12
def pre_v65 (x13 : Arr F S325) : Arr F S1x325 :=
  (broadcastInDim S1x325 ![1] bcast_S325_S1x325_1 : (⟨S325, .f32⟩ : BufTy).Contents (Elt F) → (⟨S1x325, .f32⟩ : BufTy).Contents (Elt F)) x13
def pre_v66 (x14 : Arr F S325x53) (x15 : Arr F S325x53) : Arr F S1x325 :=
  (broadcastInDim S1x325 ![1] bcast_S325_S1x325_1 : (⟨S325, .f32⟩ : BufTy).Contents (Elt F) → (⟨S1x325, .f32⟩ : BufTy).Contents (Elt F)) (pre_v58 (F := F) x14 x15)
def pre_v67 (x11 : Arr F S325) (x12 : Arr F S325) (x13 : Arr F S325) (x14 : Arr F S325x53) (x15 : Arr F S325x53) : Arr F S4x325 :=
  concatenate S4x325 0 [⟨S1x325, (pre_v63 (F := F) x11)⟩, ⟨S1x325, (pre_v64 (F := F) x12)⟩, ⟨S1x325, (pre_v65 (F := F) x13)⟩, ⟨S1x325, (pre_v66 (F := F) x14 x15)⟩] concatenates_S1x325_S1x325_S1x325_S1x325_S4x325_d0
def pre_v68 (x4 : Arr F S_) : Arr F S1 :=
  (broadcastInDim S1 ![] bcast_S_S1 : (⟨S_, .f32⟩ : BufTy).Contents (Elt F) → (⟨S1, .f32⟩ : BufTy).Contents (Elt F)) x4
def pre_v69 (x0 : Arr F S_) (x7 : Arr F S2) : Arr F S1 :=
  (broadcastInDim S1 ![] bcast_S_S1 : (⟨S_, .f32⟩ : BufTy).Contents (Elt F) → (⟨S1, .f32⟩ : BufTy).Contents (Elt F)) (pre_v5 (F := F) x0 x7)
def pre_v70 (x0 : Arr F S_) (x8 : Arr F S2) : Arr F S1 :=
  (broadcastInDim S1 ![] bcast_S_S1 : (⟨S_, .f32⟩ : BufTy).Contents (Elt F) → (⟨S1, .f32⟩ : BufTy).Contents (Elt F)) (pre_v11 (F := F) x0 x8)
def pre_v71 (x5 : Arr F S_) (x6 : Arr F S53) (x9 : Arr F S53x7) (x10 : Arr F S53) : Arr F S1 :=
  (broadcastInDim S1 ![] bcast_S_S1 : (⟨S_, .f32⟩ : BufTy).Contents (Elt F) → (⟨S1, .f32⟩ : BufTy).Contents (Elt F)) (pre_v55 (F := F) x5 x6 x9 x10)
def pre_v72 (x0 : Arr F S_) (x4 : Arr F S_) (x5 : Arr F S_) (x6 : Arr F S53) (x7 : Arr F S2) (x8 : Arr F S2) (x9 : Arr F S53x7) (x10 : Arr F S53) : Arr F S4 :=
  concatenate S4 0 [⟨S1, (pre_v68 (F := F) x4)⟩, ⟨S1, (pre_v69 (F := F) x0 x7)⟩, ⟨S1, (pre_v70 (F := F) x0 x8)⟩, ⟨S1, (pre_v71 (F := F) x5 x6 x9 x10)⟩] concatenates_S1_S1_S1_S1_S4_d0
def pre_v73 (x0 : Arr F S_) (x4 : Arr F S_) (x5 : Arr F S_) (x6 : Arr F S53) (x7 : Arr F S2) (x8 : Arr F S2) (x9 : Arr F S53x7) (x10 : Arr F S53) : Arr F S1x4 :=
  shapeCast S1x4 (pre_v72 (F := F) x0 x4 x5 x6 x7 x8 x9 x10) shapeCasts_S4_S1x4

end Prefix

variable (m : (ℓ : Loc nD τ sig) → Buf (Elt Ideal) ℓ) (ρ : Dev nD → PrngReg)

/-! ## The tables the region finds: the host prefix's values of the argument arrays -/

set_option maxHeartbeats 4000000 in
theorem V_v57 (c : Dev nD) : (V m c main_v57 : Arr Ideal S325x53) = pre_v57 (F := Ideal) (m ((c : Thread nD τ).loc main_arg14)) (m ((c : Thread nD τ).loc main_arg15)) := by
  dsimp only [V]
  simp only [hostOps0, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary4_result', StableHlo.nullary_result_ne', StableHlo.unary_result_ne', StableHlo.binary_result_ne', StableHlo.reshape_result_ne', StableHlo.nary_result_ne']
  rfl

set_option maxHeartbeats 4000000 in
theorem V_v59 (c : Dev nD) : (V m c main_v59 : Arr Ideal S7x53) = pre_v59 (F := Ideal) (m ((c : Thread nD τ).loc main_arg9)) := by
  dsimp only [V]
  simp only [hostOps0, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary4_result', StableHlo.nullary_result_ne', StableHlo.unary_result_ne', StableHlo.binary_result_ne', StableHlo.reshape_result_ne', StableHlo.nary_result_ne']
  rfl

set_option maxHeartbeats 4000000 in
theorem V_v62 (c : Dev nD) : (V m c main_v62 : Arr Ideal S2x53) = pre_v62 (F := Ideal) (m ((c : Thread nD τ).loc main_arg6)) (m ((c : Thread nD τ).loc main_arg10)) := by
  dsimp only [V]
  simp only [hostOps0, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary4_result', StableHlo.nullary_result_ne', StableHlo.unary_result_ne', StableHlo.binary_result_ne', StableHlo.reshape_result_ne', StableHlo.nary_result_ne']
  rfl

set_option maxHeartbeats 4000000 in
theorem V_v67 (c : Dev nD) : (V m c main_v67 : Arr Ideal S4x325) = pre_v67 (F := Ideal) (m ((c : Thread nD τ).loc main_arg11)) (m ((c : Thread nD τ).loc main_arg12)) (m ((c : Thread nD τ).loc main_arg13)) (m ((c : Thread nD τ).loc main_arg14)) (m ((c : Thread nD τ).loc main_arg15)) := by
  dsimp only [V]
  simp only [hostOps0, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary4_result', StableHlo.nullary_result_ne', StableHlo.unary_result_ne', StableHlo.binary_result_ne', StableHlo.reshape_result_ne', StableHlo.nary_result_ne']
  rfl

set_option maxHeartbeats 4000000 in
theorem V_v73 (c : Dev nD) : (V m c main_v73 : Arr Ideal S1x4) = pre_v73 (F := Ideal) (m ((c : Thread nD τ).loc main_arg0)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  dsimp only [V]
  simp only [hostOps0, List.flatten_cons, List.flatten_nil, List.append_nil, List.cons_append, List.nil_append]
  simp (disch := decide) only [StableHlo.after_cons, StableHlo.after_nil, StableHlo.nullary_result', StableHlo.unary_result', StableHlo.binary_result', StableHlo.reshape_result', StableHlo.nary4_result', StableHlo.nullary_result_ne', StableHlo.unary_result_ne', StableHlo.binary_result_ne', StableHlo.reshape_result_ne', StableHlo.nary_result_ne']
  rfl

/-! ## Layout operations of the prefix's small shapes, read at an index -/

section Layout
variable {α : Type}

/-- Column `k` of an [n, 7] table, as an [n, 1] column, at row `s`. -/
theorem slice_col_apply {n : Nat} (k : Nat) (hk : k < 7) (h : (⟨2, ![n, 7]⟩ : Shape).Slices ![0, k] ⟨2, ![n, 1]⟩)
    (x : (⟨2, ![n, 7]⟩ : Shape).Idx → α) (s : Fin n) (z : Fin 1) :
    extractStridedSlice ⟨2, ![n, 1]⟩ ![0, k] x h (ix2 s z) = x (ix2 s (⟨k, hk⟩ : Fin 7)) :=
  extractStridedSlice_apply ![0, k] x h (ix2 s z) (ix2 s (⟨k, hk⟩ : Fin 7)) (fun a => match a with
    | ⟨0, _⟩ => by show s.val = 0 + s.val; omega
    | ⟨1, _⟩ => by show k = k + z.val; have := z.isLt; omega)

/-- An [n, 1] column read as the vector of length n. -/
theorem cast_col_vec_apply {n : Nat} (h : (⟨2, ![n, 1]⟩ : Shape).ShapeCasts ⟨1, ![n]⟩)
    (y : (⟨2, ![n, 1]⟩ : Shape).Idx → α) (s : Fin n) :
    shapeCast ⟨1, ![n]⟩ y h (ix1 s) = y (ix2 s (0 : Fin 1)) :=
  shapeCast_apply y h (ix1 s) (ix2 s (0 : Fin 1))
    (by rw [Shape.rowMajor_val_two, Shape.rowMajor_val_one]; show s.val * 1 + 0 = s.val; omega)

/-- Entry `k` of a pair, as a vector of length one. -/
theorem slice_pair_apply (k : Nat) (hk : k < 2) (h : (⟨1, ![2]⟩ : Shape).Slices ![k] ⟨1, ![1]⟩)
    (x : (⟨1, ![2]⟩ : Shape).Idx → α) (z : Fin 1) :
    extractStridedSlice ⟨1, ![1]⟩ ![k] x h (ix1 z) = x (ix1 (⟨k, hk⟩ : Fin 2)) :=
  extractStridedSlice_apply ![k] x h (ix1 z) (ix1 (⟨k, hk⟩ : Fin 2)) (fun a => match a with
    | ⟨0, _⟩ => by show k = k + z.val; have := z.isLt; omega)

/-- A vector of length one read as a scalar. -/
theorem cast_one_scalar_apply (h : (⟨1, ![1]⟩ : Shape).ShapeCasts ⟨0, ![]⟩)
    (y : (⟨1, ![1]⟩ : Shape).Idx → α) (j : (⟨0, ![]⟩ : Shape).Idx) :
    shapeCast ⟨0, ![]⟩ y h j = y (ix1 (0 : Fin 1)) :=
  shapeCast_apply y h j (ix1 (0 : Fin 1))
    (by have h1 := ((⟨1, ![1]⟩ : Shape).rowMajor (ix1 (0 : Fin 1))).isLt
        have h0 := ((⟨0, ![]⟩ : Shape).rowMajor j).isLt
        have e1 : (⟨1, ![1]⟩ : Shape).numel = 1 := by decide
        have e0 : (⟨0, ![]⟩ : Shape).numel = 1 := by decide
        omega)

/-- A vector of length n as the row of a [1, n] matrix. -/
theorem bcast_row_apply {n : Nat} (hn : n ≠ 1) (h : (⟨1, ![n]⟩ : Shape).BroadcastsInDim ⟨2, ![1, n]⟩ (![1] : Fin 1 → Fin 2))
    (y : (⟨1, ![n]⟩ : Shape).Idx → α) (z : Fin 1) (s : Fin n) :
    broadcastInDim ⟨2, ![1, n]⟩ ![1] h y (ix2 z s) = y (ix1 s) :=
  broadcastInDim_apply _ h y (ix2 z s) (ix1 s) (fun a => match a with
    | ⟨0, _⟩ => by show s.val = if n = 1 then 0 else s.val; rw [if_neg hn])

/-- Two rows stacked, at row 0 and at row 1. -/
theorem rows2_apply_0 (a b : S1x53.Idx → α) (s : Fin 53) :
    concatenate S2x53 0 [⟨S1x53, a⟩, ⟨S1x53, b⟩] concatenates_S1x53_S1x53_S2x53_d0 (ix2 (0 : Fin 2) s) = a (ix2 (0 : Fin 1) s) :=
  concatenate_apply_piece (t := S2x53) (0 : Fin 2) [⟨S1x53, a⟩, ⟨S1x53, b⟩] concatenates_S1x53_S1x53_S2x53_d0 (ix2 (0 : Fin 2) s) 0 (by simp) S1x53 a rfl rfl 0 rfl
    (ix2 (0 : Fin 1) s) (fun bb hb => by match bb with | ⟨0, _⟩ => exact absurd rfl hb | ⟨1, _⟩ => rfl) rfl
theorem rows2_apply_1 (a b : S1x53.Idx → α) (s : Fin 53) :
    concatenate S2x53 0 [⟨S1x53, a⟩, ⟨S1x53, b⟩] concatenates_S1x53_S1x53_S2x53_d0 (ix2 (1 : Fin 2) s) = b (ix2 (0 : Fin 1) s) :=
  concatenate_apply_piece (t := S2x53) (0 : Fin 2) [⟨S1x53, a⟩, ⟨S1x53, b⟩] concatenates_S1x53_S1x53_S2x53_d0 (ix2 (1 : Fin 2) s) 1 (by simp) S1x53 b rfl rfl 1 rfl
    (ix2 (0 : Fin 1) s) (fun bb hb => by match bb with | ⟨0, _⟩ => exact absurd rfl hb | ⟨1, _⟩ => rfl) rfl

/-- Four rows stacked, at row 0. -/
theorem rows4_apply_0 (a0 a1 a2 a3 : S1x325.Idx → α) (r : Fin 325) :
    concatenate S4x325 0 [⟨S1x325, a0⟩, ⟨S1x325, a1⟩, ⟨S1x325, a2⟩, ⟨S1x325, a3⟩] concatenates_S1x325_S1x325_S1x325_S1x325_S4x325_d0 (ix2 (0 : Fin 4) r)
      = a0 (ix2 (0 : Fin 1) r) :=
  concatenate_apply_piece (t := S4x325) (0 : Fin 2) [⟨S1x325, a0⟩, ⟨S1x325, a1⟩, ⟨S1x325, a2⟩, ⟨S1x325, a3⟩] concatenates_S1x325_S1x325_S1x325_S1x325_S4x325_d0 (ix2 (0 : Fin 4) r) 0 (by simp) S1x325 a0 rfl rfl 0 rfl
    (ix2 (0 : Fin 1) r) (fun bb hb => by match bb with | ⟨0, _⟩ => exact absurd rfl hb | ⟨1, _⟩ => rfl) rfl

/-- Four rows stacked, at row 1. -/
theorem rows4_apply_1 (a0 a1 a2 a3 : S1x325.Idx → α) (r : Fin 325) :
    concatenate S4x325 0 [⟨S1x325, a0⟩, ⟨S1x325, a1⟩, ⟨S1x325, a2⟩, ⟨S1x325, a3⟩] concatenates_S1x325_S1x325_S1x325_S1x325_S4x325_d0 (ix2 (1 : Fin 4) r)
      = a1 (ix2 (0 : Fin 1) r) :=
  concatenate_apply_piece (t := S4x325) (0 : Fin 2) [⟨S1x325, a0⟩, ⟨S1x325, a1⟩, ⟨S1x325, a2⟩, ⟨S1x325, a3⟩] concatenates_S1x325_S1x325_S1x325_S1x325_S4x325_d0 (ix2 (1 : Fin 4) r) 1 (by simp) S1x325 a1 rfl rfl 1 rfl
    (ix2 (0 : Fin 1) r) (fun bb hb => by match bb with | ⟨0, _⟩ => exact absurd rfl hb | ⟨1, _⟩ => rfl) rfl

/-- Four rows stacked, at row 2. -/
theorem rows4_apply_2 (a0 a1 a2 a3 : S1x325.Idx → α) (r : Fin 325) :
    concatenate S4x325 0 [⟨S1x325, a0⟩, ⟨S1x325, a1⟩, ⟨S1x325, a2⟩, ⟨S1x325, a3⟩] concatenates_S1x325_S1x325_S1x325_S1x325_S4x325_d0 (ix2 (2 : Fin 4) r)
      = a2 (ix2 (0 : Fin 1) r) :=
  concatenate_apply_piece (t := S4x325) (0 : Fin 2) [⟨S1x325, a0⟩, ⟨S1x325, a1⟩, ⟨S1x325, a2⟩, ⟨S1x325, a3⟩] concatenates_S1x325_S1x325_S1x325_S1x325_S4x325_d0 (ix2 (2 : Fin 4) r) 2 (by simp) S1x325 a2 rfl rfl 2 rfl
    (ix2 (0 : Fin 1) r) (fun bb hb => by match bb with | ⟨0, _⟩ => exact absurd rfl hb | ⟨1, _⟩ => rfl) rfl

/-- Four rows stacked, at row 3. -/
theorem rows4_apply_3 (a0 a1 a2 a3 : S1x325.Idx → α) (r : Fin 325) :
    concatenate S4x325 0 [⟨S1x325, a0⟩, ⟨S1x325, a1⟩, ⟨S1x325, a2⟩, ⟨S1x325, a3⟩] concatenates_S1x325_S1x325_S1x325_S1x325_S4x325_d0 (ix2 (3 : Fin 4) r)
      = a3 (ix2 (0 : Fin 1) r) :=
  concatenate_apply_piece (t := S4x325) (0 : Fin 2) [⟨S1x325, a0⟩, ⟨S1x325, a1⟩, ⟨S1x325, a2⟩, ⟨S1x325, a3⟩] concatenates_S1x325_S1x325_S1x325_S1x325_S4x325_d0 (ix2 (3 : Fin 4) r) 3 (by simp) S1x325 a3 rfl rfl 3 rfl
    (ix2 (0 : Fin 1) r) (fun bb hb => by match bb with | ⟨0, _⟩ => exact absurd rfl hb | ⟨1, _⟩ => rfl) rfl

/-- Four vectors of length one joined, at entry 0. -/
theorem join4_apply_0 (a0 a1 a2 a3 : S1.Idx → α) :
    concatenate S4 0 [⟨S1, a0⟩, ⟨S1, a1⟩, ⟨S1, a2⟩, ⟨S1, a3⟩] concatenates_S1_S1_S1_S1_S4_d0 (ix1 (0 : Fin 4)) = a0 (ix1 (0 : Fin 1)) :=
  concatenate_apply_piece (t := S4) (0 : Fin 1) [⟨S1, a0⟩, ⟨S1, a1⟩, ⟨S1, a2⟩, ⟨S1, a3⟩] concatenates_S1_S1_S1_S1_S4_d0 (ix1 (0 : Fin 4)) 0 (by simp) S1 a0 rfl rfl 0 rfl
    (ix1 (0 : Fin 1)) (fun bb hb => by match bb with | ⟨0, _⟩ => exact absurd rfl hb) rfl

/-- Four vectors of length one joined, at entry 1. -/
theorem join4_apply_1 (a0 a1 a2 a3 : S1.Idx → α) :
    concatenate S4 0 [⟨S1, a0⟩, ⟨S1, a1⟩, ⟨S1, a2⟩, ⟨S1, a3⟩] concatenates_S1_S1_S1_S1_S4_d0 (ix1 (1 : Fin 4)) = a1 (ix1 (0 : Fin 1)) :=
  concatenate_apply_piece (t := S4) (0 : Fin 1) [⟨S1, a0⟩, ⟨S1, a1⟩, ⟨S1, a2⟩, ⟨S1, a3⟩] concatenates_S1_S1_S1_S1_S4_d0 (ix1 (1 : Fin 4)) 1 (by simp) S1 a1 rfl rfl 1 rfl
    (ix1 (0 : Fin 1)) (fun bb hb => by match bb with | ⟨0, _⟩ => exact absurd rfl hb) rfl

/-- Four vectors of length one joined, at entry 2. -/
theorem join4_apply_2 (a0 a1 a2 a3 : S1.Idx → α) :
    concatenate S4 0 [⟨S1, a0⟩, ⟨S1, a1⟩, ⟨S1, a2⟩, ⟨S1, a3⟩] concatenates_S1_S1_S1_S1_S4_d0 (ix1 (2 : Fin 4)) = a2 (ix1 (0 : Fin 1)) :=
  concatenate_apply_piece (t := S4) (0 : Fin 1) [⟨S1, a0⟩, ⟨S1, a1⟩, ⟨S1, a2⟩, ⟨S1, a3⟩] concatenates_S1_S1_S1_S1_S4_d0 (ix1 (2 : Fin 4)) 2 (by simp) S1 a2 rfl rfl 2 rfl
    (ix1 (0 : Fin 1)) (fun bb hb => by match bb with | ⟨0, _⟩ => exact absurd rfl hb) rfl

/-- Four vectors of length one joined, at entry 3. -/
theorem join4_apply_3 (a0 a1 a2 a3 : S1.Idx → α) :
    concatenate S4 0 [⟨S1, a0⟩, ⟨S1, a1⟩, ⟨S1, a2⟩, ⟨S1, a3⟩] concatenates_S1_S1_S1_S1_S4_d0 (ix1 (3 : Fin 4)) = a3 (ix1 (0 : Fin 1)) :=
  concatenate_apply_piece (t := S4) (0 : Fin 1) [⟨S1, a0⟩, ⟨S1, a1⟩, ⟨S1, a2⟩, ⟨S1, a3⟩] concatenates_S1_S1_S1_S1_S4_d0 (ix1 (3 : Fin 4)) 3 (by simp) S1 a3 rfl rfl 3 rfl
    (ix1 (0 : Fin 1)) (fun bb hb => by match bb with | ⟨0, _⟩ => exact absurd rfl hb) rfl

end Layout

/-- The host's sum over the second axis of a [325, 53] table, from an initial scalar. -/
theorem sum_rows_apply (x : FVec Ideal S325x53 .f32) (v : S_.Idx → Ideal .f32) (r : Fin 325) :
    Host.reduceAdd x v reducesTo_S325x53_S325_d1 h_S_ (ix1 r) = v ix0 + ∑ s : Fin 53, x (ix2 r s) := by
  rw [hostReduceAdd_apply, Ideal.hostReduceAdd_single reducesTo_S325x53_S325_d1 (by decide)]
  refine congrArg₂ (· + ·) (congrArg v (eq_ix0 _)) (Finset.sum_congr rfl fun k _ => congrArg x ?_)
  exact funext fun a => Fin.ext (by match a with | ⟨0, _⟩ => rfl | ⟨1, _⟩ => rfl)

/-- A sum over the indices of a vector is the sum over its one coordinate. -/
theorem sum_idx1 {M : Type*} [AddCommMonoid M] {n : Nat} (f : (⟨1, ![n]⟩ : Shape).Idx → M) :
    ∑ i, f i = ∑ k : Fin n, f (ix1 k) :=
  Fintype.sum_equiv ⟨fun i => i 0, fun k => ix1 k, fun i => (eq_ix1 i).symm, fun _ => rfl⟩ _ _
    (fun i => congrArg f (eq_ix1 i))

/-- The host's sum of a vector of length 53, from an initial scalar. -/
theorem sum_vec_apply (x : FVec Ideal S53 .f32) (v : S_.Idx → Ideal .f32) (j : S_.Idx) :
    Host.reduceAdd x v reducesTo_S53_S_d0 h_S_ j = v ix0 + ∑ s : Fin 53, x (ix1 s) := by
  rw [hostReduceAdd_apply, Ideal.hostReduceAdd_total reducesTo_S53_S_d0 (fun b => b.elim0)]
  exact congrArg₂ (· + ·) (congrArg v (eq_ix0 _)) (sum_idx1 x)

theorem hlog_apply {s : Shape} (a : FVec Ideal s .f32) (i : s.Idx) : Host.log a i = Ideal.log (a i) := rfl

/-- A scalar spread over a vector of length 53, or over a vector of length one. -/
theorem bS53 {α : Type} (y : S_.Idx → α) (j : S53.Idx) : broadcastInDim S53 ![] bcast_S_S53 y j = y ix0 :=
  broadcastInDim_scalar_apply bcast_S_S53 y j
theorem bS1 {α : Type} (y : S_.Idx → α) (j : S1.Idx) : broadcastInDim S1 ![] bcast_S_S1 y j = y ix0 :=
  broadcastInDim_scalar_apply bcast_S_S1 y j

/-! ## The prefix's tables read at an index, on the extended reals -/

section Reads

variable (x0 x4 x5 : Arr Ideal S_) (x6 : Arr Ideal S53) (x7 x8 : Arr Ideal S2) (x9 : Arr Ideal S53x7) (x10 : Arr Ideal S53)
  (x11 x12 x13 : Arr Ideal S325) (x14 x15 : Arr Ideal S325x53)

/-- The NASA table transposed: row `i` holds coefficient `i` of every species. -/
theorem pre_v59_apply (i : Fin 7) (s : Fin 53) : pre_v59 (F := Ideal) x9 (ix2 i s) = x9 (ix2 s i) := by
  unfold pre_v59
  exact transpose_ix2_apply x9 transposes_S53x7_S7x53_1_0 i s

/-- The two rows of the second table: molar masses, inlet mass fractions. -/
theorem pre_v62_row0 (s : Fin 53) : pre_v62 (F := Ideal) x6 x10 (ix2 (0 : Fin 2) s) = x10 (ix1 s) := by
  unfold pre_v62 pre_v60
  exact (rows2_apply_0 _ _ s).trans (bcast_row_apply (by decide) bcast_S53_S1x53_1 x10 0 s)
theorem pre_v62_row1 (s : Fin 53) : pre_v62 (F := Ideal) x6 x10 (ix2 (1 : Fin 2) s) = x6 (ix1 s) := by
  unfold pre_v62 pre_v61
  exact (rows2_apply_1 _ _ s).trans (bcast_row_apply (by decide) bcast_S53_S1x53_1 x6 0 s)

/-- The net stoichiometric coefficients, and their sums over the species. -/
theorem pre_v57_apply (r : Fin 325) (s : Fin 53) : pre_v57 (F := Ideal) x14 x15 (ix2 r s) = x15 (ix2 r s) - x14 (ix2 r s) := rfl
theorem pre_v58_apply (r : Fin 325) : pre_v58 (F := Ideal) x14 x15 (ix1 r) = ∑ s : Fin 53, (x15 (ix2 r s) - x14 (ix2 r s)) := by
  unfold pre_v58 pre_cst_5
  refine (sum_rows_apply _ _ r).trans ?_
  rw [constant_apply, Ideal.ofBits_zero_f32, zero_add]
  exact Finset.sum_congr rfl fun s _ => pre_v57_apply x14 x15 r s

/-- The four rows of the third table: log A, b, Ea, the net-coefficient sums. -/
theorem pre_v67_row0 (r : Fin 325) : pre_v67 (F := Ideal) x11 x12 x13 x14 x15 (ix2 (0 : Fin 4) r) = Ideal.log (x11 (ix1 r)) := by
  unfold pre_v67 pre_v63 pre_v56
  exact (rows4_apply_0 _ _ _ _ r).trans ((bcast_row_apply (by decide) bcast_S325_S1x325_1 _ 0 r).trans (hlog_apply x11 (ix1 r)))
theorem pre_v67_row1 (r : Fin 325) : pre_v67 (F := Ideal) x11 x12 x13 x14 x15 (ix2 (1 : Fin 4) r) = x12 (ix1 r) := by
  unfold pre_v67 pre_v64
  exact (rows4_apply_1 _ _ _ _ r).trans (bcast_row_apply (by decide) bcast_S325_S1x325_1 x12 0 r)
theorem pre_v67_row2 (r : Fin 325) : pre_v67 (F := Ideal) x11 x12 x13 x14 x15 (ix2 (2 : Fin 4) r) = x13 (ix1 r) := by
  unfold pre_v67 pre_v65
  exact (rows4_apply_2 _ _ _ _ r).trans (bcast_row_apply (by decide) bcast_S325_S1x325_1 x13 0 r)
theorem pre_v67_row3 (r : Fin 325) : pre_v67 (F := Ideal) x11 x12 x13 x14 x15 (ix2 (3 : Fin 4) r)
    = ∑ s : Fin 53, (x15 (ix2 r s) - x14 (ix2 r s)) := by
  unfold pre_v67 pre_v66
  exact (rows4_apply_3 _ _ _ _ r).trans ((bcast_row_apply (by decide) bcast_S325_S1x325_1 _ 0 r).trans (pre_v58_apply x14 x15 r))

/-- A mass flow: the pair's first entry plus its second times the time. -/
theorem pre_v5_apply (j : S_.Idx) : pre_v5 (F := Ideal) x0 x7 j = x7 (ix1 (0 : Fin 2)) + x7 (ix1 (1 : Fin 2)) * x0 ix0 := by
  unfold pre_v5 pre_v4 pre_v3 pre_v2 pre_v1 pre_v0
  rw [addf_apply, mulf_apply, cast_one_scalar_apply, cast_one_scalar_apply, eq_ix0 j]
  exact congrArg₂ (· + ·) (slice_pair_apply 0 (by decide) slices_S2_S1_0 x7 0)
    (congrArg (· * x0 ix0) (slice_pair_apply 1 (by decide) slices_S2_S1_1 x7 0))
theorem pre_v11_apply (j : S_.Idx) : pre_v11 (F := Ideal) x0 x8 j = x8 (ix1 (0 : Fin 2)) + x8 (ix1 (1 : Fin 2)) * x0 ix0 := by
  unfold pre_v11 pre_v10 pre_v9 pre_v8 pre_v7 pre_v6
  rw [addf_apply, mulf_apply, cast_one_scalar_apply, cast_one_scalar_apply, eq_ix0 j]
  exact congrArg₂ (· + ·) (slice_pair_apply 0 (by decide) slices_S2_S1_0 x8 0)
    (congrArg (· * x0 ix0) (slice_pair_apply 1 (by decide) slices_S2_S1_1 x8 0))

theorem pre_v13_apply (s : Fin 53) : pre_v13 (F := Ideal) x9 (ix1 s) = x9 (ix2 s (0 : Fin 7)) := by
  unfold pre_v13 pre_v12
  exact (cast_col_vec_apply shapeCasts_S53x1_S53 _ s).trans (slice_col_apply 0 (by decide) slices_S53x7_S53x1_0_0 x9 s 0)

theorem pre_v15_apply (s : Fin 53) : pre_v15 (F := Ideal) x9 (ix1 s) = x9 (ix2 s (1 : Fin 7)) := by
  unfold pre_v15 pre_v14
  exact (cast_col_vec_apply shapeCasts_S53x1_S53 _ s).trans (slice_col_apply 1 (by decide) slices_S53x7_S53x1_0_1 x9 s 0)

theorem pre_v17_apply (s : Fin 53) : pre_v17 (F := Ideal) x9 (ix1 s) = x9 (ix2 s (2 : Fin 7)) := by
  unfold pre_v17 pre_v16
  exact (cast_col_vec_apply shapeCasts_S53x1_S53 _ s).trans (slice_col_apply 2 (by decide) slices_S53x7_S53x1_0_2 x9 s 0)

theorem pre_v19_apply (s : Fin 53) : pre_v19 (F := Ideal) x9 (ix1 s) = x9 (ix2 s (3 : Fin 7)) := by
  unfold pre_v19 pre_v18
  exact (cast_col_vec_apply shapeCasts_S53x1_S53 _ s).trans (slice_col_apply 3 (by decide) slices_S53x7_S53x1_0_3 x9 s 0)

theorem pre_v21_apply (s : Fin 53) : pre_v21 (F := Ideal) x9 (ix1 s) = x9 (ix2 s (4 : Fin 7)) := by
  unfold pre_v21 pre_v20
  exact (cast_col_vec_apply shapeCasts_S53x1_S53 _ s).trans (slice_col_apply 4 (by decide) slices_S53x7_S53x1_0_4 x9 s 0)

theorem pre_v23_apply (s : Fin 53) : pre_v23 (F := Ideal) x9 (ix1 s) = x9 (ix2 s (5 : Fin 7)) := by
  unfold pre_v23 pre_v22
  exact (cast_col_vec_apply shapeCasts_S53x1_S53 _ s).trans (slice_col_apply 5 (by decide) slices_S53x7_S53x1_0_5 x9 s 0)

theorem pre_v25_apply (s : Fin 53) : pre_v25 (F := Ideal) x9 (ix1 s) = x9 (ix2 s (6 : Fin 7)) := by
  unfold pre_v25 pre_v24
  exact (cast_col_vec_apply shapeCasts_S53x1_S53 _ s).trans (slice_col_apply 6 (by decide) slices_S53x7_S53x1_0_6 x9 s 0)

/-- The NASA enthalpy polynomial h/(RT) of species `s` at the inlet temperature, in the host's operation order. -/
theorem pre_v48_apply (s : Fin 53) : pre_v48 (F := Ideal) x5 x9 (ix1 s)
    = x9 (ix2 s 0) + x5 ix0 * (Ideal.div (x9 (ix2 s 1)) c2 + x5 ix0 * (Ideal.div (x9 (ix2 s 2)) c3
        + x5 ix0 * (Ideal.div (x9 (ix2 s 3)) c4 + Ideal.div (x5 ix0 * x9 (ix2 s 4)) c5))) + Ideal.div (x9 (ix2 s 5)) (x5 ix0) := by
  simp only [pre_v48, pre_v47, pre_v46, pre_v45, pre_v44, pre_v43, pre_v42, pre_v41, pre_v40, pre_v39, pre_v38, pre_v37,
    pre_v36, pre_v35, pre_v34, pre_v33, pre_v32, pre_v31, pre_v30, pre_v29, pre_v28, pre_v27, pre_v26, pre_cst, pre_cst_0,
    pre_cst_1, pre_cst_2, addf_apply, mulf_apply, hostDivf_apply,
    pre_v13_apply, pre_v15_apply, pre_v17_apply, pre_v19_apply, pre_v21_apply, pre_v23_apply]
  repeat rw [bS53]
  simp only [constant_apply]

/-- The inlet's specific enthalpy: the sum over the species. -/
theorem pre_v55_apply (j : S_.Idx) : pre_v55 (F := Ideal) x5 x6 x9 x10 j
    = ∑ s : Fin 53, Ideal.div (((x6 (ix1 s) * pre_v48 (F := Ideal) x5 x9 (ix1 s)) * Rg) * x5 ix0) (x10 (ix1 s)) := by
  unfold pre_v55 pre_cst_4
  refine (sum_vec_apply _ _ j).trans ?_
  rw [constant_apply, Ideal.ofBits_zero_f32, zero_add]
  refine Finset.sum_congr rfl fun s _ => ?_
  simp only [pre_v54, pre_v53, pre_v52, pre_v51, pre_v50, pre_v49, pre_cst_3, mulf_apply, hostDivf_apply]
  repeat rw [bS53]
  simp only [constant_apply]

/-- The row of four scalars: pressure, the two mass flows, the inlet's specific enthalpy. -/
theorem pre_v73_apply_0 : pre_v73 (F := Ideal) x0 x4 x5 x6 x7 x8 x9 x10 (ix2 (0 : Fin 1) (0 : Fin 4)) = x4 ix0 := by
  unfold pre_v73 pre_v72 pre_v68
  exact (shapeCast_a_1a_apply _ shapeCasts_S4_S1x4 0 0).trans
    ((join4_apply_0 _ _ _ _).trans (bS1 x4 _))
theorem pre_v73_apply_1 : pre_v73 (F := Ideal) x0 x4 x5 x6 x7 x8 x9 x10 (ix2 (0 : Fin 1) (1 : Fin 4))
    = x7 (ix1 (0 : Fin 2)) + x7 (ix1 (1 : Fin 2)) * x0 ix0 := by
  unfold pre_v73 pre_v72 pre_v69
  exact (shapeCast_a_1a_apply _ shapeCasts_S4_S1x4 0 1).trans
    ((join4_apply_1 _ _ _ _).trans ((bS1 _ _).trans (pre_v5_apply x0 x7 _)))
theorem pre_v73_apply_2 : pre_v73 (F := Ideal) x0 x4 x5 x6 x7 x8 x9 x10 (ix2 (0 : Fin 1) (2 : Fin 4))
    = x8 (ix1 (0 : Fin 2)) + x8 (ix1 (1 : Fin 2)) * x0 ix0 := by
  unfold pre_v73 pre_v72 pre_v70
  exact (shapeCast_a_1a_apply _ shapeCasts_S4_S1x4 0 2).trans
    ((join4_apply_2 _ _ _ _).trans ((bS1 _ _).trans (pre_v11_apply x0 x8 _)))
theorem pre_v73_apply_3 : pre_v73 (F := Ideal) x0 x4 x5 x6 x7 x8 x9 x10 (ix2 (0 : Fin 1) (3 : Fin 4))
    = ∑ s : Fin 53, Ideal.div (((x6 (ix1 s) * pre_v48 (F := Ideal) x5 x9 (ix1 s)) * Rg) * x5 ix0) (x10 (ix1 s)) := by
  unfold pre_v73 pre_v72 pre_v71
  exact (shapeCast_a_1a_apply _ shapeCasts_S4_S1x4 0 3).trans
    ((join4_apply_3 _ _ _ _).trans ((bS1 _ _).trans (pre_v55_apply x5 x6 x9 x10 _)))

end Reads

/-! ## The blocks the region reads

The three batch windows are at block `t` at grid point `t`; the seven tables' windows are the whole tables. -/

/-- The printed index maps, decided over the 64 grid points. -/
theorem idx_facts : ∀ t : Fin cfg0.N,
    win0_0.index t (0 : Fin 1) = t.val
    ∧ win0_1.index t (0 : Fin 2) = t.val
    ∧ win0_1.index t (1 : Fin 2) = 0
    ∧ win0_2.index t (0 : Fin 1) = t.val
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- Window 0's block at point `t`, entry by entry. -/
theorem iblk0_apply (c : Dev nD) (t : Fin cfg0.N) (p : Fin 1024) :
    (iblk m c 0 t : Vec Ideal S1024 .f32) (ix1 p) = (m ((c : Thread nD τ).loc main_arg1) : Arr Ideal S65536) (ix1 (rowOf t p)) := by
  have h0 : win0_0.index t (0 : Fin 1) = t.val := (idx_facts t).1
  unfold iblk
  rw [View.read_apply]
  show V m c main_arg1 _ = _
  rw [V_main_arg1 m c]
  congr 1
  funext a
  apply Fin.ext
  match a with
  | ⟨0, _⟩ => show win0_0.index t (0 : Fin 1) * 1024 + 1 * p.val = t.val * 1024 + p.val; rw [h0]; omega

/-- Window 1's block at point `t`, entry by entry. -/
theorem iblk1_apply (c : Dev nD) (t : Fin cfg0.N) (p : Fin 1024) (q : Fin 53) :
    (iblk m c 1 t : Vec Ideal S1024x53 .f32) (ix2 p q) = (m ((c : Thread nD τ).loc main_arg2) : Arr Ideal S65536x53) (ix2 (rowOf t p) q) := by
  have h0 : win0_1.index t (0 : Fin 2) = t.val := (idx_facts t).2.1
  have h1 : win0_1.index t (1 : Fin 2) = 0 := (idx_facts t).2.2.1
  unfold iblk
  rw [View.read_apply]
  show V m c main_arg2 _ = _
  rw [V_main_arg2 m c]
  congr 1
  funext a
  apply Fin.ext
  match a with
  | ⟨0, _⟩ => show win0_1.index t (0 : Fin 2) * 1024 + 1 * p.val = t.val * 1024 + p.val; rw [h0]; omega
  | ⟨1, _⟩ => show win0_1.index t (1 : Fin 2) * 53 + 1 * q.val = q.val; rw [h1]; omega

/-- Window 2's block at point `t`, entry by entry. -/
theorem iblk2_apply (c : Dev nD) (t : Fin cfg0.N) (p : Fin 1024) :
    (iblk m c 2 t : Vec Ideal S1024 .f32) (ix1 p) = (m ((c : Thread nD τ).loc main_arg3) : Arr Ideal S65536) (ix1 (rowOf t p)) := by
  have h0 : win0_2.index t (0 : Fin 1) = t.val := (idx_facts t).2.2.2.1
  unfold iblk
  rw [View.read_apply]
  show V m c main_arg3 _ = _
  rw [V_main_arg3 m c]
  congr 1
  funext a
  apply Fin.ext
  match a with
  | ⟨0, _⟩ => show win0_2.index t (0 : Fin 1) * 1024 + 1 * p.val = t.val * 1024 + p.val; rw [h0]; omega

/-- Window 3's block at point `t`, entry by entry. -/
theorem iblk3_apply (c : Dev nD) (t : Fin cfg0.N) (p : Fin 7) (q : Fin 53) :
    (iblk m c 3 t : Vec Ideal S7x53 .f32) (ix2 p q) = (V m c main_v59 : Arr Ideal S7x53) (ix2 p q) := by
  have h0 : win0_3.index t (0 : Fin 2) = 0 := (idx_facts t).2.2.2.2.1
  have h1 : win0_3.index t (1 : Fin 2) = 0 := (idx_facts t).2.2.2.2.2.1
  unfold iblk
  rw [View.read_apply]
  show V m c main_v59 _ = _
  congr 1
  funext a
  apply Fin.ext
  match a with
  | ⟨0, _⟩ => show win0_3.index t (0 : Fin 2) * 7 + 1 * p.val = p.val; rw [h0]; omega
  | ⟨1, _⟩ => show win0_3.index t (1 : Fin 2) * 53 + 1 * q.val = q.val; rw [h1]; omega

/-- Window 4's block at point `t`, entry by entry. -/
theorem iblk4_apply (c : Dev nD) (t : Fin cfg0.N) (p : Fin 2) (q : Fin 53) :
    (iblk m c 4 t : Vec Ideal S2x53 .f32) (ix2 p q) = (V m c main_v62 : Arr Ideal S2x53) (ix2 p q) := by
  have h0 : win0_4.index t (0 : Fin 2) = 0 := (idx_facts t).2.2.2.2.2.2.1
  have h1 : win0_4.index t (1 : Fin 2) = 0 := (idx_facts t).2.2.2.2.2.2.2.1
  unfold iblk
  rw [View.read_apply]
  show V m c main_v62 _ = _
  congr 1
  funext a
  apply Fin.ext
  match a with
  | ⟨0, _⟩ => show win0_4.index t (0 : Fin 2) * 2 + 1 * p.val = p.val; rw [h0]; omega
  | ⟨1, _⟩ => show win0_4.index t (1 : Fin 2) * 53 + 1 * q.val = q.val; rw [h1]; omega

/-- Window 5's block at point `t`, entry by entry. -/
theorem iblk5_apply (c : Dev nD) (t : Fin cfg0.N) (p : Fin 4) (q : Fin 325) :
    (iblk m c 5 t : Vec Ideal S4x325 .f32) (ix2 p q) = (V m c main_v67 : Arr Ideal S4x325) (ix2 p q) := by
  have h0 : win0_5.index t (0 : Fin 2) = 0 := (idx_facts t).2.2.2.2.2.2.2.2.1
  have h1 : win0_5.index t (1 : Fin 2) = 0 := (idx_facts t).2.2.2.2.2.2.2.2.2.1
  unfold iblk
  rw [View.read_apply]
  show V m c main_v67 _ = _
  congr 1
  funext a
  apply Fin.ext
  match a with
  | ⟨0, _⟩ => show win0_5.index t (0 : Fin 2) * 4 + 1 * p.val = p.val; rw [h0]; omega
  | ⟨1, _⟩ => show win0_5.index t (1 : Fin 2) * 325 + 1 * q.val = q.val; rw [h1]; omega

/-- Window 6's block at point `t`, entry by entry. -/
theorem iblk6_apply (c : Dev nD) (t : Fin cfg0.N) (p : Fin 325) (q : Fin 53) :
    (iblk m c 6 t : Vec Ideal S325x53 .f32) (ix2 p q) = (m ((c : Thread nD τ).loc main_arg14) : Arr Ideal S325x53) (ix2 p q) := by
  have h0 : win0_6.index t (0 : Fin 2) = 0 := (idx_facts t).2.2.2.2.2.2.2.2.2.2.1
  have h1 : win0_6.index t (1 : Fin 2) = 0 := (idx_facts t).2.2.2.2.2.2.2.2.2.2.2.1
  unfold iblk
  rw [View.read_apply]
  show V m c main_arg14 _ = _
  rw [V_main_arg14 m c]
  congr 1
  funext a
  apply Fin.ext
  match a with
  | ⟨0, _⟩ => show win0_6.index t (0 : Fin 2) * 325 + 1 * p.val = p.val; rw [h0]; omega
  | ⟨1, _⟩ => show win0_6.index t (1 : Fin 2) * 53 + 1 * q.val = q.val; rw [h1]; omega

/-- Window 7's block at point `t`, entry by entry. -/
theorem iblk7_apply (c : Dev nD) (t : Fin cfg0.N) (p : Fin 325) (q : Fin 53) :
    (iblk m c 7 t : Vec Ideal S325x53 .f32) (ix2 p q) = (m ((c : Thread nD τ).loc main_arg15) : Arr Ideal S325x53) (ix2 p q) := by
  have h0 : win0_7.index t (0 : Fin 2) = 0 := (idx_facts t).2.2.2.2.2.2.2.2.2.2.2.2.1
  have h1 : win0_7.index t (1 : Fin 2) = 0 := (idx_facts t).2.2.2.2.2.2.2.2.2.2.2.2.2.1
  unfold iblk
  rw [View.read_apply]
  show V m c main_arg15 _ = _
  rw [V_main_arg15 m c]
  congr 1
  funext a
  apply Fin.ext
  match a with
  | ⟨0, _⟩ => show win0_7.index t (0 : Fin 2) * 325 + 1 * p.val = p.val; rw [h0]; omega
  | ⟨1, _⟩ => show win0_7.index t (1 : Fin 2) * 53 + 1 * q.val = q.val; rw [h1]; omega

/-- Window 8's block at point `t`, entry by entry. -/
theorem iblk8_apply (c : Dev nD) (t : Fin cfg0.N) (p : Fin 325) (q : Fin 53) :
    (iblk m c 8 t : Vec Ideal S325x53 .f32) (ix2 p q) = (V m c main_v57 : Arr Ideal S325x53) (ix2 p q) := by
  have h0 : win0_8.index t (0 : Fin 2) = 0 := (idx_facts t).2.2.2.2.2.2.2.2.2.2.2.2.2.2.1
  have h1 : win0_8.index t (1 : Fin 2) = 0 := (idx_facts t).2.2.2.2.2.2.2.2.2.2.2.2.2.2.2.1
  unfold iblk
  rw [View.read_apply]
  show V m c main_v57 _ = _
  congr 1
  funext a
  apply Fin.ext
  match a with
  | ⟨0, _⟩ => show win0_8.index t (0 : Fin 2) * 325 + 1 * p.val = p.val; rw [h0]; omega
  | ⟨1, _⟩ => show win0_8.index t (1 : Fin 2) * 53 + 1 * q.val = q.val; rw [h1]; omega

/-- Window 9's block at point `t`, entry by entry. -/
theorem iblk9_apply (c : Dev nD) (t : Fin cfg0.N) (p : Fin 1) (q : Fin 4) :
    (iblk m c 9 t : Vec Ideal S1x4 .f32) (ix2 p q) = (V m c main_v73 : Arr Ideal S1x4) (ix2 p q) := by
  have h0 : win0_9.index t (0 : Fin 2) = 0 := (idx_facts t).2.2.2.2.2.2.2.2.2.2.2.2.2.2.2.2.1
  have h1 : win0_9.index t (1 : Fin 2) = 0 := (idx_facts t).2.2.2.2.2.2.2.2.2.2.2.2.2.2.2.2.2
  unfold iblk
  rw [View.read_apply]
  show V m c main_v73 _ = _
  congr 1
  funext a
  apply Fin.ext
  match a with
  | ⟨0, _⟩ => show win0_9.index t (0 : Fin 2) * 1 + 1 * p.val = p.val; rw [h0]; omega
  | ⟨1, _⟩ => show win0_9.index t (1 : Fin 2) * 4 + 1 * q.val = q.val; rw [h1]; omega

/-! ## What the body's loads hold -/

theorem hz1 : (![0] : Fin 1 → Nat) = fun _ => 0 := funext fun a => by fin_cases a; rfl
theorem hz2 : (![0, 0] : Fin 2 → Nat) = fun _ => 0 := funext fun a => by fin_cases a <;> rfl

theorem ld_rRow7_0 (X : Vec Ideal S7x53 .f32) (s : Fin 53) : View.ld X rRow7_0 (ix2 (0 : Fin 1) s) = X (ix2 (0 : Fin 7) s) :=
  congrArg X (funext fun a => Fin.ext (by match a with | ⟨0, _⟩ => rfl | ⟨1, _⟩ => show 0 + 1 * s.val = s.val; omega))
theorem ld_rRow7_1 (X : Vec Ideal S7x53 .f32) (s : Fin 53) : View.ld X rRow7_1 (ix2 (0 : Fin 1) s) = X (ix2 (1 : Fin 7) s) :=
  congrArg X (funext fun a => Fin.ext (by match a with | ⟨0, _⟩ => rfl | ⟨1, _⟩ => show 0 + 1 * s.val = s.val; omega))
theorem ld_rRow7_2 (X : Vec Ideal S7x53 .f32) (s : Fin 53) : View.ld X rRow7_2 (ix2 (0 : Fin 1) s) = X (ix2 (2 : Fin 7) s) :=
  congrArg X (funext fun a => Fin.ext (by match a with | ⟨0, _⟩ => rfl | ⟨1, _⟩ => show 0 + 1 * s.val = s.val; omega))
theorem ld_rRow7_3 (X : Vec Ideal S7x53 .f32) (s : Fin 53) : View.ld X rRow7_3 (ix2 (0 : Fin 1) s) = X (ix2 (3 : Fin 7) s) :=
  congrArg X (funext fun a => Fin.ext (by match a with | ⟨0, _⟩ => rfl | ⟨1, _⟩ => show 0 + 1 * s.val = s.val; omega))
theorem ld_rRow7_4 (X : Vec Ideal S7x53 .f32) (s : Fin 53) : View.ld X rRow7_4 (ix2 (0 : Fin 1) s) = X (ix2 (4 : Fin 7) s) :=
  congrArg X (funext fun a => Fin.ext (by match a with | ⟨0, _⟩ => rfl | ⟨1, _⟩ => show 0 + 1 * s.val = s.val; omega))
theorem ld_rRow7_5 (X : Vec Ideal S7x53 .f32) (s : Fin 53) : View.ld X rRow7_5 (ix2 (0 : Fin 1) s) = X (ix2 (5 : Fin 7) s) :=
  congrArg X (funext fun a => Fin.ext (by match a with | ⟨0, _⟩ => rfl | ⟨1, _⟩ => show 0 + 1 * s.val = s.val; omega))
theorem ld_rRow7_6 (X : Vec Ideal S7x53 .f32) (s : Fin 53) : View.ld X rRow7_6 (ix2 (0 : Fin 1) s) = X (ix2 (6 : Fin 7) s) :=
  congrArg X (funext fun a => Fin.ext (by match a with | ⟨0, _⟩ => rfl | ⟨1, _⟩ => show 0 + 1 * s.val = s.val; omega))
theorem ld_rRow2_0 (X : Vec Ideal S2x53 .f32) (s : Fin 53) : View.ld X rRow2_0 (ix2 (0 : Fin 1) s) = X (ix2 (0 : Fin 2) s) :=
  congrArg X (funext fun a => Fin.ext (by match a with | ⟨0, _⟩ => rfl | ⟨1, _⟩ => show 0 + 1 * s.val = s.val; omega))
theorem ld_rRow2_1 (X : Vec Ideal S2x53 .f32) (s : Fin 53) : View.ld X rRow2_1 (ix2 (0 : Fin 1) s) = X (ix2 (1 : Fin 2) s) :=
  congrArg X (funext fun a => Fin.ext (by match a with | ⟨0, _⟩ => rfl | ⟨1, _⟩ => show 0 + 1 * s.val = s.val; omega))
theorem ld_rRow4_0 (X : Vec Ideal S4x325 .f32) (r : Fin 325) : View.ld X rRow4_0 (ix2 (0 : Fin 1) r) = X (ix2 (0 : Fin 4) r) :=
  congrArg X (funext fun a => Fin.ext (by match a with | ⟨0, _⟩ => rfl | ⟨1, _⟩ => show 0 + 1 * r.val = r.val; omega))
theorem ld_rRow4_1 (X : Vec Ideal S4x325 .f32) (r : Fin 325) : View.ld X rRow4_1 (ix2 (0 : Fin 1) r) = X (ix2 (1 : Fin 4) r) :=
  congrArg X (funext fun a => Fin.ext (by match a with | ⟨0, _⟩ => rfl | ⟨1, _⟩ => show 0 + 1 * r.val = r.val; omega))
theorem ld_rRow4_2 (X : Vec Ideal S4x325 .f32) (r : Fin 325) : View.ld X rRow4_2 (ix2 (0 : Fin 1) r) = X (ix2 (2 : Fin 4) r) :=
  congrArg X (funext fun a => Fin.ext (by match a with | ⟨0, _⟩ => rfl | ⟨1, _⟩ => show 0 + 1 * r.val = r.val; omega))
theorem ld_rRow4_3 (X : Vec Ideal S4x325 .f32) (r : Fin 325) : View.ld X rRow4_3 (ix2 (0 : Fin 1) r) = X (ix2 (3 : Fin 4) r) :=
  congrArg X (funext fun a => Fin.ext (by match a with | ⟨0, _⟩ => rfl | ⟨1, _⟩ => show 0 + 1 * r.val = r.val; omega))

/-- At every grid point the loaded vectors hold the arguments' coordinates. -/
theorem holds (c : Dev nD) (t : Fin cfg0.N) : HoldsAt m c t where
  h0 p := (congrFun (View.ld_unit_zero (Val := Elt Ideal) (S := S1024) (e := .f32) hz1 inb_S1024_S1024_0 (iblk m c 0 t)) (ix1 p)).trans (iblk0_apply m c t p)
  h2 p s := (congrFun (View.ld_unit_zero (Val := Elt Ideal) (S := S1024x53) (e := .f32) hz2 inb_S1024x53_S1024x53_0_0 (iblk m c 1 t)) (ix2 p s)).trans (iblk1_apply m c t p s)
  h3 p := (congrFun (View.ld_unit_zero (Val := Elt Ideal) (S := S1024) (e := .f32) hz1 inb_S1024_S1024_0 (iblk m c 2 t)) (ix1 p)).trans (iblk2_apply m c t p)
  h5 s := (ld_rRow7_0 _ s).trans ((iblk3_apply m c t 0 s).trans ((congrFun (V_v59 m c) (ix2 (0 : Fin 7) s)).trans (pre_v59_apply _ 0 s)))
  h7 s := (ld_rRow7_1 _ s).trans ((iblk3_apply m c t 1 s).trans ((congrFun (V_v59 m c) (ix2 (1 : Fin 7) s)).trans (pre_v59_apply _ 1 s)))
  h9 s := (ld_rRow7_2 _ s).trans ((iblk3_apply m c t 2 s).trans ((congrFun (V_v59 m c) (ix2 (2 : Fin 7) s)).trans (pre_v59_apply _ 2 s)))
  h11 s := (ld_rRow7_3 _ s).trans ((iblk3_apply m c t 3 s).trans ((congrFun (V_v59 m c) (ix2 (3 : Fin 7) s)).trans (pre_v59_apply _ 3 s)))
  h13 s := (ld_rRow7_4 _ s).trans ((iblk3_apply m c t 4 s).trans ((congrFun (V_v59 m c) (ix2 (4 : Fin 7) s)).trans (pre_v59_apply _ 4 s)))
  h15 s := (ld_rRow7_5 _ s).trans ((iblk3_apply m c t 5 s).trans ((congrFun (V_v59 m c) (ix2 (5 : Fin 7) s)).trans (pre_v59_apply _ 5 s)))
  h17 s := (ld_rRow7_6 _ s).trans ((iblk3_apply m c t 6 s).trans ((congrFun (V_v59 m c) (ix2 (6 : Fin 7) s)).trans (pre_v59_apply _ 6 s)))
  h19 s := (ld_rRow2_0 _ s).trans ((iblk4_apply m c t 0 s).trans ((congrFun (V_v62 m c) (ix2 (0 : Fin 2) s)).trans (pre_v62_row0 _ _ s)))
  h21 s := (ld_rRow2_1 _ s).trans ((iblk4_apply m c t 1 s).trans ((congrFun (V_v62 m c) (ix2 (1 : Fin 2) s)).trans (pre_v62_row1 _ _ s)))
  h23 r := (ld_rRow4_0 _ r).trans ((iblk5_apply m c t 0 r).trans ((congrFun (V_v67 m c) (ix2 (0 : Fin 4) r)).trans (pre_v67_row0 _ _ _ _ _ r)))
  h25 r := (ld_rRow4_1 _ r).trans ((iblk5_apply m c t 1 r).trans ((congrFun (V_v67 m c) (ix2 (1 : Fin 4) r)).trans (pre_v67_row1 _ _ _ _ _ r)))
  h27 r := (ld_rRow4_2 _ r).trans ((iblk5_apply m c t 2 r).trans ((congrFun (V_v67 m c) (ix2 (2 : Fin 4) r)).trans (pre_v67_row2 _ _ _ _ _ r)))
  h29 r := (ld_rRow4_3 _ r).trans ((iblk5_apply m c t 3 r).trans ((congrFun (V_v67 m c) (ix2 (3 : Fin 4) r)).trans (pre_v67_row3 _ _ _ _ _ r)))
  h31 r s := (congrFun (View.ld_unit_zero (Val := Elt Ideal) (S := S325x53) (e := .f32) hz2 inb_S325x53_S325x53_0_0 (iblk m c 6 t)) (ix2 r s)).trans (iblk6_apply m c t r s)
  h32 r s := (congrFun (View.ld_unit_zero (Val := Elt Ideal) (S := S325x53) (e := .f32) hz2 inb_S325x53_S325x53_0_0 (iblk m c 7 t)) (ix2 r s)).trans (iblk7_apply m c t r s)
  h33 r s := (congrFun (View.ld_unit_zero (Val := Elt Ideal) (S := S325x53) (e := .f32) hz2 inb_S325x53_S325x53_0_0 (iblk m c 8 t)) (ix2 r s)).trans ((iblk8_apply m c t r s).trans ((congrFun (V_v57 m c) (ix2 r s)).trans (pre_v57_apply _ _ r s)))
  hP := (congrFun (View.ld_unit_zero (Val := Elt Ideal) (S := S1x4) (e := .f32) hz2 inb_S1x4_S1x4_0_0 (iblk m c 9 t)) (ix2 (0 : Fin 1) (0 : Fin 4))).trans ((iblk9_apply m c t 0 0).trans ((congrFun (V_v73 m c) (ix2 (0 : Fin 1) (0 : Fin 4))).trans (pre_v73_apply_0 _ _ _ _ _ _ _ _)))
  hI := (congrFun (View.ld_unit_zero (Val := Elt Ideal) (S := S1x4) (e := .f32) hz2 inb_S1x4_S1x4_0_0 (iblk m c 9 t)) (ix2 (0 : Fin 1) (1 : Fin 4))).trans ((iblk9_apply m c t 0 1).trans ((congrFun (V_v73 m c) (ix2 (0 : Fin 1) (1 : Fin 4))).trans (pre_v73_apply_1 _ _ _ _ _ _ _ _)))
  hO := (congrFun (View.ld_unit_zero (Val := Elt Ideal) (S := S1x4) (e := .f32) hz2 inb_S1x4_S1x4_0_0 (iblk m c 9 t)) (ix2 (0 : Fin 1) (2 : Fin 4))).trans ((iblk9_apply m c t 0 2).trans ((congrFun (V_v73 m c) (ix2 (0 : Fin 1) (2 : Fin 4))).trans (pre_v73_apply_2 _ _ _ _ _ _ _ _)))
  hH := (congrFun (View.ld_unit_zero (Val := Elt Ideal) (S := S1x4) (e := .f32) hz2 inb_S1x4_S1x4_0_0 (iblk m c 9 t)) (ix2 (0 : Fin 1) (3 : Fin 4))).trans ((iblk9_apply m c t 0 3).trans ((congrFun (V_v73 m c) (ix2 (0 : Fin 1) (3 : Fin 4))).trans
    ((pre_v73_apply_3 _ _ _ _ _ _ _ _).trans (Finset.sum_congr rfl fun s _ => by rw [pre_v48_apply]; rfl))))

end Cert.KernelIdeal.KValue

end
-- ==== Proof.KernelFlush.lean ====
/-
  What a grid point writes back.

  At grid point `t` the body stores three vectors into the result block: column 0 (dT/dt of the block's rows), columns
  1 … 53 (dY/dt) and column 54 (dm/dt).  Read back entry by entry — the last store covering an entry wins, and the three
  stores' columns are disjoint — and with the body's arithmetic at the loaded values, the block is rows
  `1024 t … 1024 t + 1023` of the specification's result array.
-/
import proofs.«132633_j39668317946412_1_alg».proof.Proof.KernelRows
import Idealize.ShloMosaic.Lib.Pipeline.Value
import Idealize.ShloMosaic.Lib.ValueIdx

set_option maxRecDepth 16384

noncomputable section

namespace Cert.KernelIdeal.KValue

open Cert.KernelIdeal Cert.KernelIdeal.Gen Cert.KernelIdeal.Frame Cert.RhsSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The result window is at block `t` at grid point `t`. -/
theorem idx10 : ∀ t : Fin cfg0.N, win0_10.index t (0 : Fin 2) = t.val ∧ win0_10.index t (1 : Fin 2) = 0 :=
  (by decide +kernel : ∀ t : Fin grid0.N, _)

theorem succ_lt55 (s : Fin 53) : s.val + 1 < 55 := by have := s.isLt; omega

section Canon
variable (w54 : Vec Ideal S1024x1 .f32) (w1 : Vec Ideal S1024x53 .f32) (w0 : Vec Ideal S1024x1 .f32)

theorem emb54 (p : Fin 1024) : rOut54.emb (ix2 p (0 : Fin 1)) = ix2 p (54 : Fin 55) :=
  funext fun a => Fin.ext (by match a with | ⟨0, _⟩ => show 0 + 1 * p.val = p.val; omega | ⟨1, _⟩ => rfl)
theorem emb1 (p : Fin 1024) (s : Fin 53) : rOut1.emb (ix2 p s) = ix2 p (⟨s.val + 1, succ_lt55 s⟩ : Fin 55) :=
  funext fun a => Fin.ext (by match a with | ⟨0, _⟩ => show 0 + 1 * p.val = p.val; omega | ⟨1, _⟩ => show 1 + 1 * s.val = s.val + 1; omega)
theorem emb0 (p : Fin 1024) : rOut0.emb (ix2 p (0 : Fin 1)) = ix2 p (0 : Fin 55) :=
  funext fun a => Fin.ext (by match a with | ⟨0, _⟩ => show 0 + 1 * p.val = p.val; omega | ⟨1, _⟩ => rfl)

theorem not_mem54 (p : Fin 1024) (q : Fin 55) (hq : q.val < 54) : ix2 p q ∉ rOut54.set := by
  rw [Rect.mem_set_unit]
  intro h
  have h1 : 54 ≤ q.val := (h 1).1
  omega
theorem not_mem1 (p : Fin 1024) : ix2 p (0 : Fin 55) ∉ rOut1.set := by
  rw [Rect.mem_set_unit]
  intro h
  have h1 : 1 ≤ (0 : Nat) := (h 1).1
  omega

/-- The three stores read back: column 54 is the last store's, columns 1 … 53 the second's, column 0 the first's. -/
theorem canon_col54 (p : Fin 1024) : View.canon ([⟨rOut54, w54⟩, ⟨rOut1, w1⟩, ⟨rOut0, w0⟩] : List (View.Piece (Elt Ideal) S1024x55 .f32)) (ix2 p (54 : Fin 55)) = w54 (ix2 p (0 : Fin 1)) := by
  have h := View.canon_cons_emb (Val := Elt Ideal) rOut54 w54 [⟨rOut1, w1⟩, ⟨rOut0, w0⟩] (ix2 p (0 : Fin 1))
  rw [emb54 p] at h
  exact h
theorem canon_mid (p : Fin 1024) (s : Fin 53) :
    View.canon ([⟨rOut54, w54⟩, ⟨rOut1, w1⟩, ⟨rOut0, w0⟩] : List (View.Piece (Elt Ideal) S1024x55 .f32)) (ix2 p (⟨s.val + 1, succ_lt55 s⟩ : Fin 55)) = w1 (ix2 p s) := by
  refine (View.canon_cons_of_not_mem (Val := Elt Ideal) (⟨rOut54, w54⟩ : View.Piece (Elt Ideal) S1024x55 .f32) [⟨rOut1, w1⟩, ⟨rOut0, w0⟩]
    (not_mem54 p (⟨s.val + 1, succ_lt55 s⟩ : Fin 55) (by show s.val + 1 < 54; omega))).trans ?_
  have h := View.canon_cons_emb (Val := Elt Ideal) rOut1 w1 [⟨rOut0, w0⟩] (ix2 p s)
  rw [emb1 p s] at h
  exact h
theorem canon_col0 (p : Fin 1024) : View.canon ([⟨rOut54, w54⟩, ⟨rOut1, w1⟩, ⟨rOut0, w0⟩] : List (View.Piece (Elt Ideal) S1024x55 .f32)) (ix2 p (0 : Fin 55)) = w0 (ix2 p (0 : Fin 1)) := by
  refine (View.canon_cons_of_not_mem (Val := Elt Ideal) (⟨rOut54, w54⟩ : View.Piece (Elt Ideal) S1024x55 .f32) [⟨rOut1, w1⟩, ⟨rOut0, w0⟩]
    (not_mem54 p (0 : Fin 55) (by show (0 : Nat) < 54; omega))).trans ?_
  refine (View.canon_cons_of_not_mem (Val := Elt Ideal) (⟨rOut1, w1⟩ : View.Piece (Elt Ideal) S1024x55 .f32) [⟨rOut0, w0⟩] (not_mem1 p)).trans ?_
  have h := View.canon_cons_emb (Val := Elt Ideal) rOut0 w0 [] (ix2 p (0 : Fin 1))
  rw [emb0 p] at h
  exact h

/-- So three stores holding dm/dt, dY/dt and dT/dt of row `b` read back as row `b` of the result. -/
theorem canon3_out (I : In) (b : Fin 65536) (p : Fin 1024) (q : Fin 55)
    (hT : w0 (ix2 p (0 : Fin 1)) = dT I b) (hm : w54 (ix2 p (0 : Fin 1)) = dm I) (hY : ∀ s : Fin 53, w1 (ix2 p s) = dY I b s) :
    View.canon ([⟨rOut54, w54⟩, ⟨rOut1, w1⟩, ⟨rOut0, w0⟩] : List (View.Piece (Elt Ideal) S1024x55 .f32)) (ix2 p q) = out I b q := by
  by_cases h0 : q.val = 0
  · obtain rfl : q = 0 := Fin.ext h0
    refine (canon_col0 w54 w1 w0 p).trans ?_
    unfold out
    rw [dif_pos h0]
    exact hT
  · by_cases h54 : q.val = 54
    · obtain rfl : q = 54 := Fin.ext h54
      refine (canon_col54 w54 w1 w0 p).trans ?_
      unfold out
      rw [dif_neg h0, dif_pos h54]
      exact hm
    · have hq : q.val < 55 := q.isLt
      obtain ⟨s, rfl⟩ : ∃ s : Fin 53, q = (⟨s.val + 1, succ_lt55 s⟩ : Fin 55) :=
        ⟨⟨q.val - 1, by omega⟩, Fin.ext (by show q.val = q.val - 1 + 1; omega)⟩
      refine (canon_mid w54 w1 w0 p s).trans ?_
      unfold out
      rw [dif_neg h0, dif_neg h54]
      refine (hY s).trans (congrArg (dY I b) (Fin.ext ?_))
      show s.val = s.val + 1 - 1
      omega
end Canon

set_option maxHeartbeats 2000000 in
/-- The body's result block from any ten input blocks whose loads hold the arguments' coordinates: row `p` of the block
    is row `row p` of the specification's result. -/
theorem out10_apply {I : In} {row : Fin 1024 → Fin 65536} (x0 : Vec Ideal S1024 .f32) (x1 : Vec Ideal S1024x53 .f32) (x2 : Vec Ideal S1024 .f32) (x3 : Vec Ideal S7x53 .f32) (x4 : Vec Ideal S2x53 .f32) (x5 : Vec Ideal S4x325 .f32) (x6 : Vec Ideal S325x53 .f32) (x7 : Vec Ideal S325x53 .f32) (x8 : Vec Ideal S325x53 .f32) (x9 : Vec Ideal S1x4 .f32)
    (H : KBody.Holds I row (View.ld x0 rVec) (View.ld x1 rMat) (View.ld x2 rVec) (View.ld x3 rRow7_0) (View.ld x3 rRow7_1) (View.ld x3 rRow7_2) (View.ld x3 rRow7_3) (View.ld x3 rRow7_4) (View.ld x3 rRow7_5) (View.ld x3 rRow7_6) (View.ld x4 rRow2_0) (View.ld x4 rRow2_1) (View.ld x5 rRow4_0) (View.ld x5 rRow4_1) (View.ld x5 rRow4_2) (View.ld x5 rRow4_3) (View.ld x6 rCoef) (View.ld x7 rCoef) (View.ld x8 rCoef) (View.ld x9 rScal))
    (p : Fin 1024) (q : Fin 55) : out10 x0 x1 x2 x3 x4 x5 x6 x7 x8 x9 (ix2 p q) = out I (row p) q := by
  unfold out10
  exact canon3_out _ _ _ I (row p) p q (KBody.dT_blk H p) (KBody.dm_blk H p) (fun s => KBody.dY_blk H p s)

set_option maxHeartbeats 2000000 in
/-- What grid point `t` writes back is block `t` of the specification's result array. -/
theorem flushed10_eq (hH : ∀ (c : Dev nD) (t : Fin cfg0.N), HoldsAt m c t) (c : Dev nD) (t : Fin cfg0.N) :
    (dats m 0 c).flushed 10 t = ((cfg0.win 10).blk t).view.read (Elt Ideal) (outArr (argsOf m c)) := by
  obtain ⟨e0, e1⟩ := idx10 t
  show (cfg0.win 10).cut (grid0.coords t) ((dats m 0 c).after 10 t) = _
  rw [after0_10]
  funext j
  obtain ⟨p, q, rfl⟩ : ∃ (p : Fin 1024) (q : Fin 55), j = ix2 p q := ⟨j 0, j 1, eq_ix2 j⟩
  have hemb : ((cfg0.win 10).blk t).view.emb (ix2 p q) = ix2 (rowOf t p) q := by
    funext a
    apply Fin.ext
    match a with
    | ⟨0, _⟩ => show win0_10.index t (0 : Fin 2) * 1024 + 1 * p.val = t.val * 1024 + p.val; rw [e0]; omega
    | ⟨1, _⟩ => show win0_10.index t (1 : Fin 2) * 55 + 1 * q.val = q.val; rw [e1]; omega
  refine (out10_apply (iblk m c 0 t) (iblk m c 1 t) (iblk m c 2 t) (iblk m c 3 t) (iblk m c 4 t) (iblk m c 5 t) (iblk m c 6 t) (iblk m c 7 t) (iblk m c 8 t) (iblk m c 9 t) (hH c t) p q).trans ?_
  symm
  rw [View.read_apply, hemb]
  rfl

end Cert.KernelIdeal.KValue

end
-- ==== Proof.KernelBlocks.lean ====
/-
  From the blocks to the result array of the idealized kernel.

  The grid has 64 points; point t handles batch rows 1024 t … 1024 t + 1023 and writes back the block of rows of the
  [65536, 55] result array with that range, all 55 columns. Given that what each point writes back is its block of the
  specification's result array of the launch arguments, the blocks tile the array (row r lies in the block of point
  r / 1024), so after the run the array holds the specification's result; the sixteen argument arrays end as launched.
-/
import proofs.«132633_j39668317946412_1_alg».proof.Proof.KernelFlush
import Idealize.ShloMosaic.Lib.Pipeline.Value
import Idealize.ShloMosaic.Lib.ValueIdx

noncomputable section

namespace Cert.KernelIdeal.KValue

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The blocks cover the result array -/

/-- An index of the result array is in point t's block iff each coordinate is in the block's range on its axis. -/
theorem mem_blk10 (t : Fin cfg0.N) (i : S65536x55.Idx) :
    i ∈ ((cfg0.win 10).blk t).view.set ↔ ∀ a : Fin 2, win0_10.index t a * S1024x55.size a ≤ (i a).val
      ∧ (i a).val < win0_10.index t a * S1024x55.size a + S1024x55.size a := by
  show i ∈ ((View.whole main_v74).slice (win0_10.rect t)).set ↔ _
  rw [View.set_slice_whole, Rect.mem_set_unit]
  exact Iff.rfl

/-- Row r of the result array lies in the block of point r / 1024: the 64 blocks of 1024 rows tile the 65536 rows. -/
theorem blocks_cover (i : S65536x55.Idx) :
    ∃ t : Fin cfg0.N, (cfg0.win 10).flush t = true ∧ i ∈ ((cfg0.win 10).blk t).view.set := by
  have hi0 : (i 0).val < 65536 := (i 0).isLt
  have hi1 : (i 1).val < 55 := (i 1).isLt
  have hN : cfg0.N = 64 := N_0
  have ht : (i 0).val / 1024 < cfg0.N := by rw [hN]; omega
  refine ⟨⟨(i 0).val / 1024, ht⟩, flush0_10 _, ?_⟩
  rw [mem_blk10]
  obtain ⟨e0, e1⟩ := idx10 ⟨(i 0).val / 1024, ht⟩
  intro a
  match a with
  | ⟨0, _⟩ =>
    show win0_10.index ⟨(i 0).val / 1024, ht⟩ (0 : Fin 2) * 1024 ≤ (i 0).val
      ∧ (i 0).val < win0_10.index ⟨(i 0).val / 1024, ht⟩ (0 : Fin 2) * 1024 + 1024
    rw [e0]
    show (i 0).val / 1024 * 1024 ≤ (i 0).val ∧ (i 0).val < (i 0).val / 1024 * 1024 + 1024
    omega
  | ⟨1, _⟩ =>
    show win0_10.index ⟨(i 0).val / 1024, ht⟩ (1 : Fin 2) * 55 ≤ (i 1).val
      ∧ (i 1).val < win0_10.index ⟨(i 0).val / 1024, ht⟩ (1 : Fin 2) * 55 + 55
    rw [e1]
    omega

/-! ## The result array after the run, and the run -/

variable (hH : ∀ (c : Dev nD) (t : Fin cfg0.N), HoldsAt m c t)
include hH

/-- Every point writes back its block of the specification's result array and the blocks cover the array: the array ends
    holding the specification's result of the arguments. -/
theorem final10 (c : Dev nD) : (dats m 0 c).arrAt 10 cfg0.N = Cert.RhsSpec.outArr (argsOf m c) :=
  (dats m 0 c).arrAt_eq_of_cover 10 (Cert.RhsSpec.outArr (argsOf m c)) (fun t _ => flushed10_eq m hH c t) blocks_cover

/-- The run of the idealized kernel: the result array ends at the specification's result of the launch arguments, and the
    sixteen argument arrays end as launched. -/
theorem kernel_run_of : θ_run defs (onTc (τ := τ) (main (F := Ideal))) ⟨m, fun _ => 0, ρ⟩ fun r => ∀ c : Dev nD,
      r.2.mem ((c.tc : Thread nD τ).loc main_v74) = Cert.RhsSpec.outArr (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => ⟨(post10 m r h c).trans (final10 m hH c), kept m r h c⟩) (run_main m ρ)

end Cert.KernelIdeal.KValue

end
-- ==== Proof.RefIsSpec.lean ====
/-
  The reference program's result, read at an index, is the specification function.

  The reference computes the reactor right-hand side with whole-array operations: every per-row quantity is an elementwise
  expression of broadcast copies of the arguments (the temperature as a column repeated along the species or reaction axis,
  a species or reaction vector as a row repeated along the batch axis, a scalar repeated everywhere), of columns sliced out
  of the NASA table, of sums along the species axis and of contractions with the stoichiometric tables. Read at an index
  given by its coordinates — batch row b, species s, reaction r — each broadcast copy is the argument's entry at the
  matching coordinate, each sum is the finite sum over the summed coordinate (its initial value is the zero word), and each
  contraction is the finite sum of products. One lemma per named quantity of the specification identifies the reference's
  array for that quantity, entry by entry, with the specification's function; later quantities rewrite with the earlier
  ones. The result array joins the dT/dt column, the dY/dt block and the dm/dt column along the second axis, which is the
  specification's case distinction on the column.
-/
import proofs.«132633_j39668317946412_1_alg».proof.Proof.RhsSpec
import proofs.«132633_j39668317946412_1_alg».proof.Proof.RefReadP

noncomputable section

namespace Cert.ReferenceIdeal.RefValue

open Idealize.ShloMosaic Idealize.ShloMosaic.ValueIdx

/-! ## The layout operations of the reference, read at an index given by coordinates -/

section Layout
variable {α : Type}

/-- A scalar broadcast to a vector reads the scalar. -/
theorem bc_scalar1 {n : Nat} (h : (⟨0, ![]⟩ : Shape).BroadcastsInDim ⟨1, ![n]⟩ (![] : Fin 0 → Fin 1))
    (y : (⟨0, ![]⟩ : Shape).Idx → α) (j : (⟨1, ![n]⟩ : Shape).Idx) :
    broadcastInDim ⟨1, ![n]⟩ ![] h y j = y ix0 :=
  broadcastInDim_apply _ h y j ix0 (fun a => a.elim0)

/-- A scalar broadcast to a matrix reads the scalar. -/
theorem bc_scalar2 {m n : Nat} (h : (⟨0, ![]⟩ : Shape).BroadcastsInDim ⟨2, ![m, n]⟩ (![] : Fin 0 → Fin 2))
    (y : (⟨0, ![]⟩ : Shape).Idx → α) (j : (⟨2, ![m, n]⟩ : Shape).Idx) :
    broadcastInDim ⟨2, ![m, n]⟩ ![] h y j = y ix0 :=
  broadcastInDim_apply _ h y j ix0 (fun a => a.elim0)

/-- A vector of length n as a column [n, 1]. -/
theorem bc_vec_col {n : Nat} (hn : n ≠ 1) (h : (⟨1, ![n]⟩ : Shape).BroadcastsInDim ⟨2, ![n, 1]⟩ (![0] : Fin 1 → Fin 2))
    (y : (⟨1, ![n]⟩ : Shape).Idx → α) (b : Fin n) (z : Fin 1) :
    broadcastInDim ⟨2, ![n, 1]⟩ ![0] h y (ix2 b z) = y (ix1 b) :=
  broadcastInDim_apply _ h y (ix2 b z) (ix1 b) (fun a => match a with
    | ⟨0, _⟩ => by show b.val = if n = 1 then 0 else b.val; rw [if_neg hn])

/-- A vector of length n as a row [1, n]. -/
theorem bc_vec_row {n : Nat} (hn : n ≠ 1) (h : (⟨1, ![n]⟩ : Shape).BroadcastsInDim ⟨2, ![1, n]⟩ (![1] : Fin 1 → Fin 2))
    (y : (⟨1, ![n]⟩ : Shape).Idx → α) (z : Fin 1) (s : Fin n) :
    broadcastInDim ⟨2, ![1, n]⟩ ![1] h y (ix2 z s) = y (ix1 s) :=
  broadcastInDim_apply _ h y (ix2 z s) (ix1 s) (fun a => match a with
    | ⟨0, _⟩ => by show s.val = if n = 1 then 0 else s.val; rw [if_neg hn])

/-- A column [m, 1] repeated along the second axis. -/
theorem bc_col {m n : Nat} (hm : m ≠ 1) (h : (⟨2, ![m, 1]⟩ : Shape).BroadcastsInDim ⟨2, ![m, n]⟩ (![0, 1] : Fin 2 → Fin 2))
    (y : (⟨2, ![m, 1]⟩ : Shape).Idx → α) (b : Fin m) (s : Fin n) :
    broadcastInDim ⟨2, ![m, n]⟩ ![0, 1] h y (ix2 b s) = y (ix2 b (0 : Fin 1)) :=
  broadcastInDim_apply _ h y (ix2 b s) (ix2 b (0 : Fin 1)) (fun a => match a with
    | ⟨0, _⟩ => by show b.val = if m = 1 then 0 else b.val; rw [if_neg hm]
    | ⟨1, _⟩ => by show 0 = if (1 : Nat) = 1 then 0 else s.val; rw [if_pos rfl])

/-- A row [1, n] repeated along the first axis. -/
theorem bc_row {m n : Nat} (hn : n ≠ 1) (h : (⟨2, ![1, n]⟩ : Shape).BroadcastsInDim ⟨2, ![m, n]⟩ (![0, 1] : Fin 2 → Fin 2))
    (y : (⟨2, ![1, n]⟩ : Shape).Idx → α) (b : Fin m) (s : Fin n) :
    broadcastInDim ⟨2, ![m, n]⟩ ![0, 1] h y (ix2 b s) = y (ix2 (0 : Fin 1) s) :=
  broadcastInDim_apply _ h y (ix2 b s) (ix2 (0 : Fin 1) s) (fun a => match a with
    | ⟨0, _⟩ => by show 0 = if (1 : Nat) = 1 then 0 else b.val; rw [if_pos rfl]
    | ⟨1, _⟩ => by show s.val = if n = 1 then 0 else s.val; rw [if_neg hn])

/-- A vector of length one repeated to length n. -/
theorem bc_one_vec {n : Nat} (h : (⟨1, ![1]⟩ : Shape).BroadcastsInDim ⟨1, ![n]⟩ (![0] : Fin 1 → Fin 1))
    (y : (⟨1, ![1]⟩ : Shape).Idx → α) (s : Fin n) :
    broadcastInDim ⟨1, ![n]⟩ ![0] h y (ix1 s) = y (ix1 (0 : Fin 1)) :=
  broadcastInDim_apply _ h y (ix1 s) (ix1 (0 : Fin 1)) (fun a => match a with
    | ⟨0, _⟩ => by show 0 = if (1 : Nat) = 1 then 0 else s.val; rw [if_pos rfl])

/-- A column [n, 1] read as the vector of length n. -/
theorem sc_col_vec {n : Nat} (h : (⟨2, ![n, 1]⟩ : Shape).ShapeCasts ⟨1, ![n]⟩)
    (y : (⟨2, ![n, 1]⟩ : Shape).Idx → α) (s : Fin n) :
    shapeCast ⟨1, ![n]⟩ y h (ix1 s) = y (ix2 s (0 : Fin 1)) :=
  shapeCast_apply y h (ix1 s) (ix2 s (0 : Fin 1))
    (by rewrite [Shape.rowMajor_val_two, Shape.rowMajor_val_one]; show s.val * 1 + 0 = s.val; omega)

/-- A vector of length one read as a scalar. -/
theorem sc_one_scalar (h : (⟨1, ![1]⟩ : Shape).ShapeCasts ⟨0, ![]⟩)
    (y : (⟨1, ![1]⟩ : Shape).Idx → α) (j : (⟨0, ![]⟩ : Shape).Idx) :
    shapeCast ⟨0, ![]⟩ y h j = y (ix1 (0 : Fin 1)) :=
  shapeCast_apply y h j (ix1 (0 : Fin 1))
    (by have h1 := ((⟨1, ![1]⟩ : Shape).rowMajor (ix1 (0 : Fin 1))).isLt
        have h0 := ((⟨0, ![]⟩ : Shape).rowMajor j).isLt
        have e1 : (⟨1, ![1]⟩ : Shape).numel = 1 := by decide
        have e0 : (⟨0, ![]⟩ : Shape).numel = 1 := by decide
        omega)

/-- Column k of a table [n, 7], as a column [n, 1]. -/
theorem slice_col {n : Nat} (k : Nat) (hk : k < 7) (h : (⟨2, ![n, 7]⟩ : Shape).Slices ![0, k] ⟨2, ![n, 1]⟩)
    (x : (⟨2, ![n, 7]⟩ : Shape).Idx → α) (s : Fin n) (z : Fin 1) :
    extractStridedSlice ⟨2, ![n, 1]⟩ ![0, k] x h (ix2 s z) = x (ix2 s (⟨k, hk⟩ : Fin 7)) :=
  extractStridedSlice_apply ![0, k] x h (ix2 s z) (ix2 s (⟨k, hk⟩ : Fin 7)) (fun a => match a with
    | ⟨0, _⟩ => by show s.val = 0 + s.val; omega
    | ⟨1, _⟩ => by show k = k + z.val; have := z.isLt; omega)

/-- Entry k of a pair, as a vector of length one. -/
theorem slice_pair (k : Nat) (hk : k < 2) (h : (⟨1, ![2]⟩ : Shape).Slices ![k] ⟨1, ![1]⟩)
    (x : (⟨1, ![2]⟩ : Shape).Idx → α) (z : Fin 1) :
    extractStridedSlice ⟨1, ![1]⟩ ![k] x h (ix1 z) = x (ix1 (⟨k, hk⟩ : Fin 2)) :=
  extractStridedSlice_apply ![k] x h (ix1 z) (ix1 (⟨k, hk⟩ : Fin 2)) (fun a => match a with
    | ⟨0, _⟩ => by show k = k + z.val; have := z.isLt; omega)

end Layout

open Cert.ReferenceIdeal Cert.ReferenceIdeal.Gen Cert.ReferenceIdeal.ReadP
open scoped BigOperators

/-- A rank-1 index set is its coordinate range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

-- Rewriting with the layout lemmas, the ideal instance's operations, and the given lemmas.
open Lean.Parser.Tactic in
local macro "rd" "[" ls:simpLemma,* "]" : tactic =>
  `(tactic| simp only [$ls,*, bc_scalar1 (n := 1), bc_scalar1 (n := 53), bc_scalar1 (n := 65536),
    bc_scalar2 (m := 65536) (n := 1), bc_scalar2 (m := 65536) (n := 53), bc_scalar2 (m := 65536) (n := 325),
    bc_vec_col (n := 65536) (by decide), bc_vec_row (n := 53) (by decide), bc_vec_row (n := 325) (by decide),
    bc_col (m := 65536) (n := 53) (by decide), bc_col (m := 65536) (n := 325) (by decide),
    bc_row (m := 65536) (n := 53) (by decide), bc_row (m := 65536) (n := 325) (by decide),
    bc_one_vec (n := 53), sc_col_vec (n := 53), sc_one_scalar,
    slice_col (n := 53) 0 (by decide), slice_col (n := 53) 1 (by decide), slice_col (n := 53) 2 (by decide),
    slice_col (n := 53) 3 (by decide), slice_col (n := 53) 4 (by decide), slice_col (n := 53) 5 (by decide),
    slice_col (n := 53) 6 (by decide), slice_pair 0 (by decide), slice_pair 1 (by decide),
    Ideal.ofBits_def, Ideal.addf_def, Ideal.subf_def, Ideal.mulf_def, Ideal.hostDivf_def, Ideal.hostNegf_def, Ideal.negf_def,
    Ideal.maximumf_def, Ideal.minimumf_def, Ideal.hostUnary_log_def, Ideal.hostUnary_exp_def, Ideal.ofBits_zero_f32, zero_add])

-- An index equation between two rank-2 indices, coordinate by coordinate.
local macro "idx2" : tactic => `(tactic| (funext a; match a with | ⟨0, _⟩ => rfl | ⟨1, _⟩ => rfl))

section Stages
variable (x0 : (⟨S_, .f32⟩ : BufTy).Contents (Elt Ideal))
  (x1 : (⟨S65536, .f32⟩ : BufTy).Contents (Elt Ideal))
  (x2 : (⟨S65536x53, .f32⟩ : BufTy).Contents (Elt Ideal))
  (x3 : (⟨S65536, .f32⟩ : BufTy).Contents (Elt Ideal))
  (x4 : (⟨S_, .f32⟩ : BufTy).Contents (Elt Ideal))
  (x5 : (⟨S_, .f32⟩ : BufTy).Contents (Elt Ideal))
  (x6 : (⟨S53, .f32⟩ : BufTy).Contents (Elt Ideal))
  (x7 : (⟨S2, .f32⟩ : BufTy).Contents (Elt Ideal))
  (x8 : (⟨S2, .f32⟩ : BufTy).Contents (Elt Ideal))
  (x9 : (⟨S53x7, .f32⟩ : BufTy).Contents (Elt Ideal))
  (x10 : (⟨S53, .f32⟩ : BufTy).Contents (Elt Ideal))
  (x11 : (⟨S325, .f32⟩ : BufTy).Contents (Elt Ideal))
  (x12 : (⟨S325, .f32⟩ : BufTy).Contents (Elt Ideal))
  (x13 : (⟨S325, .f32⟩ : BufTy).Contents (Elt Ideal))
  (x14 : (⟨S325x53, .f32⟩ : BufTy).Contents (Elt Ideal))
  (x15 : (⟨S325x53, .f32⟩ : BufTy).Contents (Elt Ideal))

local notation "I" => Cert.RhsSpec.ofArrays x0 x1 x2 x3 x4 x5 x6 x7 x8 x9 x10 x11 x12 x13 x14 x15

/-! ### The scalars -/

theorem mdotIn_at : val_main_v5 (F := Ideal) x0 x7 ix0 = Cert.RhsSpec.mdotIn I := by
  rd [val_main_v5_apply, val_main_v1, val_main_v0, val_main_v4_apply, val_main_v3, val_main_v2] <;> rfl

theorem mdotOut_at : val_main_v11 (F := Ideal) x0 x8 ix0 = Cert.RhsSpec.mdotOut I := by
  rd [val_main_v11_apply, val_main_v7, val_main_v6, val_main_v10_apply, val_main_v9, val_main_v8] <;> rfl

/-! ### The temperature column and the columns of the NASA table -/

theorem Tcol (b : Fin 65536) (z : Fin 1) : val_main_v12 (F := Ideal) x1 (ix2 b z) = x1 (ix1 b) := by
  rd [val_main_v12]

theorem nasaA0 (s : Fin 53) : val_main_v14 (F := Ideal) x9 (ix1 s) = x9 (ix2 s (0 : Fin 7)) := by
  rd [val_main_v14, val_main_v13] <;> rfl
theorem nasaA1 (s : Fin 53) : val_main_v16 (F := Ideal) x9 (ix1 s) = x9 (ix2 s (1 : Fin 7)) := by
  rd [val_main_v16, val_main_v15] <;> rfl
theorem nasaA2 (s : Fin 53) : val_main_v18 (F := Ideal) x9 (ix1 s) = x9 (ix2 s (2 : Fin 7)) := by
  rd [val_main_v18, val_main_v17] <;> rfl
theorem nasaA3 (s : Fin 53) : val_main_v20 (F := Ideal) x9 (ix1 s) = x9 (ix2 s (3 : Fin 7)) := by
  rd [val_main_v20, val_main_v19] <;> rfl
theorem nasaA4 (s : Fin 53) : val_main_v22 (F := Ideal) x9 (ix1 s) = x9 (ix2 s (4 : Fin 7)) := by
  rd [val_main_v22, val_main_v21] <;> rfl
theorem nasaA5 (s : Fin 53) : val_main_v24 (F := Ideal) x9 (ix1 s) = x9 (ix2 s (5 : Fin 7)) := by
  rd [val_main_v24, val_main_v23] <;> rfl
theorem nasaA6 (s : Fin 53) : val_main_v26 (F := Ideal) x9 (ix1 s) = x9 (ix2 s (6 : Fin 7)) := by
  rd [val_main_v26, val_main_v25] <;> rfl

theorem nasaB0 (s : Fin 53) : val_main_v146 (F := Ideal) x9 (ix1 s) = x9 (ix2 s (0 : Fin 7)) := by
  rd [val_main_v146, val_main_v145] <;> rfl
theorem nasaB1 (s : Fin 53) : val_main_v148 (F := Ideal) x9 (ix1 s) = x9 (ix2 s (1 : Fin 7)) := by
  rd [val_main_v148, val_main_v147] <;> rfl
theorem nasaB2 (s : Fin 53) : val_main_v150 (F := Ideal) x9 (ix1 s) = x9 (ix2 s (2 : Fin 7)) := by
  rd [val_main_v150, val_main_v149] <;> rfl
theorem nasaB3 (s : Fin 53) : val_main_v152 (F := Ideal) x9 (ix1 s) = x9 (ix2 s (3 : Fin 7)) := by
  rd [val_main_v152, val_main_v151] <;> rfl
theorem nasaB4 (s : Fin 53) : val_main_v154 (F := Ideal) x9 (ix1 s) = x9 (ix2 s (4 : Fin 7)) := by
  rd [val_main_v154, val_main_v153] <;> rfl
theorem nasaB5 (s : Fin 53) : val_main_v156 (F := Ideal) x9 (ix1 s) = x9 (ix2 s (5 : Fin 7)) := by
  rd [val_main_v156, val_main_v155] <;> rfl
theorem nasaB6 (s : Fin 53) : val_main_v158 (F := Ideal) x9 (ix1 s) = x9 (ix2 s (6 : Fin 7)) := by
  rd [val_main_v158, val_main_v157] <;> rfl

/-! ### The NASA polynomials of a row -/

theorem cpR_at (b : Fin 65536) (s : Fin 53) : val_main_v48 (F := Ideal) x1 x9 (ix2 b s) = Cert.RhsSpec.cpR I (x1 (ix1 b)) s := by
  rd [val_main_v48_apply, val_main_v47, val_main_v46, val_main_v45_apply, val_main_v44, val_main_v43_apply, val_main_v42, val_main_v41, val_main_v40_apply, val_main_v39, val_main_v38_apply, val_main_v37, val_main_v36, val_main_v35_apply, val_main_v34, val_main_v33_apply, val_main_v32, val_main_v31, val_main_v30_apply, val_main_v28, val_main_v29, val_main_v27, Tcol, nasaA0, nasaA1, nasaA2, nasaA3, nasaA4] <;> rfl

theorem hRT_at (b : Fin 65536) (s : Fin 53) : val_main_v83 (F := Ideal) x1 x9 (ix2 b s) = Cert.RhsSpec.hRT I (x1 (ix1 b)) s := by
  rd [val_main_v83_apply, val_main_v78_apply, val_main_v77, val_main_v76, val_main_v75_apply, val_main_v74, val_main_v73_apply, val_main_v72, val_main_v71, val_main_v50_apply, val_main_v49, val_main_cst_apply, val_main_v70_apply, val_main_v69, val_main_v68_apply, val_main_v67, val_main_v66, val_main_v52_apply, val_main_v51, val_main_cst_0_apply, val_main_v65_apply, val_main_v64, val_main_v63_apply, val_main_v62, val_main_v61, val_main_v54_apply, val_main_v53, val_main_cst_1_apply, val_main_v60_apply, val_main_v58_apply, val_main_v56, val_main_v57, val_main_v55, val_main_v59, val_main_cst_2_apply, val_main_v82_apply, val_main_v80, val_main_v79, val_main_v81, Tcol, nasaA0, nasaA1, nasaA2, nasaA3, nasaA4, nasaA5] <;> rfl

theorem sR_at (b : Fin 65536) (s : Fin 53) : val_main_v117 (F := Ideal) x1 x9 (ix2 b s) = Cert.RhsSpec.sR I (x1 (ix1 b)) s := by
  rd [val_main_v117_apply, val_main_v114_apply, val_main_v88_apply, val_main_v86, val_main_v85, val_main_v87, val_main_v84_apply, val_main_v113_apply, val_main_v112, val_main_v111_apply, val_main_v110, val_main_v109, val_main_v108_apply, val_main_v107, val_main_v106_apply, val_main_v105, val_main_v104, val_main_v90_apply, val_main_v89, val_main_cst_3_apply, val_main_v103_apply, val_main_v102, val_main_v101_apply, val_main_v100, val_main_v99, val_main_v92_apply, val_main_v91, val_main_cst_4_apply, val_main_v98_apply, val_main_v96_apply, val_main_v94, val_main_v95, val_main_v93, val_main_v97, val_main_cst_5_apply, val_main_v116, val_main_v115, Tcol, nasaA0, nasaA1, nasaA2, nasaA3, nasaA4, nasaA6] <;> rfl

theorem cpMol_at (b : Fin 65536) (s : Fin 53) : val_main_v119 (F := Ideal) x1 x9 (ix2 b s) = Cert.RhsSpec.cpMol I (x1 (ix1 b)) s := by
  rd [val_main_v119_apply, val_main_v118, val_main_cst_6_apply, cpR_at x0 x1 x2 x3 x4 x5 x6 x7 x8 x9 x10 x11 x12 x13 x14 x15] <;> rfl

theorem hMol_at (b : Fin 65536) (s : Fin 53) : val_main_v124 (F := Ideal) x1 x9 (ix2 b s) = Cert.RhsSpec.hMol I (x1 (ix1 b)) s := by
  rd [val_main_v124_apply, val_main_v123, val_main_v122_apply, val_main_v121, val_main_cst_7_apply, val_main_v120, hRT_at x0 x1 x2 x3 x4 x5 x6 x7 x8 x9 x10 x11 x12 x13 x14 x15] <;> rfl

/-! ### The mixture's properties in a row -/

theorem idx128 (b : Fin 65536) (k : Fin 53) : idx_main_v128 (ix1 b) k = ix2 b k := by idx2
theorem idx138 (b : Fin 65536) (k : Fin 53) : idx_main_v138 (ix1 b) k = ix2 b k := by idx2
theorem idx143 (b : Fin 65536) (k : Fin 53) : idx_main_v143 (ix1 b) k = ix2 b k := by idx2
theorem idx295 (b : Fin 65536) (k : Fin 53) : idx_main_v295 (ix1 b) k = ix2 b k := by idx2
theorem idx245 (r : Fin 325) (k : Fin 53) : idx_main_v245 (ix1 r) k = ix2 r k := by idx2
theorem lidx243 (b : Fin 65536) (r : Fin 325) (k : Fin 53) : lidx_main_v243 (ix2 b r) k = ix2 b k := by idx2
theorem ridx243 (b : Fin 65536) (r : Fin 325) (k : Fin 53) : ridx_main_v243 (ix2 b r) k = ix2 r k := by idx2
theorem lidx267 (b : Fin 65536) (r : Fin 325) (k : Fin 53) : lidx_main_v267 (ix2 b r) k = ix2 b k := by idx2
theorem ridx267 (b : Fin 65536) (r : Fin 325) (k : Fin 53) : ridx_main_v267 (ix2 b r) k = ix2 r k := by idx2
theorem lidx271 (b : Fin 65536) (r : Fin 325) (k : Fin 53) : lidx_main_v271 (ix2 b r) k = ix2 b k := by idx2
theorem ridx271 (b : Fin 65536) (r : Fin 325) (k : Fin 53) : ridx_main_v271 (ix2 b r) k = ix2 r k := by idx2
theorem lidx276 (b : Fin 65536) (s : Fin 53) (k : Fin 325) : lidx_main_v276 (ix2 b s) k = ix2 b k := by idx2
theorem ridx276 (b : Fin 65536) (s : Fin 53) (k : Fin 325) : ridx_main_v276 (ix2 b s) k = ix2 k s := by idx2

theorem invW_at (b : Fin 65536) : val_main_v128 (F := Ideal) x2 x10 (ix1 b) = Cert.RhsSpec.invW I b := by
  rd [val_main_v128_apply, val_main_v127_apply, val_main_v126, val_main_v125, val_main_cst_8_apply, idx128] <;> rfl

theorem rho_at (b : Fin 65536) : val_main_v133 (F := Ideal) x1 x2 x4 x10 (ix1 b) = Cert.RhsSpec.rho I b := by
  rd [val_main_v133_apply, val_main_v132, val_main_v131_apply, val_main_v130_apply, val_main_v129, val_main_cst_9_apply, invW_at x0 x1 x2 x3 x4 x5 x6 x7 x8 x9 x10 x11 x12 x13 x14 x15] <;> rfl

theorem cpMass_at (b : Fin 65536) : val_main_v138 (F := Ideal) x1 x2 x9 x10 (ix1 b) = Cert.RhsSpec.cpMass I b := by
  rd [val_main_v138_apply, val_main_v137_apply, val_main_v134_apply, val_main_v136, val_main_v135, val_main_cst_10_apply, idx138, cpMol_at x0 x1 x2 x3 x4 x5 x6 x7 x8 x9 x10 x11 x12 x13 x14 x15] <;> rfl

theorem hMass_at (b : Fin 65536) : val_main_v143 (F := Ideal) x1 x2 x9 x10 (ix1 b) = Cert.RhsSpec.hMass I b := by
  rd [val_main_v143_apply, val_main_v142_apply, val_main_v139_apply, val_main_v141, val_main_v140, val_main_cst_11_apply, idx143, hMol_at x0 x1 x2 x3 x4 x5 x6 x7 x8 x9 x10 x11 x12 x13 x14 x15] <;> rfl

/-! ### The inlet -/

theorem hRTin_at (s : Fin 53) : val_main_v193 (F := Ideal) x5 x9 (ix1 s) = Cert.RhsSpec.hRT I (x5 ix0) s := by
  rd [val_main_v193_apply, val_main_v190_apply, val_main_v189_apply, val_main_v188, val_main_v144, val_main_v187_apply, val_main_v172_apply, val_main_v171, val_main_cst_12_apply, val_main_v186_apply, val_main_v185, val_main_v184_apply, val_main_v174_apply, val_main_v173, val_main_cst_13_apply, val_main_v183_apply, val_main_v182, val_main_v181_apply, val_main_v176_apply, val_main_v175, val_main_cst_14_apply, val_main_v180_apply, val_main_v178_apply, val_main_v177, val_main_v179, val_main_cst_15_apply, val_main_v192_apply, val_main_v191, nasaB0, nasaB1, nasaB2, nasaB3, nasaB4, nasaB5] <;> rfl

theorem hIn_at : val_main_v222 (F := Ideal) x5 x6 x9 x10 ix0 = Cert.RhsSpec.hIn I := by
  rd [val_main_v222_apply, val_main_v221_apply, val_main_v220_apply, val_main_v218_apply, val_main_v216_apply, val_main_v217, val_main_cst_19_apply, val_main_v219, val_main_cst_20_apply, sum_idx1, hRTin_at x0 x1 x2 x3 x4 x5 x6 x7 x8 x9 x10 x11 x12 x13 x14 x15] <;> rfl

/-! ### The rate constants -/

theorem dnu_at (r : Fin 325) (s : Fin 53) : val_main_v223 (F := Ideal) x14 x15 (ix2 r s) = Cert.RhsSpec.dnu I r s := by
  rd [val_main_v223_apply] <;> rfl

theorem lnkf_at (b : Fin 65536) (r : Fin 325) : val_main_v241 (F := Ideal) x1 x11 x12 x13 (ix2 b r) = Cert.RhsSpec.lnkf I (x1 (ix1 b)) r := by
  rd [val_main_v241_apply, val_main_v233_apply, val_main_v232, val_main_v231, val_main_v224_apply, val_main_v230_apply, val_main_v228, val_main_v227, val_main_v229, val_main_v226, val_main_v225_apply, val_main_v240_apply, val_main_v238, val_main_v237, val_main_v239, val_main_v236_apply, val_main_v235, val_main_cst_21_apply, val_main_v234] <;> rfl

theorem gRT_at (b : Fin 65536) (s : Fin 53) : val_main_v242 (F := Ideal) x1 x9 (ix2 b s) = Cert.RhsSpec.gRT I (x1 (ix1 b)) s := by
  rd [val_main_v242_apply, hRT_at x0 x1 x2 x3 x4 x5 x6 x7 x8 x9 x10 x11 x12 x13 x14 x15, sR_at x0 x1 x2 x3 x4 x5 x6 x7 x8 x9 x10 x11 x12 x13 x14 x15] <;> rfl

theorem gdnu_at (b : Fin 65536) (r : Fin 325) :
    val_main_v243 (F := Ideal) x1 x9 x14 x15 (ix2 b r) = ∑ s : Fin 53, Cert.RhsSpec.gRT I (x1 (ix1 b)) s * Cert.RhsSpec.dnu I r s := by
  rd [val_main_v243_apply, lidx243, ridx243, gRT_at x0 x1 x2 x3 x4 x5 x6 x7 x8 x9 x10 x11 x12 x13 x14 x15, dnu_at x0 x1 x2 x3 x4 x5 x6 x7 x8 x9 x10 x11 x12 x13 x14 x15]

theorem dnuSum_at (r : Fin 325) : val_main_v245 (F := Ideal) x14 x15 (ix1 r) = Cert.RhsSpec.dnuSum I r := by
  rd [val_main_v245_apply, val_main_cst_22_apply, idx245, dnu_at x0 x1 x2 x3 x4 x5 x6 x7 x8 x9 x10 x11 x12 x13 x14 x15] <;> rfl

theorem lnKc_at (b : Fin 65536) (r : Fin 325) : val_main_v256 (F := Ideal) x1 x9 x14 x15 (ix2 b r) = Cert.RhsSpec.lnKc I (x1 (ix1 b)) r := by
  rd [val_main_v256_apply, val_main_v244_apply, val_main_v255_apply, val_main_v253, val_main_v252, val_main_v254, val_main_v251, val_main_v250_apply, val_main_v249_apply, val_main_v248, val_main_cst_24_apply, val_main_v247_apply, val_main_v246, val_main_cst_23_apply, gdnu_at x0 x1 x2 x3 x4 x5 x6 x7 x8 x9 x10 x11 x12 x13 x14 x15, dnuSum_at x0 x1 x2 x3 x4 x5 x6 x7 x8 x9 x10 x11 x12 x13 x14 x15] <;> rfl

theorem lnkr_at (b : Fin 65536) (r : Fin 325) : val_main_v257 (F := Ideal) x1 x9 x11 x12 x13 x14 x15 (ix2 b r) = Cert.RhsSpec.lnkr I (x1 (ix1 b)) r := by
  rd [val_main_v257_apply, lnkf_at x0 x1 x2 x3 x4 x5 x6 x7 x8 x9 x10 x11 x12 x13 x14 x15, lnKc_at x0 x1 x2 x3 x4 x5 x6 x7 x8 x9 x10 x11 x12 x13 x14 x15] <;> rfl

/-! ### The rates of progress and the production rates -/

theorem logC_at (b : Fin 65536) (s : Fin 53) : val_main_v266 (F := Ideal) x1 x2 x4 x10 (ix2 b s) = Cert.RhsSpec.logC I b s := by
  rd [val_main_v266_apply, val_main_v265_apply, val_main_v263_apply, val_main_v260_apply, val_main_v259, val_main_v258, val_main_v262, val_main_v261, val_main_v264, val_main_cst_25_apply, rho_at x0 x1 x2 x3 x4 x5 x6 x7 x8 x9 x10 x11 x12 x13 x14 x15] <;> rfl

theorem qf_at (b : Fin 65536) (r : Fin 325) : val_main_v270 (F := Ideal) x1 x2 x4 x10 x11 x12 x13 x14 (ix2 b r) = Cert.RhsSpec.qf I b r := by
  rd [val_main_v270_apply, val_main_v269_apply, val_main_call0_v4, val_main_call0_v3_apply, val_main_cst_27_apply, val_main_call0_v2_apply, val_main_call0_v1, val_main_call0_v0_apply, val_main_cst_26_apply, val_main_v268_apply, val_main_v267_apply, lidx267, ridx267, lnkf_at x0 x1 x2 x3 x4 x5 x6 x7 x8 x9 x10 x11 x12 x13 x14 x15, logC_at x0 x1 x2 x3 x4 x5 x6 x7 x8 x9 x10 x11 x12 x13 x14 x15] <;> rfl

theorem qr_at (b : Fin 65536) (r : Fin 325) : val_main_v274 (F := Ideal) x1 x2 x4 x9 x10 x11 x12 x13 x14 x15 (ix2 b r) = Cert.RhsSpec.qr I b r := by
  rd [val_main_v274_apply, val_main_v273_apply, val_main_call1_v4, val_main_call1_v3_apply, val_main_cst_29_apply, val_main_call1_v2_apply, val_main_call1_v1, val_main_call1_v0_apply, val_main_cst_28_apply, val_main_v272_apply, val_main_v271_apply, lidx271, ridx271, lnkr_at x0 x1 x2 x3 x4 x5 x6 x7 x8 x9 x10 x11 x12 x13 x14 x15, logC_at x0 x1 x2 x3 x4 x5 x6 x7 x8 x9 x10 x11 x12 x13 x14 x15] <;> rfl

theorem wdot_at (b : Fin 65536) (s : Fin 53) : val_main_v276 (F := Ideal) x1 x2 x4 x9 x10 x11 x12 x13 x14 x15 (ix2 b s) = Cert.RhsSpec.wdot I b s := by
  rd [val_main_v276_apply, val_main_v275_apply, lidx276, ridx276, qf_at x0 x1 x2 x3 x4 x5 x6 x7 x8 x9 x10 x11 x12 x13 x14 x15, qr_at x0 x1 x2 x3 x4 x5 x6 x7 x8 x9 x10 x11 x12 x13 x14 x15, dnu_at x0 x1 x2 x3 x4 x5 x6 x7 x8 x9 x10 x11 x12 x13 x14 x15] <;> rfl

theorem mSafe_at (b : Fin 65536) : val_main_v278 (F := Ideal) x3 (ix1 b) = Cert.RhsSpec.mSafe I b := by
  rd [val_main_v278_apply, val_main_v277, val_main_cst_30_apply] <;> rfl

/-! ### The three kinds of entries of the result row -/

theorem dY_at (b : Fin 65536) (s : Fin 53) : val_main_v293 (F := Ideal) x0 x1 x2 x3 x4 x6 x7 x9 x10 x11 x12 x13 x14 x15 (ix2 b s) = Cert.RhsSpec.dY I b s := by
  rd [val_main_v293_apply, val_main_v284_apply, val_main_v281_apply, val_main_v280, val_main_v279, val_main_v283, val_main_v282, val_main_v292_apply, val_main_v289_apply, val_main_v288, val_main_v287_apply, val_main_v286, val_main_v285, val_main_v291, val_main_v290, wdot_at x0 x1 x2 x3 x4 x5 x6 x7 x8 x9 x10 x11 x12 x13 x14 x15, rho_at x0 x1 x2 x3 x4 x5 x6 x7 x8 x9 x10 x11 x12 x13 x14 x15, mdotIn_at x0 x1 x2 x3 x4 x5 x6 x7 x8 x9 x10 x11 x12 x13 x14 x15, mSafe_at x0 x1 x2 x3 x4 x5 x6 x7 x8 x9 x10 x11 x12 x13 x14 x15] <;> rfl

theorem dT_at (b : Fin 65536) : val_main_v305 (F := Ideal) x0 x1 x2 x3 x4 x5 x6 x7 x9 x10 x11 x12 x13 x14 x15 (ix1 b) = Cert.RhsSpec.dT I b := by
  rd [val_main_v305_apply, val_main_v298_apply, val_main_v296_apply, val_main_v295_apply, val_main_v294_apply, val_main_cst_31_apply, val_main_v297_apply, val_main_v304_apply, val_main_v302_apply, val_main_v301, val_main_v300_apply, val_main_v299, val_main_v303_apply, idx295, hMol_at x0 x1 x2 x3 x4 x5 x6 x7 x8 x9 x10 x11 x12 x13 x14 x15, wdot_at x0 x1 x2 x3 x4 x5 x6 x7 x8 x9 x10 x11 x12 x13 x14 x15, rho_at x0 x1 x2 x3 x4 x5 x6 x7 x8 x9 x10 x11 x12 x13 x14 x15, cpMass_at x0 x1 x2 x3 x4 x5 x6 x7 x8 x9 x10 x11 x12 x13 x14 x15, hIn_at x0 x1 x2 x3 x4 x5 x6 x7 x8 x9 x10 x11 x12 x13 x14 x15, hMass_at x0 x1 x2 x3 x4 x5 x6 x7 x8 x9 x10 x11 x12 x13 x14 x15,
    mdotIn_at x0 x1 x2 x3 x4 x5 x6 x7 x8 x9 x10 x11 x12 x13 x14 x15, mSafe_at x0 x1 x2 x3 x4 x5 x6 x7 x8 x9 x10 x11 x12 x13 x14 x15] <;> rfl

theorem dm_at : val_main_v306 (F := Ideal) x0 x7 x8 ix0 = Cert.RhsSpec.dm I := by
  rd [val_main_v306_apply, mdotIn_at x0 x1 x2 x3 x4 x5 x6 x7 x8 x9 x10 x11 x12 x13 x14 x15, mdotOut_at x0 x1 x2 x3 x4 x5 x6 x7 x8 x9 x10 x11 x12 x13 x14 x15] <;> rfl

theorem dT_col (b : Fin 65536) (z : Fin 1) : val_main_v307 (F := Ideal) x0 x1 x2 x3 x4 x5 x6 x7 x9 x10 x11 x12 x13 x14 x15 (ix2 b z) = Cert.RhsSpec.dT I b := by
  rd [val_main_v307, dT_at x0 x1 x2 x3 x4 x5 x6 x7 x8 x9 x10 x11 x12 x13 x14 x15]

theorem dm_col (b : Fin 65536) (z : Fin 1) : val_main_v308 (F := Ideal) x0 x7 x8 (ix2 b z) = Cert.RhsSpec.dm I := by
  rd [val_main_v308, dm_at x0 x1 x2 x3 x4 x5 x6 x7 x8 x9 x10 x11 x12 x13 x14 x15]

/-! ### The result array -/

theorem ref_eq : val_main_v309 (F := Ideal) x0 x1 x2 x3 x4 x5 x6 x7 x8 x9 x10 x11 x12 x13 x14 x15 = Cert.RhsSpec.outArr I := by
  funext i
  obtain ⟨b, j, rfl⟩ : ∃ (b : Fin 65536) (j : Fin 55), i = ix2 b j := ⟨i 0, i 1, eq_ix2 i⟩
  show _ = Cert.RhsSpec.out I b j
  unfold val_main_v309 Cert.RhsSpec.out
  by_cases h0 : j.val = 0
  · rw [dif_pos h0]
    refine (concatenate_apply_piece (t := S65536x55) (1 : Fin 2)
      [⟨S65536x1, val_main_v307 (F := Ideal) x0 x1 x2 x3 x4 x5 x6 x7 x9 x10 x11 x12 x13 x14 x15⟩, ⟨S65536x53, val_main_v293 (F := Ideal) x0 x1 x2 x3 x4 x6 x7 x9 x10 x11 x12 x13 x14 x15⟩, ⟨S65536x1, val_main_v308 (F := Ideal) x0 x7 x8⟩]
      concatenates_S65536x1_S65536x53_S65536x1_S65536x55_d1 (ix2 b j) 0 (by show (0 : Nat) < 3; omega) S65536x1 (val_main_v307 (F := Ideal) x0 x1 x2 x3 x4 x5 x6 x7 x9 x10 x11 x12 x13 x14 x15) rfl rfl
      0 rfl (ix2 b (0 : Fin 1)) ?_ ?_).trans (dT_col x0 x1 x2 x3 x4 x5 x6 x7 x8 x9 x10 x11 x12 x13 x14 x15 b 0)
    · intro a ha
      match a with
      | ⟨0, _⟩ => rfl
      | ⟨1, _⟩ => exact absurd rfl ha
    · show 0 + 0 = j.val
      omega
  · by_cases h54 : j.val = 54
    · rw [dif_neg h0, dif_pos h54]
      refine (concatenate_apply_piece (t := S65536x55) (1 : Fin 2)
      [⟨S65536x1, val_main_v307 (F := Ideal) x0 x1 x2 x3 x4 x5 x6 x7 x9 x10 x11 x12 x13 x14 x15⟩, ⟨S65536x53, val_main_v293 (F := Ideal) x0 x1 x2 x3 x4 x6 x7 x9 x10 x11 x12 x13 x14 x15⟩, ⟨S65536x1, val_main_v308 (F := Ideal) x0 x7 x8⟩]
      concatenates_S65536x1_S65536x53_S65536x1_S65536x55_d1 (ix2 b j) 2 (by show (2 : Nat) < 3; omega) S65536x1 (val_main_v308 (F := Ideal) x0 x7 x8) rfl rfl
        54 rfl (ix2 b (0 : Fin 1)) ?_ ?_).trans (dm_col x0 x1 x2 x3 x4 x5 x6 x7 x8 x9 x10 x11 x12 x13 x14 x15 b 0)
      · intro a ha
        match a with
        | ⟨0, _⟩ => rfl
        | ⟨1, _⟩ => exact absurd rfl ha
      · show 54 + 0 = j.val
        omega
    · rw [dif_neg h0, dif_neg h54]
      have hj : j.val - 1 < 53 := by have := j.isLt; omega
      refine (concatenate_apply_piece (t := S65536x55) (1 : Fin 2)
      [⟨S65536x1, val_main_v307 (F := Ideal) x0 x1 x2 x3 x4 x5 x6 x7 x9 x10 x11 x12 x13 x14 x15⟩, ⟨S65536x53, val_main_v293 (F := Ideal) x0 x1 x2 x3 x4 x6 x7 x9 x10 x11 x12 x13 x14 x15⟩, ⟨S65536x1, val_main_v308 (F := Ideal) x0 x7 x8⟩]
      concatenates_S65536x1_S65536x53_S65536x1_S65536x55_d1 (ix2 b j) 1 (by show (1 : Nat) < 3; omega) S65536x53 (val_main_v293 (F := Ideal) x0 x1 x2 x3 x4 x6 x7 x9 x10 x11 x12 x13 x14 x15) rfl rfl
        1 rfl (ix2 b (⟨j.val - 1, hj⟩ : Fin 53)) ?_ ?_).trans (dY_at x0 x1 x2 x3 x4 x5 x6 x7 x8 x9 x10 x11 x12 x13 x14 x15 b ⟨j.val - 1, hj⟩)
      · intro a ha
        match a with
        | ⟨0, _⟩ => rfl
        | ⟨1, _⟩ => exact absurd rfl ha
      · show 1 + (j.val - 1) = j.val
        omega

end Stages

end Cert.ReferenceIdeal.RefValue

end
-- ==== Proof.lean ====
/-
  The certificate of the reactor right-hand-side kernel against its reference.

  Both programs compute, for every batch row, the same chain of operations: the NASA-7 polynomials of the species at the row's
  temperature, the mixture's density, heat capacity and enthalpy as sums over the species, the forward and reverse rate constants
  and rates of progress of the reactions (contractions over the species, clipped and exponentiated), the species' production rates
  (a contraction over the reactions), and from these dT/dt, dY/dt and dm/dt.  The kernel does this block by block over 64 blocks of
  1024 rows, with the tables prepared by host operations in front of the region; the reference does it on whole arrays.
  Read at an index, both results are the ONE function `Cert.RhsSpec.outArr` of the argument arrays (the kernel's by
  `KValue.kernel_run`: what each point writes back is that function's block, and the 64 blocks cover the result; the
  reference's by `RefValue.ref_eq` over its operations read one at a time), so the two runs from agreeing arguments end with
  equal results.  No law of arithmetic beyond the order of a finite sum separates the two, and the precondition is not used.
  The three frames: the two kernel programs' by the frame run of their one region (the body loads its blocks, computes, and
  stores three rectangles that tile the output block), the reference's by its run with the result dropped.  The idealization
  rewrote nothing, so `preserves` is trivial.
-/
import proofs.«132633_j39668317946412_1_alg».proof.Defs
import proofs.«132633_j39668317946412_1_alg».proof.Proof.Gen.Kernel
import proofs.«132633_j39668317946412_1_alg».proof.Proof.Gen.KernelIdeal
import proofs.«132633_j39668317946412_1_alg».proof.Proof.Gen.ReferenceIdeal
import proofs.«132633_j39668317946412_1_alg».proof.Proof.Gen.Pre_finite_inputs
import proofs.«132633_j39668317946412_1_alg».proof.Proof.KernelFrame
import proofs.«132633_j39668317946412_1_alg».proof.Proof.KernelIdealFrame
import proofs.«132633_j39668317946412_1_alg».proof.Proof.KernelValue
import proofs.«132633_j39668317946412_1_alg».proof.Proof.KernelBlocks
import proofs.«132633_j39668317946412_1_alg».proof.Proof.RefIsSpec

noncomputable section

namespace Cert.Proof

open Idealize.ShloMosaic Idealize.ShloMosaic.TcCoe Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference's frame: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- Both runs end with the result array at the specification's function of the (agreeing) arguments. -/
theorem algebraic : Cert.algebraic_KernelIdeal_ReferenceIdeal := by
  intro m ρ m' ρ' _ hagree
  refine ⟨fun c => Cert.RhsSpec.outArr (Cert.RhsSpec.ofArrays (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))),
    Cert.KernelIdeal.KValue.kernel_run_of m ρ (Cert.KernelIdeal.KValue.holds m), ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7, h8, h9, h10, h11, h12, h13, h14, h15⟩ := hagree c
  rw [Cert.ReferenceIdeal.ReadP.val_main_v309_eq, Cert.ReferenceIdeal.RefValue.ref_eq,
    h0, h1, h2, h3, h4, h5, h6, h7, h8, h9, h10, h11, h12, h13, h14, h15]

theorem claim : Cert.Claim := ⟨Cert.Kernel.Gen.facts, Cert.KernelIdeal.Gen.facts, Cert.ReferenceIdeal.Gen.facts,
  Cert.Pre_finite_inputs.Gen.facts, frame_kernel, frame_kernelIdeal, frame_reference, trivial, algebraic⟩

end Cert.Proof

end
